-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3x2048 : Shape := ⟨3, ![16384, 3, 2048]⟩
abbrev S16384x5 : Shape := ⟨2, ![16384, 5]⟩
abbrev S2048x768 : Shape := ⟨2, ![2048, 768]⟩
abbrev S768 : Shape := ⟨1, ![768]⟩
abbrev S30522x768 : Shape := ⟨2, ![30522, 768]⟩
abbrev S512x768 : Shape := ⟨2, ![512, 768]⟩
abbrev S2x768 : Shape := ⟨2, ![2, 768]⟩
abbrev S_ : Shape := ⟨0, ![]⟩

class Facts : Prop where
  bcast_S_S16384x3x2048 : S_.BroadcastsInDim S16384x3x2048 (![] : Fin 0 → Fin S16384x3x2048.rank)
  reducesTo_S16384x3x2048_S_d0_1_2 : S16384x3x2048.ReducesTo [0, 1, 2] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S768 : S_.BroadcastsInDim S768 (![] : Fin 0 → Fin S768.rank)
  reducesTo_S768_S_d0 : S768.ReducesTo [0] S_
  bcast_S_S30522x768 : S_.BroadcastsInDim S30522x768 (![] : Fin 0 → Fin S30522x768.rank)
  reducesTo_S30522x768_S_d0_1 : S30522x768.ReducesTo [0, 1] S_
  bcast_S_S512x768 : S_.BroadcastsInDim S512x768 (![] : Fin 0 → Fin S512x768.rank)
  reducesTo_S512x768_S_d0_1 : S512x768.ReducesTo [0, 1] S_
  bcast_S_S2x768 : S_.BroadcastsInDim S2x768 (![] : Fin 0 → Fin S2x768.rank)
  reducesTo_S2x768_S_d0_1 : S2x768.ReducesTo [0, 1] S_
  bcast_S_S16384x5 : S_.BroadcastsInDim S16384x5 (![] : Fin 0 → Fin S16384x5.rank)
  reducesTo_S16384x5_S_d0_1 : S16384x5.ReducesTo [0, 1] S_

variable [Facts]

def fn_part2 {F : FTy → Type} [FloatOps F] (main_arg1 : IVec S16384x5 32) (main_arg8 : FVec F S768 .f32) (main_v33 : IVec S_ 1) : IVec S_ 1 :=
  let main_v34 : FVec F S768 .f32 := Host.absf main_arg8
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_c_14 : IVec S_ 32 := constantI S_ 32 0#32
  let main_v39 : IVec S16384x5 32 := broadcastInDim S16384x5 ![] bcast_S_S16384x5 main_c_14
  let main_v40 : IVec S16384x5 1 := cmpi .sge main_arg1 main_v39
  let main_c_15 : IVec S_ 1 := constantI S_ 1 1#1
  let main_v41 : IVec S_ 1 := (fun x v => Host.reduce IntOp.andi x v reducesTo_S16384x5_S_d0_1 h_S_) main_v40 main_c_15
  let main_v42 : IVec S_ 1 := andi main_v38 main_v41
  let main_c_16 : IVec S_ 32 := constantI S_ 32 1#32
  let main_v43 : IVec S16384x5 32 := broadcastInDim S16384x5 ![] bcast_S_S16384x5 main_c_16
  let main_v44 : IVec S16384x5 1 := cmpi .sle main_arg1 main_v43
  let main_c_17 : IVec S_ 1 := constantI S_ 1 1#1
  let main_v45 : IVec S_ 1 := (fun x v => Host.reduce IntOp.andi x v reducesTo_S16384x5_S_d0_1 h_S_) main_v44 main_c_17
  let main_v46 : IVec S_ 1 := andi main_v42 main_v45
  main_v46

def fn_part1 {F : FTy → Type} [FloatOps F] (main_arg1 : IVec S16384x5 32) (main_arg5 : FVec F S512x768 .f32) (main_arg6 : FVec F S2x768 .f32) (main_arg7 : FVec F S768 .f32) (main_arg8 : FVec F S768 .f32) (main_v13 : IVec S_ 1) (main_v16 : IVec S30522x768 1) : IVec S_ 1 :=
  let main_c_5 : IVec S_ 1 := constantI S_ 1 1#1
  let main_v17 : IVec S_ 1 := (fun x v => Host.reduce IntOp.andi x v reducesTo_S30522x768_S_d0_1 h_S_) main_v16 main_c_5
  let main_v18 : IVec S_ 1 := andi main_v13 main_v17
  let main_v19 : FVec F S512x768 .f32 := Host.absf main_arg5
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S2x768 .f32 := Host.absf main_arg6
  let main_cst_8 : FVec F S_ .f32 := constant S_ .f32 0x7F800000#32
  let main_v25 : FVec F S2x768 .f32 := broadcastInDim S2x768 ![] bcast_S_S2x768 main_cst_8
  let main_v26 : IVec S2x768 1 := cmpf .olt main_v24 main_v25
  let main_c_9 : IVec S_ 1 := constantI S_ 1 1#1
  let main_v27 : IVec S_ 1 := (fun x v => Host.reduce IntOp.andi x v reducesTo_S2x768_S_d0_1 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg1 main_arg8 main_v33

def fn {F : FTy → Type} [FloatOps F] (main_arg0 : FVec F S16384x3x2048 .f32) (main_arg1 : IVec S16384x5 32) (main_arg2 : FVec F S2048x768 .f32) (main_arg3 : FVec F S768 .f32) (main_arg4 : FVec F S30522x768 .f32) (main_arg5 : FVec F S512x768 .f32) (main_arg6 : FVec F S2x768 .f32) (main_arg7 : FVec F S768 .f32) (main_arg8 : FVec F S768 .f32) : IVec S_ 1 :=
  let main_v0 : FVec F S16384x3x2048 .f32 := Host.absf main_arg0
  let main_cst : FVec F S_ .f32 := constant S_ .f32 0x7F800000#32
  let main_v1 : FVec F S16384x3x2048 .f32 := broadcastInDim S16384x3x2048 ![] bcast_S_S16384x3x2048 main_cst
  let main_v2 : IVec S16384x3x2048 1 := cmpf .olt main_v0 main_v1
  let main_c : IVec S_ 1 := constantI S_ 1 1#1
  let main_v3 : IVec S_ 1 := (fun x v => Host.reduce IntOp.andi x v reducesTo_S16384x3x2048_S_d0_1_2 h_S_) main_v2 main_c
  let main_v4 : FVec F S2048x768 .f32 := Host.absf main_arg2
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S30522x768 .f32 := Host.absf main_arg4
  let main_cst_4 : FVec F S_ .f32 := constant S_ .f32 0x7F800000#32
  let main_v15 : FVec F S30522x768 .f32 := broadcastInDim S30522x768 ![] bcast_S_S30522x768 main_cst_4
  let main_v16 : IVec S30522x768 1 := cmpf .olt main_v14 main_v15
  fn_part1 (F := F) main_arg1 main_arg5 main_arg6 main_arg7 main_arg8 main_v13 main_v16
-- ==== Kernel.lean ====
abbrev S16384x3x2048 : Shape := ⟨3, ![16384, 3, 2048]⟩
abbrev S16384x5 : Shape := ⟨2, ![16384, 5]⟩
abbrev S2048x768 : Shape := ⟨2, ![2048, 768]⟩
abbrev S768 : Shape := ⟨1, ![768]⟩
abbrev S30522x768 : Shape := ⟨2, ![30522, 768]⟩
abbrev S512x768 : Shape := ⟨2, ![512, 768]⟩
abbrev S2x768 : Shape := ⟨2, ![2, 768]⟩
abbrev S16384x6144 : Shape := ⟨2, ![16384, 6144]⟩
abbrev S5x768 : Shape := ⟨2, ![5, 768]⟩
abbrev S1x768 : Shape := ⟨2, ![1, 768]⟩
abbrev S16384x3840 : Shape := ⟨2, ![16384, 3840]⟩
abbrev S512x6144 : Shape := ⟨2, ![512, 6144]⟩
abbrev S512x5 : Shape := ⟨2, ![512, 5]⟩
abbrev S512x3840 : Shape := ⟨2, ![512, 3840]⟩
abbrev S512x2048 : Shape := ⟨2, ![512, 2048]⟩
abbrev S512x1 : Shape := ⟨2, ![512, 1]⟩
abbrev S512 : Shape := ⟨1, ![512]⟩
abbrev S4x768 : Shape := ⟨2, ![4, 768]⟩
abbrev S4 : Shape := ⟨1, ![4]⟩
abbrev S4x1 : Shape := ⟨2, ![4, 1]⟩
abbrev S16384x5x768 : Shape := ⟨3, ![16384, 5, 768]⟩

abbrev nBuf : Space → Nat
  | .hbm => 24
  | .vmem => 14
  | .smem => 0
  | _ => 0

abbrev bufTy : (tb : Table) → Fin (tcTables nBuf tb) → BufTy
  | .hbm, ⟨0, _⟩ => ⟨S16384x3x2048, .f32⟩
  | .hbm, ⟨1, _⟩ => ⟨S16384x5, .i32⟩
  | .hbm, ⟨2, _⟩ => ⟨S2048x768, .f32⟩
  | .hbm, ⟨3, _⟩ => ⟨S768, .f32⟩
  | .hbm, ⟨4, _⟩ => ⟨S30522x768, .f32⟩
  | .hbm, ⟨5, _⟩ => ⟨S512x768, .f32⟩
  | .hbm, ⟨6, _⟩ => ⟨S2x768, .f32⟩
  | .hbm, ⟨7, _⟩ => ⟨S768, .f32⟩
  | .hbm, ⟨8, _⟩ => ⟨S768, .f32⟩
  | .hbm, ⟨9, _⟩ => ⟨S16384x6144, .f32⟩
  | .hbm, ⟨10, _⟩ => ⟨S16384x5, .f32⟩
  | .hbm, ⟨11, _⟩ => ⟨S2048x768, .bf16⟩
  | .hbm, ⟨12, _⟩ => ⟨S5x768, .f32⟩
  | .hbm, ⟨13, _⟩ => ⟨S1x768, .f32⟩
  | .hbm, ⟨14, _⟩ => ⟨S768, .f32⟩
  | .hbm, ⟨15, _⟩ => ⟨S1x768, .f32⟩
  | .hbm, ⟨16, _⟩ => ⟨S1x768, .f32⟩
  | .hbm, ⟨17, _⟩ => ⟨S768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S16384x3840, .f32⟩
  | .hbm, ⟨23, _⟩ => ⟨S16384x5x768, .f32⟩
  | .local _ .vmem, ⟨0, _⟩ => ⟨S512x6144, .f32⟩
  | .local _ .vmem, ⟨1, _⟩ => ⟨S512x6144, .f32⟩
  | .local _ .vmem, ⟨2, _⟩ => ⟨S512x5, .f32⟩
  | .local _ .vmem, ⟨3, _⟩ => ⟨S512x5, .f32⟩
  | .local _ .vmem, ⟨4, _⟩ => ⟨S2048x768, .bf16⟩
  | .local _ .vmem, ⟨5, _⟩ => ⟨S1x768, .f32⟩
  | .local _ .vmem, ⟨6, _⟩ => ⟨S5x768, .f32⟩
  | .local _ .vmem, ⟨7, _⟩ => ⟨S2x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S512x3840, .f32⟩
  | .local _ .vmem, ⟨13, _⟩ => ⟨S512x3840, .f32⟩
  | _, _ => ⟨S16384x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3840 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S16384x3x2048_S16384x6144 : S16384x3x2048.ShapeCasts S16384x6144
  bitsLt_bf16_f32 : FTy.bits .bf16 < FTy.bits .f32
  slices_S512x768_S5x768_0_0 : S512x768.Slices ![0, 0] S5x768
  slices_S30522x768_S1x768_101_0 : S30522x768.Slices ![101, 0] S1x768
  shapeCasts_S1x768_S768 : S1x768.ShapeCasts S768
  bcast_S768_S1x768_1 : S768.BroadcastsInDim S1x768 (![1] : Fin 1 → Fin S1x768.rank)
  slices_S30522x768_S1x768_102_0 : S30522x768.Slices ![102, 0] S1x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S2x768_S1x768_0_0 : ∀ a, (![0, 0] : Fin 2 → Nat) a + S1x768.size a ≤ S2x768.size a
  h_S1x768 : 0 < S1x768.numel
  inb_S2x768_S1x768_1_0 : ∀ a, (![1, 0] : Fin 2 → Nat) a + S1x768.size a ≤ S2x768.size a
  inb_S1x768_S1x768_0_0 : ∀ a, (![0, 0] : Fin 2 → Nat) a + S1x768.size a ≤ S1x768.size a
  shapeCasts_S1x768_S1x768 : S1x768.ShapeCasts S1x768
  inb_S512x6144_S512x2048_0_0 : ∀ a, (![0, 0] : Fin 2 → Nat) a + S512x2048.size a ≤ S512x6144.size a
  h_S512x2048 : 0 < S512x2048.numel
  shapeCasts_S512x2048_S512x2048 : S512x2048.ShapeCasts S512x2048
  inb_S5x768_S1x768_1_0 : ∀ a, (![1, 0] : Fin 2 → Nat) a + S1x768.size a ≤ S5x768.size a
  broadcasts_S1x768_S512x768 : S1x768.Broadcasts S512x768
  slices_S512x5_o0_1_S512x1 : S512x5.Slices ![0, 1] S512x1
  broadcasts_S512x1_S512x768 : S512x1.Broadcasts S512x768
  reduces_S512x768_S512 : S512x768.Reduces [1] S512
  shapeCasts_S512_S512x1 : S512.ShapeCasts S512x1
  inb_S512x3840_S512x768_0_768 : ∀ a, (![0, 768] : Fin 2 → Nat) a + S512x768.size a ≤ S512x3840.size a
  h_S512x768 : 0 < S512x768.numel
  inb_S512x6144_S512x2048_0_2048 : ∀ a, (![0, 2048] : Fin 2 → Nat) a + S512x2048.size a ≤ S512x6144.size a
  inb_S5x768_S1x768_2_0 : ∀ a, (![2, 0] : Fin 2 → Nat) a + S1x768.size a ≤ S5x768.size a
  slices_S512x5_o0_2_S512x1 : S512x5.Slices ![0, 2] S512x1
  inb_S512x3840_S512x768_0_1536 : ∀ a, (![0, 1536] : Fin 2 → Nat) a + S512x768.size a ≤ S512x3840.size a
  inb_S512x6144_S512x2048_0_4096 : ∀ a, (![0, 4096] : Fin 2 → Nat) a + S512x2048.size a ≤ S512x6144.size a
  inb_S5x768_S1x768_3_0 : ∀ a, (![3, 0] : Fin 2 → Nat) a + S1x768.size a ≤ S5x768.size a
  slices_S512x5_o0_3_S512x1 : S512x5.Slices ![0, 3] S512x1
  inb_S512x3840_S512x768_0_2304 : ∀ a, (![0, 2304] : Fin 2 → Nat) a + S512x768.size a ≤ S512x3840.size a
  inb_S5x768_S1x768_0_0 : ∀ a, (![0, 0] : Fin 2 → Nat) a + S1x768.size a ≤ S5x768.size a
  inb_S5x768_S1x768_4_0 : ∀ a, (![4, 0] : Fin 2 → Nat) a + S1x768.size a ≤ S5x768.size a
  concatenates_S1x768_S1x768_S1x768_S1x768_S4x768_d0 : Shape.Concatenates [S1x768, S1x768, S1x768, S1x768] S4x768 0
  reduces_S4x768_S4 : S4x768.Reduces [1] S4
  shapeCasts_S4_S4x1 : S4.ShapeCasts S4x1
  broadcasts_S4x1_S4x768 : S4x1.Broadcasts S4x768
  broadcasts_S1x768_S4x768 : S1x768.Broadcasts S4x768
  slices_S4x768_o0_0_S1x768 : S4x768.Slices ![0, 0] S1x768
  slices_S512x5_o0_0_S512x1 : S512x5.Slices ![0, 0] S512x1
  slices_S4x768_o1_0_S1x768 : S4x768.Slices ![1, 0] S1x768
  slices_S4x768_o2_0_S1x768 : S4x768.Slices ![2, 0] S1x768
  slices_S512x5_o0_4_S512x1 : S512x5.Slices ![0, 4] S512x1
  slices_S4x768_o3_0_S1x768 : S4x768.Slices ![3, 0] S1x768
  inb_S512x3840_S512x768_0_0 : ∀ a, (![0, 0] : Fin 2 → Nat) a + S512x768.size a ≤ S512x3840.size a
  inb_S512x3840_S512x768_0_3072 : ∀ a, (![0, 3072] : Fin 2 → Nat) a + S512x768.size a ≤ S512x3840.size a
  shapeCasts_S16384x3840_S16384x5x768 : S16384x3840.ShapeCasts S16384x5x768
  dot_S512x2048_S2048x768_S512x768_1_0_0_1_n_n_wf : DotDims.WF S512x2048 S2048x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6144.size a ≤ S16384x6144.size a
  hwx0_0 : ∀ i : grid0.Coords, EltTy.bits .f32 = 32 ∨ (Rect.block (s := S16384x6144) S512x6144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x5.size a ≤ S16384x5.size a
  hwx0_1 : ∀ i : grid0.Coords, EltTy.bits .f32 = 32 ∨ (Rect.block (s := S16384x5) S512x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S2048x768.size a
  hwx0_2 : ∀ i : grid0.Coords, EltTy.bits .bf16 = 32 ∨ (Rect.block (s := S2048x768) S2048x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x768.size a ≤ S5x768.size a
  hwx0_4 : ∀ i : grid0.Coords, EltTy.bits .f32 = 32 ∨ (Rect.block (s := S5x768) S5x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x768.size a ≤ S2x768.size a
  hwx0_5 : ∀ i : grid0.Coords, EltTy.bits .f32 = 32 ∨ (Rect.block (s := S2x768) S2x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x3840.size a ≤ S16384x3840.size a
  hwx0_10 : ∀ i : grid0.Coords, EltTy.bits .f32 = 32 ∨ (Rect.block (s := S16384x3840) S512x3840.size (cc0_transform_10 i) (hinb0_10 i)).WholeWords (EltTy.packing .f32)

variable [Facts₀]

def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf

abbrev win0_0 : Pipeline.Window sig grid0 :=
  Pipeline.Window.ofSpec (Memref.whole main_v0) S512x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S2x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S512x3840.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x3x2048 : Shape := ⟨3, ![16384, 3, 2048]⟩
abbrev S16384x5 : Shape := ⟨2, ![16384, 5]⟩
abbrev S2048x768 : Shape := ⟨2, ![2048, 768]⟩
abbrev S768 : Shape := ⟨1, ![768]⟩
abbrev S30522x768 : Shape := ⟨2, ![30522, 768]⟩
abbrev S512x768 : Shape := ⟨2, ![512, 768]⟩
abbrev S2x768 : Shape := ⟨2, ![2, 768]⟩
abbrev S1x768 : Shape := ⟨2, ![1, 768]⟩
abbrev S1x1x768 : Shape := ⟨3, ![1, 1, 768]⟩
abbrev S16384x1x768 : Shape := ⟨3, ![16384, 1, 768]⟩
abbrev S16384x3x768 : Shape := ⟨3, ![16384, 3, 768]⟩
abbrev S16384x5x768 : Shape := ⟨3, ![16384, 5, 768]⟩
abbrev S5 : Shape := ⟨1, ![5]⟩
abbrev S_ : Shape := ⟨0, ![]⟩
abbrev S5x1 : Shape := ⟨2, ![5, 1]⟩
abbrev S1 : Shape := ⟨1, ![1]⟩
abbrev S1x1 : Shape := ⟨2, ![1, 1]⟩
abbrev S5x768 : Shape := ⟨2, ![5, 768]⟩
abbrev S1x5x768 : Shape := ⟨3, ![1, 5, 768]⟩
abbrev S16384x5x1 : Shape := ⟨3, ![16384, 5, 1]⟩
abbrev S1x1x1 : Shape := ⟨3, ![1, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S16384x3x2048, .f32⟩
  | .hbm, ⟨1, _⟩ => ⟨S16384x5, .i32⟩
  | .hbm, ⟨2, _⟩ => ⟨S2048x768, .f32⟩
  | .hbm, ⟨3, _⟩ => ⟨S768, .f32⟩
  | .hbm, ⟨4, _⟩ => ⟨S30522x768, .f32⟩
  | .hbm, ⟨5, _⟩ => ⟨S512x768, .f32⟩
  | .hbm, ⟨6, _⟩ => ⟨S2x768, .f32⟩
  | .hbm, ⟨7, _⟩ => ⟨S768, .f32⟩
  | .hbm, ⟨8, _⟩ => ⟨S768, .f32⟩
  | .hbm, ⟨9, _⟩ => ⟨S1x768, .f32⟩
  | .hbm, ⟨10, _⟩ => ⟨S768, .f32⟩
  | .hbm, ⟨11, _⟩ => ⟨S1x1x768, .f32⟩
  | .hbm, ⟨12, _⟩ => ⟨S16384x1x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S16384x1x768, .f32⟩
  | .hbm, ⟨17, _⟩ => ⟨S16384x3x768, .f32⟩
  | .hbm, ⟨18, _⟩ => ⟨S1x1x768, .f32⟩
  | .hbm, ⟨19, _⟩ => ⟨S16384x3x768, .f32⟩
  | .hbm, ⟨20, _⟩ => ⟨S16384x3x768, .f32⟩
  | .hbm, ⟨21, _⟩ => ⟨S16384x5x768, .f32⟩
  | .hbm, ⟨22, _⟩ => ⟨S5, .i32⟩
  | .hbm, ⟨23, _⟩ => ⟨S_, .i32⟩
  | .hbm, ⟨24, _⟩ => ⟨S5, .i32⟩
  | .hbm, ⟨25, _⟩ => ⟨S5, .i1⟩
  | .hbm, ⟨26, _⟩ => ⟨S_, .i32⟩
  | .hbm, ⟨27, _⟩ => ⟨S5, .i32⟩
  | .hbm, ⟨28, _⟩ => ⟨S5, .i32⟩
  | .hbm, ⟨29, _⟩ => ⟨S5, .i32⟩
  | .hbm, ⟨30, _⟩ => ⟨S5x1, .i32⟩
  | .hbm, ⟨31, _⟩ => ⟨S1, .i32⟩
  | .hbm, ⟨32, _⟩ => ⟨S_, .i32⟩
  | .hbm, ⟨33, _⟩ => ⟨S5x1, .i32⟩
  | .hbm, ⟨34, _⟩ => ⟨S5x1, .i1⟩
  | .hbm, ⟨35, _⟩ => ⟨S1x1, .i32⟩
  | .hbm, ⟨36, _⟩ => ⟨S5x1, .i32⟩
  | .hbm, ⟨37, _⟩ => ⟨S5x1, .i1⟩
  | .hbm, ⟨38, _⟩ => ⟨S5x1, .i1⟩
  | .hbm, ⟨39, _⟩ => ⟨S_, .i1⟩
  | .hbm, ⟨40, _⟩ => ⟨S5, .i1⟩
  | .hbm, ⟨41, _⟩ => ⟨S5x768, .f32⟩
  | .hbm, ⟨42, _⟩ => ⟨S5x768, .i1⟩
  | .hbm, ⟨43, _⟩ => ⟨S_, .f32⟩
  | .hbm, ⟨44, _⟩ => ⟨S5x768, .f32⟩
  | .hbm, ⟨45, _⟩ => ⟨S5x768, .f32⟩
  | .hbm, ⟨46, _⟩ => ⟨S1x5x768, .f32⟩
  | .hbm, ⟨47, _⟩ => ⟨S16384x5x768, .f32⟩
  | .hbm, ⟨48, _⟩ => ⟨S_, .i32⟩
  | .hbm, ⟨49, _⟩ => ⟨S16384x5, .i32⟩
  | .hbm, ⟨50, _⟩ => ⟨S16384x5, .i1⟩
  | .hbm, ⟨51, _⟩ => ⟨S_, .i32⟩
  | .hbm, ⟨52, _⟩ => ⟨S16384x5, .i32⟩
  | .hbm, ⟨53, _⟩ => ⟨S16384x5, .i32⟩
  | .hbm, ⟨54, _⟩ => ⟨S16384x5, .i32⟩
  | .hbm, ⟨55, _⟩ => ⟨S16384x5x1, .i32⟩
  | .hbm, ⟨56, _⟩ => ⟨S1, .i32⟩
  | .hbm, ⟨57, _⟩ => ⟨S_, .i32⟩
  | .hbm, ⟨58, _⟩ => ⟨S16384x5x1, .i32⟩
  | .hbm, ⟨59, _⟩ => ⟨S16384x5x1, .i1⟩
  | .hbm, ⟨60, _⟩ => ⟨S1x1x1, .i32⟩
  | .hbm, ⟨61, _⟩ => ⟨S16384x5x1, .i32⟩
  | .hbm, ⟨62, _⟩ => ⟨S16384x5x1, .i1⟩
  | .hbm, ⟨63, _⟩ => ⟨S16384x5x1, .i1⟩
  | .hbm, ⟨64, _⟩ => ⟨S_, .i1⟩
  | .hbm, ⟨65, _⟩ => ⟨S16384x5, .i1⟩
  | .hbm, ⟨66, _⟩ => ⟨S16384x5x768, .f32⟩
  | .hbm, ⟨67, _⟩ => ⟨S16384x5x768, .i1⟩
  | .hbm, ⟨68, _⟩ => ⟨S_, .f32⟩
  | .hbm, ⟨69, _⟩ => ⟨S16384x5x768, .f32⟩
  | .hbm, ⟨70, _⟩ => ⟨S16384x5x768, .f32⟩
  | .hbm, ⟨71, _⟩ => ⟨S16384x5x768, .f32⟩
  | .hbm, ⟨72, _⟩ => ⟨S16384x5x768, .f32⟩
  | .hbm, ⟨73, _⟩ => ⟨S_, .f32⟩
  | .hbm, ⟨74, _⟩ => ⟨S16384x5, .f32⟩
  | .hbm, ⟨75, _⟩ => ⟨S16384x5x1, .f32⟩
  | .hbm, ⟨76, _⟩ => ⟨S_, .f32⟩
  | .hbm, ⟨77, _⟩ => ⟨S16384x5x1, .f32⟩
  | .hbm, ⟨78, _⟩ => ⟨S16384x5x1, .f32⟩
  | .hbm, ⟨79, _⟩ => ⟨S16384x5x768, .f32⟩
  | .hbm, ⟨80, _⟩ => ⟨S16384x5x768, .f32⟩
  | .hbm, ⟨81, _⟩ => ⟨S16384x5x768, .f32⟩
  | .hbm, ⟨82, _⟩ => ⟨S_, .f32⟩
  | .hbm, ⟨83, _⟩ => ⟨S16384x5, .f32⟩
  | .hbm, ⟨84, _⟩ => ⟨S16384x5x1, .f32⟩
  | .hbm, ⟨85, _⟩ => ⟨S_, .f32⟩
  | .hbm, ⟨86, _⟩ => ⟨S16384x5x1, .f32⟩
  | .hbm, ⟨87, _⟩ => ⟨S16384x5x1, .f32⟩
  | .hbm, ⟨88, _⟩ => ⟨S16384x5x768, .f32⟩
  | .hbm, ⟨89, _⟩ => ⟨S16384x5x768, .f32⟩
  | .hbm, ⟨90, _⟩ => ⟨S_, .f32⟩
  | .hbm, ⟨91, _⟩ => ⟨S16384x5x1, .f32⟩
  | .hbm, ⟨92, _⟩ => ⟨S16384x5x1, .f32⟩
  | .hbm, ⟨93, _⟩ => ⟨S16384x5x1, .f32⟩
  | .hbm, ⟨94, _⟩ => ⟨S16384x5x768, .f32⟩
  | .hbm, ⟨95, _⟩ => ⟨S16384x5x768, .f32⟩
  | .hbm, ⟨96, _⟩ => ⟨S1x1x768, .f32⟩
  | .hbm, ⟨97, _⟩ => ⟨S16384x5x768, .f32⟩
  | .hbm, ⟨98, _⟩ => ⟨S16384x5x768, .f32⟩
  | .hbm, ⟨99, _⟩ => ⟨S1x1x768, .f32⟩
  | .hbm, ⟨100, _⟩ => ⟨S16384x5x768, .f32⟩
  | .hbm, ⟨101, _⟩ => ⟨S16384x5x768, .f32⟩
  | _, _ => ⟨S16384x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst : Ref sig .tc := ⟨.hbm, 73, rfl⟩
abbrev main_v20 : Ref sig .tc := ⟨.hbm, 74, rfl⟩
abbrev main_v21 : Ref sig .tc := ⟨.hbm, 75, rfl⟩
abbrev main_cst_0 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_1 : Ref sig .tc := ⟨.hbm, 82, rfl⟩
abbrev main_v27 : Ref sig .tc := ⟨.hbm, 83, rfl⟩
abbrev main_v28 : Ref sig .tc := ⟨.hbm, 84, rfl⟩
abbrev main_cst_2 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_3 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩

abbrev nD : Nat := 1
abbrev τ : Topo := Topo.v7x

variable {F : FTy → Type} [FloatOps F]

class Facts₀ : Prop where
  slices_S30522x768_S1x768_101_0 : S30522x768.Slices ![101, 0] S1x768
  shapeCasts_S1x768_S768 : S1x768.ShapeCasts S768
  bcast_S768_S1x1x768_2 : S768.BroadcastsInDim S1x1x768 (![2] : Fin 1 → Fin S1x1x768.rank)
  bcast_S1x1x768_S16384x1x768_0_1_2 : S1x1x768.BroadcastsInDim S16384x1x768 (![0, 1, 2] : Fin 3 → Fin S16384x1x768.rank)
  slices_S30522x768_S1x768_102_0 : S30522x768.Slices ![102, 0] S1x768
  bcast_S1x1x768_S16384x3x768_0_1_2 : S1x1x768.BroadcastsInDim S16384x3x768 (![0, 1, 2] : Fin 3 → Fin S16384x3x768.rank)
  concatenates_S16384x1x768_S16384x3x768_S16384x1x768_S16384x5x768_d1 : Shape.Concatenates [S16384x1x768, S16384x3x768, S16384x1x768] S16384x5x768 1
  bcast_S_S5 : S_.BroadcastsInDim S5 (![] : Fin 0 → Fin S5.rank)
  bcast_S5_S5x1_0 : S5.BroadcastsInDim S5x1 (![0] : Fin 1 → Fin S5x1.rank)
  bcast_S_S5x1 : S_.BroadcastsInDim S5x1 (![] : Fin 0 → Fin S5x1.rank)
  bcast_S1_S1x1_1 : S1.BroadcastsInDim S1x1 (![1] : Fin 1 → Fin S1x1.rank)
  bcast_S1x1_S5x1_0_1 : S1x1.BroadcastsInDim S5x1 (![0, 1] : Fin 2 → Fin S5x1.rank)
  reducesTo_S5x1_S5_d1 : S5x1.ReducesTo [1] S5
  h_S_ : 0 < S_.numel
  bcast_S5_S5x768_0 : S5.BroadcastsInDim S5x768 (![0] : Fin 1 → Fin S5x768.rank)
  bcast_S_S5x768 : S_.BroadcastsInDim S5x768 (![] : Fin 0 → Fin S5x768.rank)
  bcast_S5x768_S1x5x768_1_2 : S5x768.BroadcastsInDim S1x5x768 (![1, 2] : Fin 2 → Fin S1x5x768.rank)
  bcast_S1x5x768_S16384x5x768_0_1_2 : S1x5x768.BroadcastsInDim S16384x5x768 (![0, 1, 2] : Fin 3 → Fin S16384x5x768.rank)
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  bcast_S_S16384x5x1 : S_.BroadcastsInDim S16384x5x1 (![] : Fin 0 → Fin S16384x5x1.rank)
  bcast_S1_S1x1x1_2 : S1.BroadcastsInDim S1x1x1 (![2] : Fin 1 → Fin S1x1x1.rank)
  bcast_S1x1x1_S16384x5x1_0_1_2 : S1x1x1.BroadcastsInDim S16384x5x1 (![0, 1, 2] : Fin 3 → Fin S16384x5x1.rank)
  reducesTo_S16384x5x1_S16384x5_d2 : S16384x5x1.ReducesTo [2] S16384x5
  bcast_S16384x5_S16384x5x768_0_1 : S16384x5.BroadcastsInDim S16384x5x768 (![0, 1] : Fin 2 → Fin S16384x5x768.rank)
  bcast_S_S16384x5x768 : S_.BroadcastsInDim S16384x5x768 (![] : Fin 0 → Fin S16384x5x768.rank)
  reducesTo_S16384x5x768_S16384x5_d2 : S16384x5x768.ReducesTo [2] S16384x5
  bcast_S16384x5x1_S16384x5x768_0_1_2 : S16384x5x1.BroadcastsInDim S16384x5x768 (![0, 1, 2] : Fin 3 → Fin S16384x5x768.rank)
  bcast_S1x1x768_S16384x5x768_0_1_2 : S1x1x768.BroadcastsInDim S16384x5x768 (![0, 1, 2] : Fin 3 → Fin S16384x5x768.rank)
  dot_S16384x3x2048_S2048x768_S16384x3x768_2_0_01_1_n_n_wf : DotDims.WF S16384x3x2048 S2048x768 S16384x3x768 [2] [0] [0, 1] [1] [] []
  gather_S512x768_S5x1_S5x768_1_0_n_n_0_1_1768_wf : GatherDims.WF S512x768 S5x1 S5x768 [1] [0] [] [0] [] 1 ![1, 768]
  gather_S2x768_S16384x5x1_S16384x5x768_2_0_n_n_0_2_1768_wf : GatherDims.WF S2x768 S16384x5x1 S16384x5x768 [2] [0] [] [0] [] 2 ![1, 768]

variable [Facts₀]

def dot_S16384x3x2048_S2048x768_S16384x3x768_2_0_01_1_n_n : DotDims S16384x3x2048 S2048x768 S16384x3x768 where
  lhsContracting := [2]
  rhsContracting := [0]
  lhsNonContracting := [0, 1]
  rhsNonContracting := [1]
  lhsBatch := []
  rhsBatch := []
  wf := dot_S16384x3x2048_S2048x768_S16384x3x768_2_0_01_1_n_n_wf
def gather_S512x768_S5x1_S5x768_1_0_n_n_0_1_1768 : GatherDims S512x768 S5x1 S5x768 where
  offsetDims := [1]
  collapsedSliceDims := [0]
  operandBatchingDims := []
  startIndicesBatchingDims := []
  startIndexMap := [0]
  indexVectorDim := 1
  sliceSizes := ![1, 768]
  wf := gather_S512x768_S5x1_S5x768_1_0_n_n_0_1_1768_wf
def gather_S2x768_S16384x5x1_S16384x5x768_2_0_n_n_0_2_1768 : GatherDims S2x768 S16384x5x1 S16384x5x768 where
  offsetDims := [2]
  collapsedSliceDims := [0]
  operandBatchingDims := []
  startIndicesBatchingDims := []
  startIndexMap := [0]
  indexVectorDim := 2
  sliceSizes := ![1, 768]
  wf := gather_S2x768_S16384x5x1_S16384x5x768_2_0_n_n_0_2_1768_wf

class Facts : Prop extends Facts₀ where

variable [Facts]
-- ==== Proof.Spec.lean ====
/-
  The mathematics both programs compute, stated once over plain index types.

  A batch row r has five output rows q = 0..4 of 768 features each.  Row 0 is the [CLS] word
  embedding, rows 1..3 are the three image slots projected by the 2048 x 768 matrix W (plus the
  projection's bias), row 4 is the [SEP] word embedding; to each the position embedding of q and
  the token-type embedding selected by the integer tt r q are added, and the sum is layer-normalised
  over its 768 features.

  The kernel spells the token-type lookup as a blend tte0 + t * (tte1 - tte0) with t the integer read
  as a number, computes the two possible normalised [CLS] (and [SEP]) rows once and blends those, and
  normalises by multiplying with the reciprocal square root; the reference gathers the row tt selects
  and divides by the square root.  `kernelOut` and `refOut` are the two spellings; SpecLaws proves
  them equal where every float entry is a real number and every tt is 0 or 1.
-/
import Idealize.ShloMosaic.PureOps.Ideal

noncomputable section

namespace Cert.Spec

open Idealize.ShloMosaic

/-- One row of 768 features. -/
abbrev Row := Fin 768 → EReal

/-- The feature count 768 as the programs' f32 literal. -/
def c768 : EReal := Ideal.ofBits .f32 0x44400000#32
/-- The variance offset, f32(1e-12), as the programs' f32 literal. -/
def ceps : EReal := Ideal.ofBits .f32 0x2B8CBCCC#32

/-- The mean of a row: its sum divided by 768. -/
def mean (v : Row) : EReal := Ideal.div (∑ k, v k) c768
/-- A row minus its mean. -/
def cen (v : Row) : Row := fun h => v h - mean v
/-- The (biased) variance of a row. -/
def var (v : Row) : EReal := Ideal.div (∑ k, cen v k * cen v k) c768
/-- Layer normalisation as the kernel spells it: centred row times rsqrt (var + eps), times gain, plus bias. -/
def lnK (v g b : Row) : Row := fun h => cen v h * Ideal.rsqrt (var v + ceps) * g h + b h
/-- Layer normalisation as the reference spells it: centred row divided by sqrt (var + eps), times gain, plus bias. -/
def lnR (v g b : Row) : Row := fun h => Ideal.div (cen v h) (Ideal.sqrt (var v + ceps)) * g h + b h

/-- A token type read as a number (the signed integer, exactly). -/
def ttf (t : BitVec 32) : EReal := ((t.toInt : ℝ) : EReal)
/-- The row of the two-row token-type table a token type selects (1 selects row 1, anything else row 0). -/
def ttIdx (t : BitVec 32) : Fin 2 := if t = 1#32 then 1 else 0

/-- One image slot's 2048 features projected by W. -/
def proj (x : Fin 2048 → EReal) (W : Fin 2048 → Fin 768 → EReal) : Row := fun h => ∑ e, x e * W e h

/-- The argument arrays over plain index types. -/
structure Args where
  x : Fin 16384 → Fin 3 → Fin 2048 → EReal
  tt : Fin 16384 → Fin 5 → BitVec 32
  W : Fin 2048 → Fin 768 → EReal
  bimg : Row
  word : Fin 30522 → Row
  pos : Fin 512 → Row
  tte : Fin 2 → Row
  g : Row
  b : Row

/-- An extended real that is a real number. -/
def IsReal (x : EReal) : Prop := ∃ y : ℝ, x = (y : EReal)

/-- Every float entry of the arguments is a real number. -/
structure Args.Finite (A : Args) : Prop where
  x : ∀ r s e, IsReal (A.x r s e)
  W : ∀ e h, IsReal (A.W e h)
  bimg : ∀ h, IsReal (A.bimg h)
  word : ∀ v h, IsReal (A.word v h)
  pos : ∀ p h, IsReal (A.pos p h)
  tte : ∀ t h, IsReal (A.tte t h)
  g : ∀ h, IsReal (A.g h)
  b : ∀ h, IsReal (A.b h)

/-- Every token type is 0 or 1. -/
def Args.Binary (A : Args) : Prop := ∀ r q, A.tt r q = 0#32 ∨ A.tt r q = 1#32

/-! ### The kernel's spelling -/

/-- An image slot's row before normalisation, the kernel's way: projection, plus (bias + position + type row 0),
    plus the type number times (type row 1 - type row 0). -/
def imgK (xr : Fin 2048 → EReal) (W : Fin 2048 → Fin 768 → EReal) (bimg p t0 t1 : Row) (t : BitVec 32) : Row :=
  fun h => (proj xr W h + ((bimg h + p h) + t0 h)) + ttf t * (t1 h - t0 h)

/-- An edge row ([CLS] or [SEP]) before normalisation for token type 0. -/
def edge0 (w p t0 : Row) : Row := fun h => (w h + p h) + t0 h
/-- An edge row before normalisation for token type 1, the kernel's way. -/
def edge1 (w p t0 t1 : Row) : Row := fun h => ((w h + p h) + t0 h) + (t1 h - t0 h)
/-- An edge row after normalisation, the kernel's way: the two candidates normalised, blended by the type number. -/
def edgeK (w p t0 t1 g b : Row) (t : BitVec 32) : Row := fun h =>
  lnK (edge0 w p t0) g b h + ttf t * (lnK (edge1 w p t0 t1) g b h - lnK (edge0 w p t0) g b h)

/-- What the kernel's program leaves at batch row r, output row q. -/
def kernelOut (A : Args) (r : Fin 16384) : Fin 5 → Row
  | ⟨0, _⟩ => edgeK (A.word 101) (A.pos 0) (A.tte 0) (A.tte 1) A.g A.b (A.tt r 0)
  | ⟨1, _⟩ => lnK (imgK (A.x r 0) A.W A.bimg (A.pos 1) (A.tte 0) (A.tte 1) (A.tt r 1)) A.g A.b
  | ⟨2, _⟩ => lnK (imgK (A.x r 1) A.W A.bimg (A.pos 2) (A.tte 0) (A.tte 1) (A.tt r 2)) A.g A.b
  | ⟨3, _⟩ => lnK (imgK (A.x r 2) A.W A.bimg (A.pos 3) (A.tte 0) (A.tte 1) (A.tt r 3)) A.g A.b
  | ⟨4, _⟩ => edgeK (A.word 102) (A.pos 4) (A.tte 0) (A.tte 1) A.g A.b (A.tt r 4)
  | ⟨n + 5, h⟩ => absurd h (by omega)

/-! ### The reference's spelling -/

/-- The token embedding of output row q: [CLS], the three projected image slots plus bias, [SEP]. -/
def tok (A : Args) (r : Fin 16384) : Fin 5 → Row
  | ⟨0, _⟩ => A.word 101
  | ⟨1, _⟩ => fun h => proj (A.x r 0) A.W h + A.bimg h
  | ⟨2, _⟩ => fun h => proj (A.x r 1) A.W h + A.bimg h
  | ⟨3, _⟩ => fun h => proj (A.x r 2) A.W h + A.bimg h
  | ⟨4, _⟩ => A.word 102
  | ⟨n + 5, h⟩ => absurd h (by omega)

/-- The position row of output row q (rows 0..4 of the 512-row table). -/
def posOf (q : Fin 5) : Fin 512 := ⟨q.val, by omega⟩

/-- The embedding sum before normalisation, the reference's way. -/
def refEmb (A : Args) (r : Fin 16384) (q : Fin 5) : Row :=
  fun h => (tok A r q h + A.pos (posOf q) h) + A.tte (ttIdx (A.tt r q)) h

/-- What the reference leaves at batch row r, output row q. -/
def refOut (A : Args) (r : Fin 16384) (q : Fin 5) : Row := lnR (refEmb A r q) A.g A.b

end Cert.Spec

end
-- ==== Proof.SpecLawsReal.lean ====
/-
  Extended reals that are real numbers: the facts the two spellings of the specification are compared with.

  An entry of a float array is an extended real; where it is a real number y (written ↑y) sums, differences and
  products stay real and are computed in ℝ.  This module records that closure (for finite sums too), the real values of
  the two f32 literals of the specification (768 and a positive offset), and the values of the token-type reading at
  the two token types 0 and 1.
-/
import Mathlib.Tactic
import Idealize.ShloMosaic.PureOps.Ideal
import Idealize.ShloMosaic.PureOps.Ideal.Laws
import proofs.«102618_g412316860866_cont_8to1_b_54_19_alg».proof.Proof.Spec

noncomputable section

namespace Cert.Spec

open Idealize.ShloMosaic

/-- A real number, read as an extended real, is real. -/
theorem isReal_coe (y : ℝ) : IsReal (y : EReal) := ⟨y, rfl⟩

/-- The sum of two reals is real: ↑a + ↑b = ↑(a + b). -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals is real: ↑a - ↑b = ↑(a - b). -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is real: ↑a * ↑b = ↑(a * b). -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals, read in the extended reals, is the real sum: ∑ ↑(f i) = ↑(∑ f i). -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (f : ι → EReal) (hf : ∀ i, IsReal (f i)) :
    IsReal (∑ i ∈ s, f i) := by
  choose f' hf' using hf
  have e : f = fun i => ((f' i : ℝ) : EReal) := funext hf'
  rw [e, coe_sum]
  exact ⟨_, rfl⟩

/-- The literal 0x44400000 is 1.5 · 2⁹ = 768. -/
theorem c768_eq : c768 = ((768 : ℝ) : EReal) := by
  simp [c768, Ideal.ofBits, Ideal.ieee]
  rw [← EReal.coe_mul]
  norm_num

/-- The literal 0x2B8CBCCC is 9223372 · 2⁻⁶³, a positive real. -/
theorem ceps_pos : ∃ e : ℝ, 0 < e ∧ ceps = (e : EReal) := by
  refine ⟨9223372 * ((2 : ℝ) ^ 63)⁻¹, by positivity, ?_⟩
  simp [ceps, Ideal.ofBits, Ideal.ieee]

/-- Token type 0 reads as the number 0. -/
theorem ttf_zero : ttf 0#32 = 0 := by
  simp [ttf]

/-- Token type 1 reads as the number 1. -/
theorem ttf_one : ttf 1#32 = 1 := by
  simp [ttf]

/-- Token type 0 selects row 0 of the token-type table. -/
theorem ttIdx_zero : ttIdx 0#32 = 0 := by
  simp [ttIdx]

/-- Token type 1 selects row 1 of the token-type table. -/
theorem ttIdx_one : ttIdx 1#32 = 1 := by
  simp [ttIdx]

/-- Division by 768 is multiplication by the real 1/768. -/
theorem div_c768 (x : EReal) : Ideal.div x c768 = x * (((1 : ℝ) / 768 : ℝ) : EReal) := by
  rw [c768_eq]
  exact Ideal.div_coe (by norm_num) x

end Cert.Spec

end
-- ==== Proof.SpecLawsLn.lean ====
/-
  Layer normalisation of a row of real numbers: the two spellings agree.

  For a row v of reals the mean, the centred row and the variance are real, and the variance is a sum of squares
  over 768, so it is nonnegative; adding the positive offset gives a positive real s.  At a positive real the
  reciprocal square root is the real 1/√s, the square root is the real √s ≠ 0, and dividing by √s is multiplying by
  1/√s: the kernel's x · rsqrt s and the reference's x / sqrt s are the same extended real.  The normalised row of
  real v, gain and bias is again a row of reals.
-/
import Mathlib.Tactic
import Idealize.ShloMosaic.PureOps.Ideal
import Idealize.ShloMosaic.PureOps.Ideal.Laws
import proofs.«102618_g412316860866_cont_8to1_b_54_19_alg».proof.Proof.Spec
import proofs.«102618_g412316860866_cont_8to1_b_54_19_alg».proof.Proof.SpecLawsReal

noncomputable section

namespace Cert.Spec

open Idealize.ShloMosaic

/-- The mean of a real row is real: a finite real sum times 1/768. -/
theorem isReal_mean {v : Row} (hv : ∀ h, IsReal (v h)) : IsReal (mean v) := by
  unfold mean
  rw [div_c768]
  exact (isReal_sum _ _ hv).mul (isReal_coe _)

/-- Each entry of the centred row of a real row is real. -/
theorem isReal_cen {v : Row} (hv : ∀ h, IsReal (v h)) (h : Fin 768) : IsReal (cen v h) :=
  (hv h).sub (isReal_mean hv)

/-- The variance of a real row is a nonnegative real: the sum of the squares of the centred entries, over 768. -/
theorem var_real {v : Row} (hv : ∀ h, IsReal (v h)) : ∃ w : ℝ, 0 ≤ w ∧ var v = (w : EReal) := by
  choose c hc using isReal_cen hv
  refine ⟨(∑ k, c k * c k) * (1 / 768),
    mul_nonneg (Finset.sum_nonneg fun k _ => mul_self_nonneg (c k)) (by norm_num), ?_⟩
  unfold var
  rw [div_c768]
  simp only [hc, ← EReal.coe_mul]
  rw [coe_sum, ← EReal.coe_mul]

/-- Variance plus offset is a positive real. -/
theorem var_add_ceps {v : Row} (hv : ∀ h, IsReal (v h)) : ∃ s : ℝ, 0 < s ∧ var v + ceps = (s : EReal) := by
  obtain ⟨w, hw, e⟩ := var_real hv
  obtain ⟨ε, hε, e'⟩ := ceps_pos
  exact ⟨w + ε, by positivity, by rw [e, e', EReal.coe_add]⟩

/-- At a positive real s the reciprocal square root is the real (√s)⁻¹. -/
theorem rsqrt_of_pos {s : ℝ} (hs : 0 < s) : Ideal.rsqrt (s : EReal) = (((Real.sqrt s)⁻¹ : ℝ) : EReal) := by
  rw [Ideal.rsqrt_coe, if_neg (not_lt.mpr hs.le), if_neg hs.ne']

/-- At a positive real s the square root is the real √s. -/
theorem sqrt_of_pos {s : ℝ} (hs : 0 < s) : Ideal.sqrt (s : EReal) = ((Real.sqrt s : ℝ) : EReal) := by
  rw [Ideal.sqrt_coe, if_neg (not_lt.mpr hs.le)]

/-- Dividing by the square root of a positive real is multiplying by its reciprocal square root, for every
    extended real x: √s is a nonzero real, so x / √s = x · (√s)⁻¹. -/
theorem div_sqrt_eq_mul_rsqrt {s : ℝ} (hs : 0 < s) (x : EReal) :
    Ideal.div x (Ideal.sqrt (s : EReal)) = x * Ideal.rsqrt (s : EReal) := by
  rw [sqrt_of_pos hs, rsqrt_of_pos hs, Ideal.div_coe (Real.sqrt_ne_zero'.mpr hs) x, one_div]

/-- On a real row the kernel's normalisation (times rsqrt) is the reference's (divided by sqrt). -/
theorem lnK_eq_lnR {v : Row} (hv : ∀ h, IsReal (v h)) (g b : Row) : lnK v g b = lnR v g b := by
  obtain ⟨s, hs, e⟩ := var_add_ceps hv
  funext h
  unfold lnK lnR
  rw [e, div_sqrt_eq_mul_rsqrt hs]

/-- The normalised row of a real row, with real gain and bias, is a row of reals. -/
theorem isReal_lnK {v g b : Row} (hv : ∀ h, IsReal (v h)) (hg : ∀ h, IsReal (g h)) (hb : ∀ h, IsReal (b h))
    (h : Fin 768) : IsReal (lnK v g b h) := by
  obtain ⟨s, hs, e⟩ := var_add_ceps hv
  unfold lnK
  rw [e, rsqrt_of_pos hs]
  exact (((isReal_cen hv h).mul (isReal_coe _)).mul (hg h)).add (hb h)

end Cert.Spec

end
-- ==== Proof.SpecLawsRows.lean ====
/-
  The rows before normalisation, and the blended edge rows: the kernel's spelling is the reference's.

  The kernel adds the token-type row as t0 + t · (t1 - t0) with t the token type read as a number.  For t = 0 the
  correction is 0 · (t1 - t0) = 0; for t = 1 it is t1 - t0, and a + (t1 - t0) with t0 inside a is the sum with t1 in
  place of t0 — a cancellation that holds because every entry is a real number (it fails at infinities).  The same two
  cases turn the blend of the two normalised candidate edge rows, a + t · (c - a), into a (t = 0) or c (t = 1).
-/
import Mathlib.Tactic
import Idealize.ShloMosaic.PureOps.Ideal
import Idealize.ShloMosaic.PureOps.Ideal.Laws
import proofs.«102618_g412316860866_cont_8to1_b_54_19_alg».proof.Proof.Spec
import proofs.«102618_g412316860866_cont_8to1_b_54_19_alg».proof.Proof.SpecLawsReal
import proofs.«102618_g412316860866_cont_8to1_b_54_19_alg».proof.Proof.SpecLawsLn

noncomputable section

namespace Cert.Spec

open Idealize.ShloMosaic

/-- Blending with weight 0 keeps the first value: a + 0 · (c - a) = a. -/
theorem blend_zero (a c : EReal) : a + 0 * (c - a) = a := by
  rw [zero_mul, add_zero]

/-- Blending with weight 1 gives the second value, for reals: a + 1 · (c - a) = c. -/
theorem blend_one {a c : EReal} (ha : IsReal a) (hc : IsReal c) : a + 1 * (c - a) = c := by
  obtain ⟨a, rfl⟩ := ha
  obtain ⟨c, rfl⟩ := hc
  rw [one_mul, ← EReal.coe_sub, ← EReal.coe_add]
  congr 1
  ring

/-- Token type 0, image slot: (P + ((B + p) + a)) + 0 · (b - a) = ((P + B) + p) + a, by associativity alone. -/
theorem img_zero (P B p a b : EReal) : (P + ((B + p) + a)) + 0 * (b - a) = ((P + B) + p) + a := by
  rw [zero_mul, add_zero, ← add_assoc, ← add_assoc]

/-- Token type 1, image slot, for reals: (P + ((B + p) + a)) + 1 · (b - a) = ((P + B) + p) + b. -/
theorem img_one {P B p a b : EReal} (hP : IsReal P) (hB : IsReal B) (hp : IsReal p) (ha : IsReal a)
    (hb : IsReal b) : (P + ((B + p) + a)) + 1 * (b - a) = ((P + B) + p) + b := by
  obtain ⟨P, rfl⟩ := hP
  obtain ⟨B, rfl⟩ := hB
  obtain ⟨p, rfl⟩ := hp
  obtain ⟨a, rfl⟩ := ha
  obtain ⟨b, rfl⟩ := hb
  rw [one_mul]
  simp only [← EReal.coe_sub, ← EReal.coe_add]
  congr 1
  ring

/-- Token type 1, edge row, for reals: ((w + p) + a) + (b - a) = (w + p) + b. -/
theorem edge_one {w p a b : EReal} (hw : IsReal w) (hp : IsReal p) (ha : IsReal a) (hb : IsReal b) :
    ((w + p) + a) + (b - a) = (w + p) + b := by
  obtain ⟨w, rfl⟩ := hw
  obtain ⟨p, rfl⟩ := hp
  obtain ⟨a, rfl⟩ := ha
  obtain ⟨b, rfl⟩ := hb
  simp only [← EReal.coe_sub, ← EReal.coe_add]
  congr 1
  ring

/-- The projection of a real image slot by a real matrix is a real row: finite sums of products of reals. -/
theorem isReal_proj {x : Fin 2048 → EReal} {W : Fin 2048 → Fin 768 → EReal} (hx : ∀ e, IsReal (x e))
    (hW : ∀ e h, IsReal (W e h)) (h : Fin 768) : IsReal (proj x W h) :=
  isReal_sum _ _ fun e => (hx e).mul (hW e h)

/-- An image slot's row before normalisation, the kernel's way, is the reference's sum
    ((projection + bias) + position) + the token type's row, for token types 0 and 1 and real entries. -/
theorem imgK_eq {xr : Fin 2048 → EReal} {W : Fin 2048 → Fin 768 → EReal} {bimg p : Row} {tte : Fin 2 → Row}
    (hx : ∀ e, IsReal (xr e)) (hW : ∀ e h, IsReal (W e h)) (hb : ∀ h, IsReal (bimg h)) (hp : ∀ h, IsReal (p h))
    (ht : ∀ t h, IsReal (tte t h)) {t : BitVec 32} (htt : t = 0#32 ∨ t = 1#32) :
    imgK xr W bimg p (tte 0) (tte 1) t = fun h => ((proj xr W h + bimg h) + p h) + tte (ttIdx t) h := by
  funext h
  unfold imgK
  rcases htt with rfl | rfl
  · rw [ttf_zero, ttIdx_zero]
    exact img_zero _ _ _ _ _
  · rw [ttf_one, ttIdx_one]
    exact img_one (isReal_proj hx hW h) (hb h) (hp h) (ht 0 h) (ht 1 h)

/-- A normalised image slot: the kernel's spelling is the reference's normalisation of the reference's sum. -/
theorem lnK_imgK_eq {xr : Fin 2048 → EReal} {W : Fin 2048 → Fin 768 → EReal} {bimg p : Row} {tte : Fin 2 → Row}
    (hx : ∀ e, IsReal (xr e)) (hW : ∀ e h, IsReal (W e h)) (hb : ∀ h, IsReal (bimg h)) (hp : ∀ h, IsReal (p h))
    (ht : ∀ t h, IsReal (tte t h)) {t : BitVec 32} (htt : t = 0#32 ∨ t = 1#32) (g b : Row) :
    lnK (imgK xr W bimg p (tte 0) (tte 1) t) g b
      = lnR (fun h => ((proj xr W h + bimg h) + p h) + tte (ttIdx t) h) g b := by
  rw [imgK_eq hx hW hb hp ht htt]
  exact lnK_eq_lnR (fun h => (((isReal_proj hx hW h).add (hb h)).add (hp h)).add (ht _ h)) g b

/-- The token-type-1 candidate edge row is the reference's sum with row 1 of the token-type table. -/
theorem edge1_eq {w p : Row} {tte : Fin 2 → Row} (hw : ∀ h, IsReal (w h)) (hp : ∀ h, IsReal (p h))
    (ht : ∀ t h, IsReal (tte t h)) : edge1 w p (tte 0) (tte 1) = fun h => (w h + p h) + tte 1 h := by
  funext h
  exact edge_one (hw h) (hp h) (ht 0 h) (ht 1 h)

/-- A normalised edge row ([CLS] or [SEP]): the kernel's blend of the two normalised candidates is the reference's
    normalisation of (word + position) + the token type's row. -/
theorem edgeK_eq {w p : Row} {tte : Fin 2 → Row} {g b : Row} (hw : ∀ h, IsReal (w h)) (hp : ∀ h, IsReal (p h))
    (ht : ∀ t h, IsReal (tte t h)) (hg : ∀ h, IsReal (g h)) (hb : ∀ h, IsReal (b h)) {t : BitVec 32}
    (htt : t = 0#32 ∨ t = 1#32) :
    edgeK w p (tte 0) (tte 1) g b t = lnR (fun h => (w h + p h) + tte (ttIdx t) h) g b := by
  have h0 : ∀ h, IsReal (edge0 w p (tte 0) h) := fun h => ((hw h).add (hp h)).add (ht 0 h)
  have h1 : ∀ h, IsReal (edge1 w p (tte 0) (tte 1) h) := fun h =>
    (((hw h).add (hp h)).add (ht 0 h)).add ((ht 1 h).sub (ht 0 h))
  funext h
  unfold edgeK
  rcases htt with rfl | rfl
  · rw [ttf_zero, ttIdx_zero, blend_zero, lnK_eq_lnR h0]
    exact rfl
  · rw [ttf_one, ttIdx_one, blend_one (isReal_lnK h0 hg hb h) (isReal_lnK h1 hg hb h), lnK_eq_lnR h1,
      edge1_eq hw hp ht]

end Cert.Spec

end
-- ==== Proof.SpecLaws.lean ====
/-
  The two spellings of the specification agree on real inputs with token types 0 and 1.

  Output row 0 ([CLS]) and row 4 ([SEP]) are blended edge rows; rows 1..3 are normalised image slots.  Each case is
  the matching law of the rows module at the arguments' rows, with every entry real and the token type 0 or 1.
-/
import Mathlib.Tactic
import Idealize.ShloMosaic.PureOps.Ideal
import Idealize.ShloMosaic.PureOps.Ideal.Laws
import proofs.«102618_g412316860866_cont_8to1_b_54_19_alg».proof.Proof.Spec
import proofs.«102618_g412316860866_cont_8to1_b_54_19_alg».proof.Proof.SpecLawsReal
import proofs.«102618_g412316860866_cont_8to1_b_54_19_alg».proof.Proof.SpecLawsLn
import proofs.«102618_g412316860866_cont_8to1_b_54_19_alg».proof.Proof.SpecLawsRows

noncomputable section

namespace Cert.Spec

open Idealize.ShloMosaic

/-- Where every float entry is a real number and every token type is 0 or 1, the kernel's spelling and the
    reference's spelling give the same extended real at every batch row, output row and feature. -/
theorem kernelOut_eq_refOut (A : Args) (hfin : A.Finite) (hbin : A.Binary) (r : Fin 16384) (q : Fin 5) (h : Fin 768) :
    kernelOut A r q h = refOut A r q h := by
  match q with
  | ⟨0, _⟩ =>
    exact congrFun (edgeK_eq (hfin.word 101) (hfin.pos 0) hfin.tte hfin.g hfin.b (hbin r 0)) h
  | ⟨1, _⟩ =>
    exact congrFun (lnK_imgK_eq (hfin.x r 0) hfin.W hfin.bimg (hfin.pos 1) hfin.tte (hbin r 1) A.g A.b) h
  | ⟨2, _⟩ =>
    exact congrFun (lnK_imgK_eq (hfin.x r 1) hfin.W hfin.bimg (hfin.pos 2) hfin.tte (hbin r 2) A.g A.b) h
  | ⟨3, _⟩ =>
    exact congrFun (lnK_imgK_eq (hfin.x r 2) hfin.W hfin.bimg (hfin.pos 3) hfin.tte (hbin r 3) A.g A.b) h
  | ⟨4, _⟩ =>
    exact congrFun (edgeK_eq (hfin.word 102) (hfin.pos 4) hfin.tte hfin.g hfin.b (hbin r 4)) h
  | ⟨n + 5, hq⟩ => exact absurd hq (by omega)

end Cert.Spec

end
-- ==== Proof.ArgsOf.lean ====
/-
  The argument arrays of the two programs, as the plain-index arguments of the specification:
  each array read at the index its coordinates build.
-/
import Idealize.ShloMosaic.Lib.ValueIdx
import proofs.«102618_g412316860866_cont_8to1_b_54_19_alg».proof.Proof.Spec

noncomputable section

namespace Cert.Spec

open Idealize.ShloMosaic Idealize.ShloMosaic.ValueIdx

/-- The nine argument arrays (images, token types, projection matrix, projection bias, word table, position table,
    token-type table, gain, bias) as the specification's arguments. -/
def argsOf (a0 : FVec Ideal ⟨3, ![16384, 3, 2048]⟩ .f32) (a1 : IVec ⟨2, ![16384, 5]⟩ 32)
    (a2 : FVec Ideal ⟨2, ![2048, 768]⟩ .f32) (a3 : FVec Ideal ⟨1, ![768]⟩ .f32) (a4 : FVec Ideal ⟨2, ![30522, 768]⟩ .f32)
    (a5 : FVec Ideal ⟨2, ![512, 768]⟩ .f32) (a6 : FVec Ideal ⟨2, ![2, 768]⟩ .f32) (a7 a8 : FVec Ideal ⟨1, ![768]⟩ .f32) : Args where
  x r s e := a0 (ix3 r s e)
  tt r q := a1 (ix2 r q)
  W e h := a2 (ix2 e h)
  bimg h := a3 (ix1 h)
  word v h := a4 (ix2 v h)
  pos p h := a5 (ix2 p h)
  tte t h := a6 (ix2 t h)
  g h := a7 (ix1 h)
  b h := a8 (ix1 h)

end Cert.Spec

end
-- ==== Proof.PreDecode.lean ====
/-
  The precondition decoded.  The printed predicate is a conjunction of ten tests, each a conjunction over every
  element of one argument array: for each of the eight float arrays "the absolute value of the element is below
  +infinity", and for the integer array of token types "the element is at least 0" and "the element is at most 1"
  (both read signed).  Where the predicate holds, every float entry is therefore a real number (an extended real
  whose absolute value is below +infinity is neither infinity) and every token type is the word 0 or the word 1.
-/
import proofs.«102618_g412316860866_cont_8to1_b_54_19_alg».proof.Pre_finite_inputs
import proofs.«102618_g412316860866_cont_8to1_b_54_19_alg».proof.Proof.ArgsOf
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx

/-- The scalar shape has exactly one index: an index is a function out of the empty set of axes. -/
instance subsingleton_scalar_idx : Subsingleton (⟨0, ![]⟩ : Shape).Idx := ⟨fun a b => funext fun d => d.elim0⟩

/-- The f32 pattern with all exponent bits set, sign clear and zero significand denotes +infinity. -/
theorem ofBits_inf : Ideal.ofBits .f32 0x7F800000#32 = (⊤ : EReal) := by simp [Ideal.ofBits, Ideal.ieee]

/-- A one-bit word made from a truth value is 1 exactly when the truth value is true. -/
theorem ofBool_eq_one {b : Bool} : BitVec.ofBool b = 1#1 ↔ b = true := by cases b <;> decide

/-- An extended real whose absolute value max x (-x) is below +infinity is a real number: for x = -infinity the
    absolute value is +infinity, for x = +infinity likewise, and the remaining case is a real. -/
theorem isReal_of_abs_lt_top (x : EReal) (h : max x (-x) < ⊤) : Cert.Spec.IsReal x := by
  induction x using EReal.rec with
  | bot => simp at h
  | coe y => exact ⟨y, rfl⟩
  | top => simp at h

/-- A 32-bit word that is at least 0 and at most 1 as a signed integer is the word 0 or the word 1: its signed value
    is the integer 0 or 1, and a word is determined by its signed value. -/
theorem binary_of_range (t : BitVec 32) (h0 : IntOp.cmpi .sge t 0#32 = 1#1) (h1 : IntOp.cmpi .sle t 1#32 = 1#1) :
    t = 0#32 ∨ t = 1#32 := by
  rw [IntOp.cmpi_sge] at h0
  rw [IntOp.cmpi_sle] at h1
  have e0 : (0#32 : BitVec 32).toInt = 0 := by decide
  have e1 : (1#32 : BitVec 32).toInt = 1 := by decide
  rw [e0] at h0
  rw [e1] at h1
  have h : t.toInt = 0 ∨ t.toInt = 1 := by omega
  rcases h with h | h
  · left; exact BitVec.eq_of_toInt_eq (h.trans e0.symm)
  · right; exact BitVec.eq_of_toInt_eq (h.trans e1.symm)

/-- One float array's test: if the conjunction over all elements of "|x| < +infinity" (the scalar +infinity spread over
    the array's shape) is true, then every element of the array is a real number. -/
theorem real_of_all {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1)
    (i : s.Idx) : Cert.Spec.IsReal (x i) := by
  have h := Host.reduce_andi_all _ _ hr hu ix0 e i
  have h2 : BitVec.ofBool (decide (max (x i : EReal) (-(x i)) < Ideal.ofBits .f32 0x7F800000#32)) = 1#1 := h
  have h3 : max (x i : EReal) (-(x i)) < Ideal.ofBits .f32 0x7F800000#32 := of_decide_eq_true (ofBool_eq_one.1 h2)
  rw [ofBits_inf] at h3
  exact isReal_of_abs_lt_top _ h3

/-- The integer array's two tests: if the conjunction over all elements of "t ≥ 0" and that of "t ≤ 1" (signed, the
    scalars 0 and 1 spread over the array's shape) are true, then every element is the word 0 or the word 1. -/
theorem binary_of_all {s : Shape} {axes : List (Fin s.rank)} (t : IVec s 32)
    (hb : (⟨0, ![]⟩ : Shape).BroadcastsInDim s ![]) (hr : s.ReducesTo axes ⟨0, ![]⟩)
    (hu : 0 < (⟨0, ![]⟩ : Shape).numel)
    (e0 : Host.reduce IntOp.andi (cmpi .sge t (broadcastInDim s ![] hb (constantI ⟨0, ![]⟩ 32 0#32)))
          (constantI ⟨0, ![]⟩ 1 1#1) hr hu ix0 = 1#1)
    (e1 : Host.reduce IntOp.andi (cmpi .sle t (broadcastInDim s ![] hb (constantI ⟨0, ![]⟩ 32 1#32)))
          (constantI ⟨0, ![]⟩ 1 1#1) hr hu ix0 = 1#1)
    (i : s.Idx) : t i = 0#32 ∨ t i = 1#32 :=
  binary_of_range (t i) (Host.reduce_andi_all _ _ hr hu ix0 e0 i) (Host.reduce_andi_all _ _ hr hu ix0 e1 i)

/-- THE PRECONDITION DECODED: where the printed predicate is true, every float entry of the nine arguments is a real
    number and every token type is 0 or 1.  The predicate's one element is the conjunction of its ten tests; each
    test is read back at every element of its array. -/
theorem decode [Cert.Pre_finite_inputs.Facts]
    (a0 : FVec Ideal ⟨3, ![16384, 3, 2048]⟩ .f32) (a1 : IVec ⟨2, ![16384, 5]⟩ 32) (a2 : FVec Ideal ⟨2, ![2048, 768]⟩ .f32)
    (a3 : FVec Ideal ⟨1, ![768]⟩ .f32) (a4 : FVec Ideal ⟨2, ![30522, 768]⟩ .f32) (a5 : FVec Ideal ⟨2, ![512, 768]⟩ .f32)
    (a6 : FVec Ideal ⟨2, ![2, 768]⟩ .f32) (a7 a8 : FVec Ideal ⟨1, ![768]⟩ .f32)
    (hpre : Cert.Pre_finite_inputs.fn (F := Ideal) a0 a1 a2 a3 a4 a5 a6 a7 a8 = (fun _ => 1#1)) :
    (Cert.Spec.argsOf a0 a1 a2 a3 a4 a5 a6 a7 a8).Finite ∧ (Cert.Spec.argsOf a0 a1 a2 a3 a4 a5 a6 a7 a8).Binary := by
  have e := congrFun hpre ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨h0, h2⟩, h3⟩, h4⟩, h5⟩, h6⟩, h7⟩, h8⟩, hge⟩, hle⟩ := e
  refine ⟨⟨fun r s e => ?_, fun e h => ?_, fun h => ?_, fun v h => ?_, fun p h => ?_, fun t h => ?_, fun h => ?_,
    fun h => ?_⟩, fun r q => ?_⟩
  · exact real_of_all a0 _ _ _ h0 (ix3 r s e)
  · exact real_of_all a2 _ _ _ h2 (ix2 e h)
  · exact real_of_all a3 _ _ _ h3 (ix1 h)
  · exact real_of_all a4 _ _ _ h4 (ix2 v h)
  · exact real_of_all a5 _ _ _ h5 (ix2 p h)
  · exact real_of_all a6 _ _ _ h6 (ix2 t h)
  · exact real_of_all a7 _ _ _ h7 (ix1 h)
  · exact real_of_all a8 _ _ _ h8 (ix1 h)
  · exact binary_of_all a1 _ _ _ hge hle (ix2 r q)

end Cert.PreDecode

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.KOps.lean ====
/-
  Rows of a matrix normalised one by one, read at an entry.  For an `a × 768` matrix `v` the kernel's layer
  normalisation is built from: the row sums (a lane reduction), cast to a column, divided by 768 (the row
  means), broadcast back and subtracted (the centred matrix); the same on the squares (the row variances);
  and the reciprocal square root of variance plus epsilon, broadcast back and multiplied in.  Each of these,
  read at entry `(p, h)`, is the specification's `mean` / `cen` / `var` / `lnK` of row `p`.
-/
import Idealize.ShloMosaic.Lib.Pipeline.Value
import Idealize.ShloMosaic.Lib.ValueIdx
import Idealize.ShloMosaic.Lib.ValueLayout
import Idealize.ShloMosaic.PureOps.Ideal.Laws
import proofs.«102618_g412316860866_cont_8to1_b_54_19_alg».proof.Proof.Spec
import proofs.«102618_g412316860866_cont_8to1_b_54_19_alg».proof.Proof.LibColumns

noncomputable section

namespace Cert.KOps

open Idealize.ShloMosaic Idealize.ShloMosaic.ValueIdx Cert.Spec

variable {a : ℕ}

/-- Row `p` of an `a × 768` matrix. -/
def rowOf (v : FVec Ideal ⟨2, ![a, 768]⟩ .f32) (p : Fin a) : Row := fun k => v (ix2 p k)

/-- The one row of a `1 × 768` matrix. -/
def theRow (v : FVec Ideal ⟨2, ![1, 768]⟩ .f32) : Row := fun k => v (ix2 (0 : Fin 1) k)

/-- A lane sum along the rows of an `a × 768` matrix into a zero accumulator, read at row `p`: the row's sum. -/
theorem rowsum_apply (v : FVec Ideal ⟨2, ![a, 768]⟩ .f32) (h : Shape.Reduces ⟨2, ![a, 768]⟩ [1] ⟨1, ![a]⟩) (p : Fin a) :
    multiReduction .add [1] ⟨1, ![a]⟩ v 0x00000000#32 h (.inl rfl) rfl (ix1 p) = ∑ k : Fin 768, v (ix2 p k) :=
  (Ideal.multiReduction_add_single v 0x00000000#32 h (.inl rfl) rfl (ix1 p)).trans
    (Finset.sum_congr rfl fun k _ => congrArg v (Cert.Columns.lift_row h p k))

/-- The row means as a column: row sums cast to a column and divided by the 768 splat. -/
theorem meancol_apply (v : FVec Ideal ⟨2, ![a, 768]⟩ .f32) (h : Shape.Reduces ⟨2, ![a, 768]⟩ [1] ⟨1, ![a]⟩)
    (hc : (⟨1, ![a]⟩ : Shape).ShapeCasts ⟨2, ![a, 1]⟩) (p : Fin a) (u : Fin 1) :
    divf (shapeCast ⟨2, ![a, 1]⟩ (multiReduction .add [1] ⟨1, ![a]⟩ v 0x00000000#32 h (.inl rfl) rfl) hc)
        (broadcast ⟨2, ![a, 1]⟩ (Scalar.ofBits (F := Ideal) .f32 0x44400000#32)) (ix2 p u)
      = mean (rowOf v p) := by
  show Ideal.div (shapeCast ⟨2, ![a, 1]⟩ (multiReduction .add [1] ⟨1, ![a]⟩ v 0x00000000#32 h (.inl rfl) rfl) hc (ix2 p u)) _ = _
  rw [Cert.Columns.shapeCast_a_a1_apply, rowsum_apply]
  rfl

/-- The centred matrix: a matrix minus its row means broadcast back over the rows. -/
theorem cen_apply (v : FVec Ideal ⟨2, ![a, 768]⟩ .f32) (h : Shape.Reduces ⟨2, ![a, 768]⟩ [1] ⟨1, ![a]⟩)
    (hc : (⟨1, ![a]⟩ : Shape).ShapeCasts ⟨2, ![a, 1]⟩) (hb : (⟨2, ![a, 1]⟩ : Shape).Broadcasts ⟨2, ![a, 768]⟩)
    (p : Fin a) (k : Fin 768) :
    subf v (broadcastTo ⟨2, ![a, 768]⟩
        (divf (shapeCast ⟨2, ![a, 1]⟩ (multiReduction .add [1] ⟨1, ![a]⟩ v 0x00000000#32 h (.inl rfl) rfl) hc)
          (broadcast ⟨2, ![a, 1]⟩ (Scalar.ofBits (F := Ideal) .f32 0x44400000#32))) hb) (ix2 p k)
      = cen (rowOf v p) k := by
  show v (ix2 p k) - broadcastTo ⟨2, ![a, 768]⟩ _ hb (ix2 p k) = _
  rw [Cert.Columns.broadcastTo_a1_ab_apply, meancol_apply]
  rfl

/-- The row variances as a column, from a matrix `c` known to be the centred rows `R`: the row sums of its
    squares, cast to a column and divided by 768. -/
theorem varcol_apply (c : FVec Ideal ⟨2, ![a, 768]⟩ .f32) (R : Fin a → Row) (hcen : ∀ p k, c (ix2 p k) = cen (R p) k)
    (h : Shape.Reduces ⟨2, ![a, 768]⟩ [1] ⟨1, ![a]⟩) (hc : (⟨1, ![a]⟩ : Shape).ShapeCasts ⟨2, ![a, 1]⟩) (p : Fin a) (u : Fin 1) :
    divf (shapeCast ⟨2, ![a, 1]⟩ (multiReduction .add [1] ⟨1, ![a]⟩ (mulf c c) 0x00000000#32 h (.inl rfl) rfl) hc)
        (broadcast ⟨2, ![a, 1]⟩ (Scalar.ofBits (F := Ideal) .f32 0x44400000#32)) (ix2 p u)
      = var (R p) := by
  rw [meancol_apply]
  show Ideal.div (∑ k, (mulf c c) (ix2 p k)) c768 = Ideal.div (∑ k, cen (R p) k * cen (R p) k) c768
  refine congrArg (Ideal.div · c768) (Finset.sum_congr rfl fun k _ => ?_)
  show c (ix2 p k) * c (ix2 p k) = _
  rw [hcen]

/-- The normalised matrix: centred rows times the reciprocal square root of (variance + epsilon) broadcast over the
    row, times the gain row, plus the bias row — the specification's `lnK` of each row. -/
theorem ln_apply (c : FVec Ideal ⟨2, ![a, 768]⟩ .f32) (vc : FVec Ideal ⟨2, ![a, 1]⟩ .f32) (g b : FVec Ideal ⟨2, ![1, 768]⟩ .f32)
    (R : Fin a → Row) (hcen : ∀ p k, c (ix2 p k) = cen (R p) k) (hvar : ∀ p, vc (ix2 p (0 : Fin 1)) = var (R p))
    (hb : (⟨2, ![a, 1]⟩ : Shape).Broadcasts ⟨2, ![a, 768]⟩) (hr : (⟨2, ![1, 768]⟩ : Shape).Broadcasts ⟨2, ![a, 768]⟩)
    (p : Fin a) (k : Fin 768) :
    addf (mulf (mulf c (broadcastTo ⟨2, ![a, 768]⟩
        (rsqrt (addf vc (broadcast ⟨2, ![a, 1]⟩ (Scalar.ofBits (F := Ideal) .f32 0x2B8CBCCC#32)))) hb))
        (broadcastTo ⟨2, ![a, 768]⟩ g hr)) (broadcastTo ⟨2, ![a, 768]⟩ b hr) (ix2 p k)
      = lnK (R p) (theRow g) (theRow b) k := by
  show c (ix2 p k) * broadcastTo ⟨2, ![a, 768]⟩ _ hb (ix2 p k) * broadcastTo ⟨2, ![a, 768]⟩ g hr (ix2 p k)
      + broadcastTo ⟨2, ![a, 768]⟩ b hr (ix2 p k) = _
  rw [Cert.Columns.broadcastTo_a1_ab_apply, broadcastTo_1b_ab_apply, broadcastTo_1b_ab_apply, hcen]
  show cen (R p) k * Ideal.rsqrt (vc (ix2 p (0 : Fin 1)) + ceps) * g (ix2 (0 : Fin 1) k) + b (ix2 (0 : Fin 1) k) = _
  rw [hvar]
  rfl

/-! ### The whole normalisation of a matrix's rows as one term -/

/-- The centred matrix as a term. -/
def cenM (v : FVec Ideal ⟨2, ![a, 768]⟩ .f32) (h : Shape.Reduces ⟨2, ![a, 768]⟩ [1] ⟨1, ![a]⟩)
    (hc : (⟨1, ![a]⟩ : Shape).ShapeCasts ⟨2, ![a, 1]⟩) (hb : (⟨2, ![a, 1]⟩ : Shape).Broadcasts ⟨2, ![a, 768]⟩) :
    FVec Ideal ⟨2, ![a, 768]⟩ .f32 :=
  subf v (broadcastTo ⟨2, ![a, 768]⟩
    (divf (shapeCast ⟨2, ![a, 1]⟩ (multiReduction .add [1] ⟨1, ![a]⟩ v 0x00000000#32 h (.inl rfl) rfl) hc)
      (broadcast ⟨2, ![a, 1]⟩ (Scalar.ofBits (F := Ideal) .f32 0x44400000#32))) hb)

/-- The variance column of a centred matrix as a term. -/
def varC (c : FVec Ideal ⟨2, ![a, 768]⟩ .f32) (h : Shape.Reduces ⟨2, ![a, 768]⟩ [1] ⟨1, ![a]⟩)
    (hc : (⟨1, ![a]⟩ : Shape).ShapeCasts ⟨2, ![a, 1]⟩) : FVec Ideal ⟨2, ![a, 1]⟩ .f32 :=
  divf (shapeCast ⟨2, ![a, 1]⟩ (multiReduction .add [1] ⟨1, ![a]⟩ (mulf c c) 0x00000000#32 h (.inl rfl) rfl) hc)
    (broadcast ⟨2, ![a, 1]⟩ (Scalar.ofBits (F := Ideal) .f32 0x44400000#32))

/-- Scaling and shifting as a term. -/
def lnM (c : FVec Ideal ⟨2, ![a, 768]⟩ .f32) (vc : FVec Ideal ⟨2, ![a, 1]⟩ .f32) (g b : FVec Ideal ⟨2, ![1, 768]⟩ .f32)
    (hb : (⟨2, ![a, 1]⟩ : Shape).Broadcasts ⟨2, ![a, 768]⟩) (hr : (⟨2, ![1, 768]⟩ : Shape).Broadcasts ⟨2, ![a, 768]⟩) :
    FVec Ideal ⟨2, ![a, 768]⟩ .f32 :=
  addf (mulf (mulf c (broadcastTo ⟨2, ![a, 768]⟩
      (rsqrt (addf vc (broadcast ⟨2, ![a, 1]⟩ (Scalar.ofBits (F := Ideal) .f32 0x2B8CBCCC#32)))) hb))
      (broadcastTo ⟨2, ![a, 768]⟩ g hr)) (broadcastTo ⟨2, ![a, 768]⟩ b hr)

/-- A matrix whose rows are `R`, normalised whole: entry `(p, k)` is `lnK` of row `p`. -/
theorem ln_full_apply (v : FVec Ideal ⟨2, ![a, 768]⟩ .f32) (g b : FVec Ideal ⟨2, ![1, 768]⟩ .f32) (R : Fin a → Row)
    (hrow : ∀ p k, v (ix2 p k) = R p k)
    (h : Shape.Reduces ⟨2, ![a, 768]⟩ [1] ⟨1, ![a]⟩) (hc : (⟨1, ![a]⟩ : Shape).ShapeCasts ⟨2, ![a, 1]⟩)
    (hb : (⟨2, ![a, 1]⟩ : Shape).Broadcasts ⟨2, ![a, 768]⟩) (hr : (⟨2, ![1, 768]⟩ : Shape).Broadcasts ⟨2, ![a, 768]⟩)
    (p : Fin a) (k : Fin 768) :
    lnM (cenM v h hc hb) (varC (cenM v h hc hb) h hc) g b hb hr (ix2 p k) = lnK (R p) (theRow g) (theRow b) k := by
  have hcen : ∀ p k, cenM v h hc hb (ix2 p k) = cen (R p) k := fun p k =>
    (cen_apply v h hc hb p k).trans (congrArg (cen · k) (funext (hrow p)))
  exact ln_apply _ _ g b R hcen (fun p => varcol_apply _ R hcen h hc p 0) hb hr p k

/-! ### The rows before normalisation, with the type-row difference as a row of its own -/

/-- An image slot's row before normalisation with the difference of the two type rows given as a row `dt` and the
    type number as an extended real `τ`. -/
def imgKd (xr : Fin 2048 → EReal) (W : Fin 2048 → Fin 768 → EReal) (bimg p t0 dt : Row) (τ : EReal) : Row :=
  fun h => (proj xr W h + ((bimg h + p h) + t0 h)) + τ * dt h

theorem imgK_eq (xr : Fin 2048 → EReal) (W : Fin 2048 → Fin 768 → EReal) (bimg p t0 t1 : Row) (t : BitVec 32) :
    imgK xr W bimg p t0 t1 t = imgKd xr W bimg p t0 (fun h => t1 h - t0 h) (ttf t) := rfl

/-- An edge row before normalisation for type 1, with the difference row given. -/
def edge1d (w p t0 dt : Row) : Row := fun h => ((w h + p h) + t0 h) + dt h

theorem edge1_eq (w p t0 t1 : Row) : edge1 w p t0 t1 = edge1d w p t0 (fun h => t1 h - t0 h) := rfl

end Cert.KOps

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.KPre.lean ====
/-
  An image slot's block of rows before normalisation, read at an entry.  For the slot's 512 × 2048 block of
  image features `xs`, the 2048 × 768 projection `w`, the one-row bias, position row, type row 0 and type-row
  difference, and the 512 × 5 block of type numbers, entry `(p, h)` of
  `xs · w + ((bias + position) + type row 0) + (type number of row p) * (type-row difference)`
  is the specification's row `imgKd` of batch row `p` at feature `h`.  The matrix product into a zero
  accumulator is the sum over the 2048 contracted features; rounding the features to a shorter float format
  on the way in is the identity on the exact values.
-/
import proofs.«102618_g412316860866_cont_8to1_b_54_19_alg».proof.KernelIdeal
import proofs.«102618_g412316860866_cont_8to1_b_54_19_alg».proof.Proof.KOps
import proofs.«102618_g412316860866_cont_8to1_b_54_19_alg».proof.Proof.LibMatmul

noncomputable section

namespace Cert.KSide

open Idealize.ShloMosaic Idealize.ShloMosaic.ValueIdx Cert.Spec Cert.KOps Cert.KernelIdeal Cert.KernelIdeal.Facts₀ Cert.KernelIdeal.Facts

variable [Cert.KernelIdeal.Facts]

/-- The kernel's matrix product of a 512 × 2048 block against the 2048 × 768 projection, into zero, at `(p, h)`. -/
theorem mm_apply (xs : FVec Ideal S512x2048 .bf16) (w : FVec Ideal S2048x768 .bf16) (p : Fin 512) (h : Fin 768) :
    matmul dot_S512x2048_S2048x768_S512x768_1_0_0_1_n_n none xs w (constant S512x768 .f32 0x00000000#32) (ix2 p h)
      = ∑ e : Fin 2048, xs (ix2 p e) * w (ix2 e h) :=
  Cert.PlainDot.matmul_zero_apply dot_S512x2048_S2048x768_S512x768_1_0_0_1_n_n none rfl rfl
    (fun i q => by simp [DotDims.lhsIdx, dot_S512x2048_S2048x768_S512x768_1_0_0_1_n_n]; rfl)
    (fun i q => by simp [DotDims.lhsIdx, dot_S512x2048_S2048x768_S512x768_1_0_0_1_n_n]; rfl)
    (fun i q => by simp [DotDims.rhsIdx, dot_S512x2048_S2048x768_S512x768_1_0_0_1_n_n]; rfl)
    (fun i q => by simp [DotDims.rhsIdx, dot_S512x2048_S2048x768_S512x768_1_0_0_1_n_n]; rfl)
    xs w p h

/-- An image slot's rows before normalisation at `(p, h)`; `k` is the slot's column of the type numbers. -/
theorem pre_apply (xs : FVec Ideal S512x2048 .f32) (w : FVec Ideal S2048x768 .bf16) (bi po t0 dt : FVec Ideal S1x768 .f32)
    (tt : FVec Ideal S512x5 .f32) (k : ℕ) (kk : Fin 5) (hk : kk.val = k)
    (hs : S512x5.Slices ![0, k] S512x1) (hbr : S1x768.Broadcasts S512x768) (hbc : S512x1.Broadcasts S512x768)
    (p : Fin 512) (h : Fin 768) :
    addf (addf (matmul dot_S512x2048_S2048x768_S512x768_1_0_0_1_n_n none (truncf .bf16 xs bitsLt_bf16_f32) w
          (constant S512x768 .f32 0x00000000#32))
        (broadcastTo S512x768 (addf (addf bi po) t0) hbr))
      (mulf (broadcastTo S512x768 (extractStridedSlice S512x1 ![0, k] tt hs) hbc) (broadcastTo S512x768 dt hbr)) (ix2 p h)
      = imgKd (fun e => xs (ix2 p e)) (fun e h => w (ix2 e h)) (theRow bi) (theRow po) (theRow t0) (theRow dt) (tt (ix2 p kk)) h := by
  show (matmul dot_S512x2048_S2048x768_S512x768_1_0_0_1_n_n none (truncf .bf16 xs bitsLt_bf16_f32) w
          (constant S512x768 .f32 0x00000000#32) (ix2 p h)
        + broadcastTo S512x768 (addf (addf bi po) t0) hbr (ix2 p h))
      + broadcastTo S512x768 (extractStridedSlice S512x1 ![0, k] tt hs) hbc (ix2 p h) * broadcastTo S512x768 dt hbr (ix2 p h) = _
  rw [mm_apply, broadcastTo_1b_ab_apply, broadcastTo_1b_ab_apply, Cert.Columns.broadcastTo_a1_ab_apply,
    slice2_axis1_apply k tt hs p (0 : Fin 1) kk (by rw [hk]; rfl)]
  rfl

end Cert.KSide

end
-- ==== Proof.KPay.lean ====
/-
  The three image slots' stored blocks, read at an entry.  Each slot's stored block is the layer
  normalisation, row by row, of the slot's rows before normalisation: entry `(p, h)` is the specification's
  `lnK` of batch row `p`'s row `slotRow` at feature `h`.  The three slots compute the same thing from different
  column ranges of the image block, different position rows and different columns of the type numbers; their
  terms are cut at different places, so each is read separately from the same three facts: the centred matrix
  is `cen` of the rows, the variance column is `var` of the rows, and the scaled, shifted result is `lnK`.
-/
import proofs.«102618_g412316860866_cont_8to1_b_54_19_alg».proof.Proof.Gen.KernelIdeal.Skeleton
import proofs.«102618_g412316860866_cont_8to1_b_54_19_alg».proof.Proof.KPre

noncomputable section

namespace Cert.KSide

open Idealize.ShloMosaic Idealize.ShloMosaic.ValueIdx Cert.Spec Cert.KOps Cert.KernelIdeal Cert.KernelIdeal.Facts₀ Cert.KernelIdeal.Facts
open Cert.KernelIdeal.Gen

variable [Cert.KernelIdeal.Facts]

/-- Batch row `p` of an image slot before normalisation, from the slot's blocks. -/
def slotRow (xs : FVec Ideal S512x2048 .f32) (w : FVec Ideal S2048x768 .bf16) (bi po t0 dt : FVec Ideal S1x768 .f32)
    (tt : FVec Ideal S512x5 .f32) (kk : Fin 5) (p : Fin 512) : Row :=
  imgKd (fun e => xs (ix2 p e)) (fun e h => w (ix2 e h)) (theRow bi) (theRow po) (theRow t0) (theRow dt) (tt (ix2 p kk))

/-- Slot 1's centred rows. -/
theorem pay8_apply (v0 : FVec Ideal S2048x768 .bf16) (v2 : FVec Ideal S512x5 .f32) (v4 v5 v6 : FVec Ideal S1x768 .f32)
    (v12 : FVec Ideal S512x2048 .f32) (v16 v18 : FVec Ideal S1x768 .f32) (p : Fin 512) (h : Fin 768) :
    k0_pay8 (F := Ideal) v0 v2 v4 v5 v6 v12 v16 v18 (ix2 p h) = cen (slotRow v12 v0 v16 v18 v4 (subf v5 v6) v2 1 p) h := by
  unfold k0_pay8 k0_pay3 k0_pay4 k0_pay5
  simp only [shapeCast_self]
  refine (cen_apply _ _ _ _ p h).trans ?_
  exact congrArg (cen · h) (funext fun k => pre_apply v12 v0 v16 v18 v4 (subf v5 v6) v2 1 1 rfl _ _ _ p k)

/-- Slot 1's stored block. -/
theorem pay10_apply (v9 v11 : FVec Ideal S1x768 .f32) (v34 : FVec Ideal S512x768 .f32) (R : Fin 512 → Row)
    (hcen : ∀ p k, v34 (ix2 p k) = cen (R p) k) (p : Fin 512) (h : Fin 768) :
    k0_pay10 (F := Ideal) v9 v11 v34 (mulf v34 v34) (ix2 p h) = lnK (R p) (theRow v9) (theRow v11) h := by
  unfold k0_pay10
  exact ln_apply v34 _ v9 v11 R hcen (fun p => varcol_apply v34 R hcen _ _ p 0) _ _ p h

/-- Slot 2's centred rows. -/
theorem pay11_apply (v1 : FVec Ideal S2048x768 .bf16) (v3 : FVec Ideal S512x5 .f32) (v4 v7 : FVec Ideal S1x768 .f32)
    (v50 : FVec Ideal S512x2048 .f32) (v54 v56 : FVec Ideal S1x768 .f32) (p : Fin 512) (h : Fin 768) :
    k0_pay11 (F := Ideal) v1 v3 v4 v7 v50 v54 v56 (ix2 p h) = cen (slotRow v50 v1 v54 v56 v4 v7 v3 2 p) h := by
  unfold k0_pay11
  simp only [shapeCast_self]
  refine (cen_apply _ _ _ _ p h).trans ?_
  exact congrArg (cen · h) (funext fun k => pre_apply v50 v1 v54 v56 v4 v7 v3 2 2 rfl _ _ _ p k)

/-- Slot 2's variance column. -/
theorem pay12_apply (v1 : FVec Ideal S2048x768 .bf16) (v3 : FVec Ideal S512x5 .f32) (v4 v7 : FVec Ideal S1x768 .f32)
    (v50 : FVec Ideal S512x2048 .f32) (v54 v56 : FVec Ideal S1x768 .f32) (p : Fin 512) (u : Fin 1) :
    k0_pay12 (F := Ideal) v1 v3 v4 v7 v50 v54 v56 (ix2 p u) = var (slotRow v50 v1 v54 v56 v4 v7 v3 2 p) := by
  unfold k0_pay12
  exact varcol_apply (k0_pay11 (F := Ideal) v1 v3 v4 v7 v50 v54 v56) _ (fun p k => pay11_apply v1 v3 v4 v7 v50 v54 v56 p k) _ _ p u

/-- Slot 2's stored block, from its centred rows and variance column. -/
theorem pay13_apply (v9 v11 : FVec Ideal S1x768 .f32) (v72 : FVec Ideal S512x768 .f32) (v77 : FVec Ideal S512x1 .f32)
    (R : Fin 512 → Row) (hcen : ∀ p k, v72 (ix2 p k) = cen (R p) k) (hvar : ∀ p, v77 (ix2 p (0 : Fin 1)) = var (R p))
    (p : Fin 512) (h : Fin 768) :
    k0_pay13 (F := Ideal) v9 v11 v72 v77 (Scalar.ofBits (F := Ideal) .f32 0x2B8CBCCC#32) (ix2 p h) = lnK (R p) (theRow v9) (theRow v11) h := by
  unfold k0_pay13
  exact ln_apply v72 v77 v9 v11 R hcen hvar _ _ p h

/-- Slot 3's stored block: its scaled rows, then the bias added. -/
theorem pay15_apply (v1 : FVec Ideal S2048x768 .bf16) (v3 : FVec Ideal S512x5 .f32) (v4 v7 v9 v11 : FVec Ideal S1x768 .f32)
    (v88 : FVec Ideal S512x2048 .f32) (v92 v94 : FVec Ideal S1x768 .f32) (p : Fin 512) (h : Fin 768) :
    k0_pay15 (F := Ideal) v11 (k0_pay14 (F := Ideal) v1 v3 v4 v7 v9 v88 v92 v94) (ix2 p h)
      = lnK (slotRow v88 v1 v92 v94 v4 v7 v3 3 p) (theRow v9) (theRow v11) h := by
  unfold k0_pay15 k0_pay14
  simp only [shapeCast_self]
  refine ln_full_apply _ v9 v11 (fun p => slotRow v88 v1 v92 v94 v4 v7 v3 3 p) ?_ _ _ _ _ p h
  intro p k
  exact pre_apply v88 v1 v92 v94 v4 v7 v3 3 3 rfl _ _ _ p k

end Cert.KSide

end
-- ==== Proof.KEdge.lean ====
/-
  The two edge rows ([CLS], output row 0, and [SEP], output row 4), read at an entry.  There are only two
  possible rows before normalisation for each — token type 0 and token type 1 — so the kernel stacks the four
  candidates as a 4 × 768 matrix, normalises its rows once, and blends: entry `(p, h)` of the stored block is
  `candidate 0 + (type number of row p) * (candidate 1 - candidate 0)` at feature `h`, with the candidates the
  specification's `lnK` of `edge0` and of `edge1d`.
-/
import proofs.«102618_g412316860866_cont_8to1_b_54_19_alg».proof.Proof.Gen.KernelIdeal.Skeleton
import proofs.«102618_g412316860866_cont_8to1_b_54_19_alg».proof.Proof.KOps

noncomputable section

namespace Cert.KSide

open Idealize.ShloMosaic Idealize.ShloMosaic.ValueIdx Cert.Spec Cert.KOps Cert.KernelIdeal Cert.KernelIdeal.Facts₀ Cert.KernelIdeal.Facts
open Cert.KernelIdeal.Gen

variable [Cert.KernelIdeal.Facts]

/-- One of four things, by position. -/
def pick4 {α : Type} (r0 r1 r2 r3 : α) : Fin 4 → α
  | ⟨0, _⟩ => r0
  | ⟨1, _⟩ => r1
  | ⟨2, _⟩ => r2
  | ⟨3, _⟩ => r3
  | ⟨n + 4, h⟩ => absurd h (by omega)

/-- Four one-row matrices stacked as the rows of a 4 × 768 matrix: row `k` is the `k`-th of them. -/
theorem stack4_apply (r0 r1 r2 r3 : FVec Ideal S1x768 .f32)
    (hc : Shape.Concatenates [S1x768, S1x768, S1x768, S1x768] S4x768 0) (k : Fin 4) (c : Fin 768) :
    concatenate S4x768 0 [⟨S1x768, r0⟩, ⟨S1x768, r1⟩, ⟨S1x768, r2⟩, ⟨S1x768, r3⟩] hc (ix2 k c)
      = pick4 r0 r1 r2 r3 k (ix2 (0 : Fin 1) c) := by
  have hi : ∀ b : Fin S1x768.rank, b.cast (rfl : S1x768.rank = S4x768.rank) ≠ (0 : Fin S4x768.rank) →
      ((ix2 (0 : Fin 1) c : S1x768.Idx) b).val = ((ix2 k c : S4x768.Idx) (b.cast rfl)).val := fun b hb => by
    match b with
    | ⟨0, _⟩ => exact absurd rfl hb
    | ⟨1, _⟩ => rfl
  match k with
  | ⟨0, _⟩ => exact concatenate_apply_piece (0 : Fin S4x768.rank) [⟨S1x768, r0⟩, ⟨S1x768, r1⟩, ⟨S1x768, r2⟩, ⟨S1x768, r3⟩] hc _ 0 (by simp) S1x768 r0 rfl rfl 0 rfl _ hi rfl
  | ⟨1, _⟩ => exact concatenate_apply_piece (0 : Fin S4x768.rank) [⟨S1x768, r0⟩, ⟨S1x768, r1⟩, ⟨S1x768, r2⟩, ⟨S1x768, r3⟩] hc _ 1 (by simp) S1x768 r1 rfl rfl 1 rfl _ hi rfl
  | ⟨2, _⟩ => exact concatenate_apply_piece (0 : Fin S4x768.rank) [⟨S1x768, r0⟩, ⟨S1x768, r1⟩, ⟨S1x768, r2⟩, ⟨S1x768, r3⟩] hc _ 2 (by simp) S1x768 r2 rfl rfl 2 rfl _ hi rfl
  | ⟨3, _⟩ => exact concatenate_apply_piece (0 : Fin S4x768.rank) [⟨S1x768, r0⟩, ⟨S1x768, r1⟩, ⟨S1x768, r2⟩, ⟨S1x768, r3⟩] hc _ 3 (by simp) S1x768 r3 rfl rfl 3 rfl _ hi rfl

/-- The four candidate rows before normalisation: [CLS] with type 0 and type 1, [SEP] with type 0 and type 1. -/
def edgeRows (w0 p0 w1 p1 t0 dt : FVec Ideal S1x768 .f32) : Fin 4 → Row :=
  pick4 (edge0 (theRow w0) (theRow p0) (theRow t0)) (edge1d (theRow w0) (theRow p0) (theRow t0) (theRow dt))
    (edge0 (theRow w1) (theRow p1) (theRow t0)) (edge1d (theRow w1) (theRow p1) (theRow t0) (theRow dt))

/-- The four candidates normalised. -/
theorem pay16_apply (v4 v7 v9 v11 v126 v128 v131 v133 : FVec Ideal S1x768 .f32) (k : Fin 4) (c : Fin 768) :
    k0_pay16 (F := Ideal) v4 v7 v9 v11 v126 v128 v131 v133 (ix2 k c)
      = lnK (edgeRows v126 v128 v131 v133 v4 v7 k) (theRow v9) (theRow v11) c := by
  unfold k0_pay16
  refine ln_full_apply (a := 4) _ v9 v11 (edgeRows v126 v128 v131 v133 v4 v7) ?_ _ _ _ _ k c
  intro k j
  refine (stack4_apply _ _ _ _ _ k j).trans ?_
  match k with
  | ⟨0, _⟩ =>
    show (shapeCast S1x768 v126 _ (ix2 (0 : Fin 1) j) + shapeCast S1x768 v128 _ (ix2 (0 : Fin 1) j)) + v4 (ix2 (0 : Fin 1) j) = _
    rw [shapeCast_self, shapeCast_self]; rfl
  | ⟨1, _⟩ =>
    show ((shapeCast S1x768 v126 _ (ix2 (0 : Fin 1) j) + shapeCast S1x768 v128 _ (ix2 (0 : Fin 1) j)) + v4 (ix2 (0 : Fin 1) j)) + v7 (ix2 (0 : Fin 1) j) = _
    rw [shapeCast_self, shapeCast_self]; rfl
  | ⟨2, _⟩ =>
    show (shapeCast S1x768 v131 _ (ix2 (0 : Fin 1) j) + shapeCast S1x768 v133 _ (ix2 (0 : Fin 1) j)) + v4 (ix2 (0 : Fin 1) j) = _
    rw [shapeCast_self, shapeCast_self]; rfl
  | ⟨3, _⟩ =>
    show ((shapeCast S1x768 v131 _ (ix2 (0 : Fin 1) j) + shapeCast S1x768 v133 _ (ix2 (0 : Fin 1) j)) + v4 (ix2 (0 : Fin 1) j)) + v7 (ix2 (0 : Fin 1) j) = _
    rw [shapeCast_self, shapeCast_self]; rfl

/-- Row 0 of the normalised candidates, as a one-row matrix. -/
theorem pay17_apply (v4 v7 v9 v11 v126 v128 v131 v133 : FVec Ideal S1x768 .f32) (u : Fin 1) (c : Fin 768) :
    k0_pay17 (F := Ideal) v4 v7 v9 v11 v126 v128 v131 v133 (ix2 u c)
      = k0_pay16 (F := Ideal) v4 v7 v9 v11 v126 v128 v131 v133 (ix2 (0 : Fin 4) c) := by
  unfold k0_pay17
  exact slice2_axis0_apply 0 _ _ u c (0 : Fin 4) (by have := u.isLt; omega)

/-- Row 1 of the normalised candidates, as a one-row matrix. -/
theorem pay19_apply (v4 v7 v9 v11 v126 v128 v131 v133 : FVec Ideal S1x768 .f32) (u : Fin 1) (c : Fin 768) :
    k0_pay19 (F := Ideal) v4 v7 v9 v11 v126 v128 v131 v133 (ix2 u c)
      = k0_pay16 (F := Ideal) v4 v7 v9 v11 v126 v128 v131 v133 (ix2 (1 : Fin 4) c) := by
  unfold k0_pay19
  exact slice2_axis0_apply 1 _ _ u c (1 : Fin 4) (by have := u.isLt; show 1 = 1 + u.val; omega)

/-- Row 0 again. -/
theorem pay20_apply (v4 v7 v9 v11 v126 v128 v131 v133 : FVec Ideal S1x768 .f32) (u : Fin 1) (c : Fin 768) :
    k0_pay20 (F := Ideal) v4 v7 v9 v11 v126 v128 v131 v133 (ix2 u c)
      = k0_pay16 (F := Ideal) v4 v7 v9 v11 v126 v128 v131 v133 (ix2 (0 : Fin 4) c) := by
  unfold k0_pay20
  exact slice2_axis0_apply 0 _ _ u c (0 : Fin 4) (by have := u.isLt; omega)

/-- Column 0 of the type numbers, as a column. -/
theorem pay18_apply (v3 : FVec Ideal S512x5 .f32) (p : Fin 512) (u : Fin 1) :
    k0_pay18 (F := Ideal) v3 (ix2 p u) = v3 (ix2 p (0 : Fin 5)) := by
  unfold k0_pay18
  exact slice2_axis1_apply 0 _ _ p u (0 : Fin 5) (by have := u.isLt; omega)

/-- The [CLS] block: candidate 0 plus the type number times (candidate 1 - candidate 0). -/
theorem pay1_apply (v163 v165 v166 : FVec Ideal S1x768 .f32) (v164 : FVec Ideal S512x1 .f32) (p : Fin 512) (h : Fin 768) :
    k0_pay1 (F := Ideal) v163 v164 v165 v166 (ix2 p h)
      = v163 (ix2 (0 : Fin 1) h) + v164 (ix2 p (0 : Fin 1)) * (v165 (ix2 (0 : Fin 1) h) - v166 (ix2 (0 : Fin 1) h)) := by
  unfold k0_pay1
  show broadcastTo S512x768 v163 _ (ix2 p h) + broadcastTo S512x768 v164 _ (ix2 p h) * broadcastTo S512x768 (subf v165 v166) _ (ix2 p h) = _
  rw [broadcastTo_1b_ab_apply, Cert.Columns.broadcastTo_a1_ab_apply, broadcastTo_1b_ab_apply]
  rfl

/-- The [SEP] block: candidate 2 plus the type number (column 4) times (candidate 3 - candidate 2). -/
theorem pay2_apply (v3 : FVec Ideal S512x5 .f32) (v162 : FVec Ideal S4x768 .f32) (p : Fin 512) (h : Fin 768) :
    k0_pay2 (F := Ideal) v3 v162 (ix2 p h)
      = v162 (ix2 (2 : Fin 4) h) + v3 (ix2 p (4 : Fin 5)) * (v162 (ix2 (3 : Fin 4) h) - v162 (ix2 (2 : Fin 4) h)) := by
  unfold k0_pay2
  show broadcastTo S512x768 (extractStridedSlice S1x768 ![2, 0] v162 _) _ (ix2 p h)
      + broadcastTo S512x768 (extractStridedSlice S512x1 ![0, 4] v3 _) _ (ix2 p h)
        * broadcastTo S512x768 (subf (extractStridedSlice S1x768 ![3, 0] v162 _) (extractStridedSlice S1x768 ![2, 0] v162 _)) _ (ix2 p h) = _
  rw [broadcastTo_1b_ab_apply, Cert.Columns.broadcastTo_a1_ab_apply, broadcastTo_1b_ab_apply]
  show extractStridedSlice S1x768 ![2, 0] v162 _ (ix2 (0 : Fin 1) h)
      + extractStridedSlice S512x1 ![0, 4] v3 _ (ix2 p (0 : Fin 1))
        * (extractStridedSlice S1x768 ![3, 0] v162 _ (ix2 (0 : Fin 1) h) - extractStridedSlice S1x768 ![2, 0] v162 _ (ix2 (0 : Fin 1) h)) = _
  rw [slice2_axis0_apply 2 v162 _ (0 : Fin 1) h (2 : Fin 4) rfl, slice2_axis0_apply 3 v162 _ (0 : Fin 1) h (3 : Fin 4) rfl,
    slice2_axis1_apply 4 v3 _ p (0 : Fin 1) (4 : Fin 5) rfl]

end Cert.KSide

end
-- ==== Proof.KPieces.lean ====
/-
  The kernel's whole output block at one grid point, read at an entry.  The body stores five column ranges of
  768 columns each into the 512 × 3840 output block: columns 0..767 the [CLS] rows, the next three ranges the
  three image slots, the last the [SEP] rows.  So entry `(p, c)` of the block is output row `c / 768`, feature
  `c % 768`, of batch row `p`: the function `blockAt`, which the five stored pieces are the tiles of.
-/
import proofs.«102618_g412316860866_cont_8to1_b_54_19_alg».proof.Proof.Gen.KernelIdeal.Frame
import proofs.«102618_g412316860866_cont_8to1_b_54_19_alg».proof.Proof.KPay
import proofs.«102618_g412316860866_cont_8to1_b_54_19_alg».proof.Proof.KEdge

set_option maxRecDepth 16384

noncomputable section

namespace Cert.KSide

open Idealize.ShloMosaic Idealize.ShloMosaic.ValueIdx Cert.Spec Cert.KOps Cert.KernelIdeal Cert.KernelIdeal.Facts₀ Cert.KernelIdeal.Facts
open Cert.KernelIdeal.Gen

variable [Cert.KernelIdeal.Facts]

section Block

variable (x0 : Vec Ideal S512x6144 .f32) (x1 : Vec Ideal S512x5 .f32) (x2 : Vec Ideal S2048x768 .bf16)
  (x3 : Vec Ideal S1x768 .f32) (x4 : Vec Ideal S5x768 .f32) (x5 : Vec Ideal S2x768 .f32)
  (x6 x7 x8 x9 : Vec Ideal S1x768 .f32)

/-- The four normalised edge candidates' rows before normalisation, from the blocks. -/
def blockEdge : Fin 4 → Row :=
  edgeRows (View.ld x6 r0_4) (View.ld x4 r0_14) (View.ld x7 r0_4) (View.ld x4 r0_15) (View.ld x5 r0_2)
    (subf (View.ld x5 r0_3) (View.ld x5 r0_2))

/-- Batch row `p`'s five output rows, from the blocks the body loads. -/
def blockRow (p : Fin 512) : Fin 5 → Row
  | ⟨0, _⟩ => fun h => lnK (blockEdge x4 x5 x6 x7 0) (theRow (View.ld x8 r0_4)) (theRow (View.ld x9 r0_4)) h
      + (View.ld x1 r0_1) (ix2 p (0 : Fin 5))
        * (lnK (blockEdge x4 x5 x6 x7 1) (theRow (View.ld x8 r0_4)) (theRow (View.ld x9 r0_4)) h
          - lnK (blockEdge x4 x5 x6 x7 0) (theRow (View.ld x8 r0_4)) (theRow (View.ld x9 r0_4)) h)
  | ⟨1, _⟩ => lnK (slotRow (View.ld x0 r0_5) (View.ld x2 r0_0) (View.ld x3 r0_4) (View.ld x4 r0_6) (View.ld x5 r0_2)
      (subf (View.ld x5 r0_3) (View.ld x5 r0_2)) (View.ld x1 r0_1) 1 p) (theRow (View.ld x8 r0_4)) (theRow (View.ld x9 r0_4))
  | ⟨2, _⟩ => lnK (slotRow (View.ld x0 r0_8) (View.ld x2 r0_0) (View.ld x3 r0_4) (View.ld x4 r0_9) (View.ld x5 r0_2)
      (subf (View.ld x5 r0_3) (View.ld x5 r0_2)) (View.ld x1 r0_1) 2 p) (theRow (View.ld x8 r0_4)) (theRow (View.ld x9 r0_4))
  | ⟨3, _⟩ => lnK (slotRow (View.ld x0 r0_11) (View.ld x2 r0_0) (View.ld x3 r0_4) (View.ld x4 r0_12) (View.ld x5 r0_2)
      (subf (View.ld x5 r0_3) (View.ld x5 r0_2)) (View.ld x1 r0_1) 3 p) (theRow (View.ld x8 r0_4)) (theRow (View.ld x9 r0_4))
  | ⟨4, _⟩ => fun h => lnK (blockEdge x4 x5 x6 x7 2) (theRow (View.ld x8 r0_4)) (theRow (View.ld x9 r0_4)) h
      + (View.ld x1 r0_1) (ix2 p (4 : Fin 5))
        * (lnK (blockEdge x4 x5 x6 x7 3) (theRow (View.ld x8 r0_4)) (theRow (View.ld x9 r0_4)) h
          - lnK (blockEdge x4 x5 x6 x7 2) (theRow (View.ld x8 r0_4)) (theRow (View.ld x9 r0_4)) h)
  | ⟨n + 5, h⟩ => absurd h (by omega)

/-- The output block as one function of its index: column `c` is output row `c / 768`, feature `c % 768`. -/
def blockAt (y : S512x3840.Idx) : EReal :=
  blockRow x0 x1 x2 x3 x4 x5 x6 x7 x8 x9 ⟨(y 0).val, (y 0).isLt⟩
    ⟨(y 1).val / 768, by have : (y 1).val < 3840 := (y 1).isLt; omega⟩ ⟨(y 1).val % 768, Nat.mod_lt _ (by norm_num)⟩

theorem blockAt_of (y : S512x3840.Idx) (p : Fin 512) (q : Fin 5) (h : Fin 768) (h0 : (y 0).val = p.val)
    (h1 : (y 1).val = 768 * q.val + h.val) :
    blockAt x0 x1 x2 x3 x4 x5 x6 x7 x8 x9 y = blockRow x0 x1 x2 x3 x4 x5 x6 x7 x8 x9 p q h := by
  unfold blockAt
  have e0 : (⟨(y 0).val, (y 0).isLt⟩ : Fin 512) = p := Fin.ext h0
  have e1 : (⟨(y 1).val / 768, by have : (y 1).val < 3840 := (y 1).isLt; omega⟩ : Fin 5) = q := Fin.ext (by
    have := h.isLt; show (y 1).val / 768 = q.val; omega)
  have e2 : (⟨(y 1).val % 768, Nat.mod_lt _ (by norm_num)⟩ : Fin 768) = h := Fin.ext (by
    have := h.isLt; show (y 1).val % 768 = h.val; omega)
  rw [e0, e1, e2]

/-- The body's five stores are the tiles of `blockAt`: what the body leaves in the output block is `blockAt`. -/
theorem out0_eq_blockAt (y : S512x3840.Idx) :
    out0_10 (F := Ideal) x0 x1 x2 x3 x4 x5 x6 x7 x8 x9 y = blockAt x0 x1 x2 x3 x4 x5 x6 x7 x8 x9 y := by
  unfold out0_10
  refine View.canon_apply_of_pieces (Val := Elt Ideal) (blockAt x0 x1 x2 x3 x4 x5 x6 x7 x8 x9) _ ?_ y (cover0_10 _ _ _ _ _ y)
  intro pc hpc
  simp only [List.mem_cons, List.not_mem_nil, or_false] at hpc
  rcases hpc with rfl | rfl | rfl | rfl | rfl
  · -- columns 3072..3839: the [SEP] rows
    intro x
    obtain ⟨p, h, rfl⟩ : ∃ (p : Fin 512) (h : Fin 768), x = ix2 p h := ⟨x 0, x 1, eq_ix2 x⟩
    refine Eq.trans ?_ (blockAt_of x0 x1 x2 x3 x4 x5 x6 x7 x8 x9 _ p 4 h ?_ ?_).symm
    · show k0_pay2 (F := Ideal) _ _ (ix2 p h) = _
      rw [pay2_apply, pay16_apply, pay16_apply]
      unfold k0_pay4 k0_pay5 k0_pay6 k0_pay7
      simp only [shapeCast_self]
      rfl
    · show 0 + 1 * p.val = p.val; omega
    · show 3072 + 1 * h.val = 768 * 4 + h.val; omega
  · -- columns 0..767: the [CLS] rows
    intro x
    obtain ⟨p, h, rfl⟩ : ∃ (p : Fin 512) (h : Fin 768), x = ix2 p h := ⟨x 0, x 1, eq_ix2 x⟩
    refine Eq.trans ?_ (blockAt_of x0 x1 x2 x3 x4 x5 x6 x7 x8 x9 _ p 0 h ?_ ?_).symm
    · show k0_pay1 (F := Ideal) _ _ _ _ (ix2 p h) = _
      rw [pay1_apply, pay17_apply, pay18_apply, pay19_apply, pay20_apply, pay16_apply, pay16_apply]
      unfold k0_pay4 k0_pay5 k0_pay6 k0_pay7
      simp only [shapeCast_self]
      rfl
    · show 0 + 1 * p.val = p.val; omega
    · show 0 + 1 * h.val = 768 * 0 + h.val; omega
  · -- columns 2304..3071: image slot 3
    intro x
    obtain ⟨p, h, rfl⟩ : ∃ (p : Fin 512) (h : Fin 768), x = ix2 p h := ⟨x 0, x 1, eq_ix2 x⟩
    refine Eq.trans ?_ (blockAt_of x0 x1 x2 x3 x4 x5 x6 x7 x8 x9 _ p 3 h ?_ ?_).symm
    · show k0_pay15 (F := Ideal) _ _ (ix2 p h) = _
      unfold k0_pay3 k0_pay4 k0_pay5 k0_pay6 k0_pay7
      simp only [shapeCast_self]
      exact pay15_apply _ _ _ _ _ _ _ _ _ p h
    · show 0 + 1 * p.val = p.val; omega
    · show 2304 + 1 * h.val = 768 * 3 + h.val; omega
  · -- columns 1536..2303: image slot 2
    intro x
    obtain ⟨p, h, rfl⟩ : ∃ (p : Fin 512) (h : Fin 768), x = ix2 p h := ⟨x 0, x 1, eq_ix2 x⟩
    refine Eq.trans ?_ (blockAt_of x0 x1 x2 x3 x4 x5 x6 x7 x8 x9 _ p 2 h ?_ ?_).symm
    · show k0_pay13 (F := Ideal) _ _ _ _ _ (ix2 p h) = _
      unfold k0_pay3 k0_pay4 k0_pay5 k0_pay6 k0_pay7
      simp only [shapeCast_self]
      exact pay13_apply _ _ _ _ _ (fun p k => pay11_apply _ _ _ _ _ _ _ p k) (fun p => pay12_apply _ _ _ _ _ _ _ p 0) p h
    · show 0 + 1 * p.val = p.val; omega
    · show 1536 + 1 * h.val = 768 * 2 + h.val; omega
  · -- columns 768..1535: image slot 1
    intro x
    obtain ⟨p, h, rfl⟩ : ∃ (p : Fin 512) (h : Fin 768), x = ix2 p h := ⟨x 0, x 1, eq_ix2 x⟩
    refine Eq.trans ?_ (blockAt_of x0 x1 x2 x3 x4 x5 x6 x7 x8 x9 _ p 1 h ?_ ?_).symm
    · show k0_pay10 (F := Ideal) _ _ _ _ (ix2 p h) = _
      unfold k0_pay9 k0_pay6 k0_pay7
      simp only [shapeCast_self]
      exact pay10_apply _ _ _ _ (fun p k => pay8_apply _ _ _ _ _ _ _ _ p k) p h
    · show 0 + 1 * p.val = p.val; omega
    · show 768 + 1 * h.val = 768 * 1 + h.val; omega

end Block

end Cert.KSide

end
-- ==== Proof.KHostOps.lean ====
/-
  The layout operations of the host lines around the kernel's region, each read at an index given by coordinates.

  A reshape keeps the row-major position: [16384, 3, 2048] to [16384, 6144] sends (r, s, e) to (r, 2048 s + e), and
  [16384, 3840] to [16384, 5, 768] reads (r, q, h) at (r, 768 q + h).  A slice of rows from row o reads row o + j.  A
  vector of 768 entries broadcast to one row of 768 reads its entry h at (0, h).  Converting a signed integer to a
  float is, over the extended reals, the integer itself; narrowing a float is the identity.
-/
import Idealize.ShloMosaic.Lib.Pipeline.Value
import Idealize.ShloMosaic.Lib.ValueIdx
import Idealize.ShloMosaic.Lib.ValueLayout
import proofs.«102618_g412316860866_cont_8to1_b_54_19_alg».proof.Proof.Spec

noncomputable section

namespace Cert.KSide

open Idealize.ShloMosaic Idealize.ShloMosaic.ValueIdx

variable {α : Type}

/-- The images reshaped from [16384, 3, 2048] to [16384, 6144]: column 2048 s + e of row r is entry (r, s, e). -/
theorem cast_x_apply (X : (⟨3, ![16384, 3, 2048]⟩ : Shape).Idx → α)
    (h : (⟨3, ![16384, 3, 2048]⟩ : Shape).ShapeCasts ⟨2, ![16384, 6144]⟩) (r : Fin 16384) (s : Fin 3) (e : Fin 2048)
    (col : Fin 6144) (hcol : col.val = 2048 * s.val + e.val) :
    shapeCast ⟨2, ![16384, 6144]⟩ X h (ix2 r col) = X (ix3 r s e) :=
  shapeCast_apply X h _ _ (by
    rw [Shape.rowMajor_val_three, Shape.rowMajor_val_two]
    show (r.val * 3 + s.val) * 2048 + e.val = r.val * 6144 + col.val
    omega)

/-- The output reshaped from [16384, 3840] to [16384, 5, 768]: entry (r, q, h) is column 768 q + h of row r. -/
theorem cast_out_apply (X : (⟨2, ![16384, 3840]⟩ : Shape).Idx → α)
    (h : (⟨2, ![16384, 3840]⟩ : Shape).ShapeCasts ⟨3, ![16384, 5, 768]⟩) (r : Fin 16384) (q : Fin 5) (f : Fin 768)
    (col : Fin 3840) (hcol : col.val = 768 * q.val + f.val) :
    shapeCast ⟨3, ![16384, 5, 768]⟩ X h (ix3 r q f) = X (ix2 r col) :=
  shapeCast_apply X h _ _ (by
    rw [Shape.rowMajor_val_three, Shape.rowMajor_val_two]
    show r.val * 3840 + col.val = (r.val * 5 + q.val) * 768 + f.val
    omega)

/-- A vector of 768 entries broadcast along a new leading unit axis: entry (0, f) is entry f. -/
theorem bcast_row_apply (X : (⟨1, ![768]⟩ : Shape).Idx → α)
    (h : (⟨1, ![768]⟩ : Shape).BroadcastsInDim ⟨2, ![1, 768]⟩ ![1]) (u : Fin 1) (f : Fin 768) :
    broadcastInDim ⟨2, ![1, 768]⟩ ![1] h X (ix2 u f) = X (ix1 f) :=
  broadcastInDim_apply _ h X _ _ (fun a => by
    match a with
    | ⟨0, _⟩ =>
      show f.val = if (768 : Nat) = 1 then 0 else f.val
      rw [if_neg (by decide)])

/-- One row o of a [30522, 768] table cut out as a [1, 768] array, squeezed to a vector and broadcast back to one row:
    entry (0, f) is the table's entry (o, f). -/
theorem row_of_table_apply (o : Nat) (X : (⟨2, ![30522, 768]⟩ : Shape).Idx → α)
    (hs : (⟨2, ![30522, 768]⟩ : Shape).Slices ![o, 0] ⟨2, ![1, 768]⟩)
    (hc : (⟨2, ![1, 768]⟩ : Shape).ShapeCasts ⟨1, ![768]⟩)
    (hb : (⟨1, ![768]⟩ : Shape).BroadcastsInDim ⟨2, ![1, 768]⟩ ![1]) (k : Fin 30522) (hk : k.val = o) (f : Fin 768) :
    broadcastInDim ⟨2, ![1, 768]⟩ ![1] hb
        (shapeCast ⟨1, ![768]⟩ (extractStridedSlice ⟨2, ![1, 768]⟩ ![o, 0] X hs) hc) (ix2 (0 : Fin 1) f)
      = X (ix2 k f) :=
  (bcast_row_apply _ hb 0 f).trans
    ((shapeCast_1a_a_apply _ hc f).trans (slice2_axis0_apply o X hs (0 : Fin 1) f k (by rw [hk]; rfl)))

/-- The first five rows of the [512, 768] position table: entry (q, f) is the table's entry (q, f). -/
theorem pos_rows_apply (X : (⟨2, ![512, 768]⟩ : Shape).Idx → α)
    (hs : (⟨2, ![512, 768]⟩ : Shape).Slices ![0, 0] ⟨2, ![5, 768]⟩) (q : Fin 5) (f : Fin 768) :
    extractStridedSlice ⟨2, ![5, 768]⟩ ![0, 0] X hs (ix2 q f) = X (ix2 (Cert.Spec.posOf q) f) :=
  slice2_axis0_apply 0 X hs q f (Cert.Spec.posOf q) (Nat.zero_add _).symm

/-- A signed 32-bit integer converted to a float is, over the extended reals, the integer read as a number. -/
theorem sitofp_ttf_apply {s : Shape} (x : IVec s 32) (i : s.Idx) :
    (sitofp .f32 x : FVec Ideal s .f32) i = Cert.Spec.ttf (x i) := rfl

end Cert.KSide

end
-- ==== Proof.KHost.lean ====
/-
  What the kernel's region finds in its operand arrays: the host lines before the region, read at an index.

  Before the region the program reshapes the images to [16384, 6144], converts the token types to floats, narrows the
  projection matrix, cuts the first five rows of the position table, cuts rows 101 and 102 of the word table and lays
  each out as one row, and lays the projection bias, the gain and the bias out as one row each.  Each buffer is first
  written as these operations applied to the launched argument arrays, and then read at an index: every entry is an
  entry of an argument array (or, for the token types, the integer read as a number).
-/
import proofs.«102618_g412316860866_cont_8to1_b_54_19_alg».proof.Proof.Gen.KernelIdeal.Frame
import proofs.«102618_g412316860866_cont_8to1_b_54_19_alg».proof.Proof.ArgsOf
import Idealize.ShloMosaic.Lib.StableHlo.Run
import Idealize.ShloMosaic.Lib.Pipeline.Value
import Idealize.ShloMosaic.Lib.ValueIdx
import Idealize.ShloMosaic.Lib.ValueLayout
import proofs.«102618_g412316860866_cont_8to1_b_54_19_alg».proof.Proof.KHostOps

noncomputable section

namespace Cert.KSide

open Idealize.ShloMosaic Idealize.ShloMosaic.TcCoe Idealize.ShloMosaic.ValueIdx Cert.KernelIdeal Cert.KernelIdeal.Gen

variable [Cert.KernelIdeal.Facts] (m : (ℓ : Loc nD τ sig) → Buf (Elt Ideal) ℓ) (c : Dev nD)

/-- The kernel program's nine argument arrays, as launched on core c, as the specification's arguments. -/
def Am : Cert.Spec.Args :=
  Cert.Spec.argsOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-! ### Each buffer as the host operations' term over the launched arguments -/

/-- %0: the images, reshaped. -/
theorem V_v0_eq : (V m c main_v0 : S16384x6144.Idx → EReal)
    = shapeCast S16384x6144 (m ((c : Thread nD τ).loc main_arg0) : S16384x3x2048.Idx → EReal)
        shapeCasts_S16384x3x2048_S16384x6144 := by
  show StableHlo.after hostOps0 (fun b => m (c, b)) (Proc.devRef .tc main_v0) = _
  after_results <;> rfl

/-- %1: the token types, converted to floats. -/
theorem V_v1_eq : (V m c main_v1 : S16384x5.Idx → EReal)
    = (sitofp .f32 (m ((c : Thread nD τ).loc main_arg1) : IVec S16384x5 32) : FVec Ideal S16384x5 .f32) := by
  show StableHlo.after hostOps0 (fun b => m (c, b)) (Proc.devRef .tc main_v1) = _
  after_results <;> rfl

/-- %2: the projection matrix, narrowed (the identity over the extended reals). -/
theorem V_v2_eq : (V m c main_v2 : S2048x768.Idx → EReal)
    = (m ((c : Thread nD τ).loc main_arg2) : S2048x768.Idx → EReal) := by
  show StableHlo.after hostOps0 (fun b => m (c, b)) (Proc.devRef .tc main_v2) = _
  after_results <;> rfl

/-- %3: the first five rows of the position table. -/
theorem V_v3_eq : (V m c main_v3 : S5x768.Idx → EReal)
    = extractStridedSlice S5x768 ![0, 0] (m ((c : Thread nD τ).loc main_arg5) : S512x768.Idx → EReal)
        slices_S512x768_S5x768_0_0 := by
  show StableHlo.after hostOps0 (fun b => m (c, b)) (Proc.devRef .tc main_v3) = _
  after_results <;> rfl

/-- %6: row 101 of the word table, cut, squeezed and laid out as one row. -/
theorem V_v6_eq : (V m c main_v6 : S1x768.Idx → EReal)
    = broadcastInDim S1x768 ![1] bcast_S768_S1x768_1
        (shapeCast S768 (extractStridedSlice S1x768 ![101, 0] (m ((c : Thread nD τ).loc main_arg4) : S30522x768.Idx → EReal)
          slices_S30522x768_S1x768_101_0) shapeCasts_S1x768_S768) := by
  show StableHlo.after hostOps0 (fun b => m (c, b)) (Proc.devRef .tc main_v6) = _
  after_results <;> rfl

/-- %9: row 102 of the word table, cut, squeezed and laid out as one row. -/
theorem V_v9_eq : (V m c main_v9 : S1x768.Idx → EReal)
    = broadcastInDim S1x768 ![1] bcast_S768_S1x768_1
        (shapeCast S768 (extractStridedSlice S1x768 ![102, 0] (m ((c : Thread nD τ).loc main_arg4) : S30522x768.Idx → EReal)
          slices_S30522x768_S1x768_102_0) shapeCasts_S1x768_S768) := by
  show StableHlo.after hostOps0 (fun b => m (c, b)) (Proc.devRef .tc main_v9) = _
  after_results <;> rfl

/-- %10: the projection bias as one row. -/
theorem V_v10_eq : (V m c main_v10 : S1x768.Idx → EReal)
    = broadcastInDim S1x768 ![1] bcast_S768_S1x768_1 (m ((c : Thread nD τ).loc main_arg3) : S768.Idx → EReal) := by
  show StableHlo.after hostOps0 (fun b => m (c, b)) (Proc.devRef .tc main_v10) = _
  after_results <;> rfl

/-- %11: the gain as one row. -/
theorem V_v11_eq : (V m c main_v11 : S1x768.Idx → EReal)
    = broadcastInDim S1x768 ![1] bcast_S768_S1x768_1 (m ((c : Thread nD τ).loc main_arg7) : S768.Idx → EReal) := by
  show StableHlo.after hostOps0 (fun b => m (c, b)) (Proc.devRef .tc main_v11) = _
  after_results <;> rfl

/-- %12: the bias as one row. -/
theorem V_v12_eq : (V m c main_v12 : S1x768.Idx → EReal)
    = broadcastInDim S1x768 ![1] bcast_S768_S1x768_1 (m ((c : Thread nD τ).loc main_arg8) : S768.Idx → EReal) := by
  show StableHlo.after hostOps0 (fun b => m (c, b)) (Proc.devRef .tc main_v12) = _
  after_results <;> rfl

/-! ### Each buffer read at an index -/

/-- Column 2048 s + e of row r of the reshaped images is the image entry (r, s, e). -/
theorem V_x (r : Fin 16384) (s : Fin 3) (e : Fin 2048) (col : Fin 6144) (hcol : col.val = 2048 * s.val + e.val) :
    (V m c main_v0 : S16384x6144.Idx → EReal) (ix2 r col) = (Am m c).x r s e :=
  (congrFun (V_v0_eq m c) (ix2 r col)).trans (cast_x_apply _ _ r s e col hcol)

/-- The converted token type at (r, q) is the token type read as a number. -/
theorem V_tt (r : Fin 16384) (q : Fin 5) :
    (V m c main_v1 : S16384x5.Idx → EReal) (ix2 r q) = Cert.Spec.ttf ((Am m c).tt r q) :=
  (congrFun (V_v1_eq m c) (ix2 r q)).trans (sitofp_ttf_apply _ _)

/-- The narrowed projection matrix at (e, h) is the matrix entry. -/
theorem V_W (e : Fin 2048) (h : Fin 768) :
    (V m c main_v2 : S2048x768.Idx → EReal) (ix2 e h) = (Am m c).W e h :=
  congrFun (V_v2_eq m c) (ix2 e h)

/-- The projection bias laid out as one row, at (0, h). -/
theorem V_bimg (h : Fin 768) : (V m c main_v10 : S1x768.Idx → EReal) (ix2 (0 : Fin 1) h) = (Am m c).bimg h :=
  (congrFun (V_v10_eq m c) (ix2 (0 : Fin 1) h)).trans (bcast_row_apply _ _ 0 h)

/-- Row q of the cut position table is row q of the whole table. -/
theorem V_pos (q : Fin 5) (h : Fin 768) :
    (V m c main_v3 : S5x768.Idx → EReal) (ix2 q h) = (Am m c).pos (Cert.Spec.posOf q) h :=
  (congrFun (V_v3_eq m c) (ix2 q h)).trans (pos_rows_apply _ _ q h)

/-- No host line writes the token-type table: the region finds it as launched. -/
theorem V_tte (t : Fin 2) (h : Fin 768) : (V m c main_arg6 : S2x768.Idx → EReal) (ix2 t h) = (Am m c).tte t h :=
  congrFun (V_main_arg6 m c) (ix2 t h)

/-- The [CLS] row: word 101 of the word table. -/
theorem V_cls (h : Fin 768) : (V m c main_v6 : S1x768.Idx → EReal) (ix2 (0 : Fin 1) h) = (Am m c).word 101 h :=
  (congrFun (V_v6_eq m c) (ix2 (0 : Fin 1) h)).trans (row_of_table_apply 101 _ _ _ _ (101 : Fin 30522) rfl h)

/-- The [SEP] row: word 102 of the word table. -/
theorem V_sep (h : Fin 768) : (V m c main_v9 : S1x768.Idx → EReal) (ix2 (0 : Fin 1) h) = (Am m c).word 102 h :=
  (congrFun (V_v9_eq m c) (ix2 (0 : Fin 1) h)).trans (row_of_table_apply 102 _ _ _ _ (102 : Fin 30522) rfl h)

/-- The gain laid out as one row, at (0, h). -/
theorem V_g (h : Fin 768) : (V m c main_v11 : S1x768.Idx → EReal) (ix2 (0 : Fin 1) h) = (Am m c).g h :=
  (congrFun (V_v11_eq m c) (ix2 (0 : Fin 1) h)).trans (bcast_row_apply _ _ 0 h)

/-- The bias laid out as one row, at (0, h). -/
theorem V_b (h : Fin 768) : (V m c main_v12 : S1x768.Idx → EReal) (ix2 (0 : Fin 1) h) = (Am m c).b h :=
  (congrFun (V_v12_eq m c) (ix2 (0 : Fin 1) h)).trans (bcast_row_apply _ _ 0 h)

end Cert.KSide

end
-- ==== Proof.KHostTail.lean ====
/-
  The one host line after the kernel's region: the reshape of the region's output array, read at an index.

  After the region the output array [16384, 3840] (the array of window 10, as the region leaves it) is reshaped to
  [16384, 5, 768]; a reshape keeps the row-major position, so entry (r, q, h) of the result is column 768 q + h of
  row r of the region's output.
-/
import proofs.«102618_g412316860866_cont_8to1_b_54_19_alg».proof.Proof.Gen.KernelIdeal.Frame
import proofs.«102618_g412316860866_cont_8to1_b_54_19_alg».proof.Proof.ArgsOf
import Idealize.ShloMosaic.Lib.StableHlo.Run
import Idealize.ShloMosaic.Lib.Pipeline.Value
import Idealize.ShloMosaic.Lib.ValueIdx
import Idealize.ShloMosaic.Lib.ValueLayout
import proofs.«102618_g412316860866_cont_8to1_b_54_19_alg».proof.Proof.KHostOps

noncomputable section

namespace Cert.KSide

open Idealize.ShloMosaic Idealize.ShloMosaic.TcCoe Idealize.ShloMosaic.ValueIdx Cert.KernelIdeal Cert.KernelIdeal.Gen

variable [Cert.KernelIdeal.Facts] (m : (ℓ : Loc nD τ sig) → Buf (Elt Ideal) ℓ) (c : Dev nD)

/-- The program's result buffer is the reshape of the region's output array. -/
theorem tail_v14_eq :
    (Pipeline.afterTail₀ cfgs (dats m) 0 (V0 m) [hostOps1] c main_v14 : S16384x5x768.Idx → EReal)
      = shapeCast S16384x5x768 ((dats m 0 c).arrAt 10 cfg0.N : S16384x3840.Idx → EReal)
          shapeCasts_S16384x3840_S16384x5x768 := by
  unfold Pipeline.afterTail₀
  show StableHlo.after hostOps1 _ (Proc.devRef .tc main_v14) = _
  after_results
  funext i
  exact congrArg
    (fun X : S16384x3840.Idx → EReal => shapeCast S16384x5x768 X shapeCasts_S16384x3840_S16384x5x768 i)
    (Pipeline.withArrays_arr spec0 launch0.win.arr_inj c _ _ 10)

/-- Entry (r, q, h) of the program's result is column 768 q + h of row r of the region's output array. -/
theorem tail_v14 (r : Fin 16384) (q : Fin 5) (h : Fin 768) (col : Fin 3840) (hcol : col.val = 768 * q.val + h.val) :
    (Pipeline.afterTail₀ cfgs (dats m) 0 (V0 m) [hostOps1] c main_v14 : S16384x5x768.Idx → EReal) (ix3 r q h)
      = ((dats m 0 c).arrAt 10 cfg0.N : S16384x3840.Idx → EReal) (ix2 r col) :=
  (congrFun (tail_v14_eq m c) (ix3 r q h)).trans (cast_out_apply _ _ r q h col hcol)

end Cert.KSide

end
-- ==== Proof.KBlocks.lean ====
/-
  Each block the body loads at a grid point, entry by entry, as an entry of the specification's arguments.

  The grid is one axis of 32 points.  Windows 0 (images), 1 (type numbers) and 10 (output) hold 512 batch rows per block
  and move with the point: at point t the block's row p is row 512 t + p of the array.  Windows 2..9 are whole arrays.
  A block's entry is the array's entry at block index times block size plus the coordinate inside the block; the arrays
  are what the host lines before the region left, which are entries of the launched arguments.
-/
import proofs.«102618_g412316860866_cont_8to1_b_54_19_alg».proof.Proof.Gen.KernelIdeal.Frame
import proofs.«102618_g412316860866_cont_8to1_b_54_19_alg».proof.Proof.KHost
import Idealize.ShloMosaic.Lib.Pipeline.Value

set_option maxRecDepth 16384

noncomputable section

namespace Cert.KSide

open Idealize.ShloMosaic Idealize.ShloMosaic.TcCoe Idealize.ShloMosaic.ValueIdx Cert.KernelIdeal Cert.KernelIdeal.Gen

/-! ### The windows' index maps, decided once over the grid's 32 points -/

/-- Windows 0 (images), 1 (type numbers) and 10 (output) move with the grid point: block (t, 0). -/
theorem idx_move_decided : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- Windows 2..9 are whole arrays: block (0, 0) at every point. -/
theorem idx_fixed_decided : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

variable [Cert.KernelIdeal.Facts] (m : (ℓ : Loc nD τ sig) → Buf (Elt Ideal) ℓ) (c : Dev nD)

/-- The same facts for any witness of the program's side conditions. -/
theorem idx_move : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 := idx_move_decided

theorem idx_fixed : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 := idx_fixed_decided

/-! ### A block's entry is the array's entry -/

/-- The image block: row p of block t is row 512 t + p of the reshaped images. -/
theorem blk0_read (t : Fin cfg0.N) (p : Fin 512) (col : Fin 6144) (r : Fin 16384) (hr : r.val = 512 * t.val + p.val) :
    iblk m c 0 t (ix2 p col) = (V m c main_v0 : S16384x6144.Idx → EReal) (ix2 r col) := by
  obtain ⟨e0, e1, -⟩ := idx_move t
  show V m c main_v0 (((cfg0.win 0).blk t).view.emb (ix2 p col)) = _
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 6144 + 1 * col.val = col.val; omega

/-- The type-number block: row p of block t is row 512 t + p of the converted token types. -/
theorem blk1_read (t : Fin cfg0.N) (p : Fin 512) (q : Fin 5) (r : Fin 16384) (hr : r.val = 512 * t.val + p.val) :
    iblk m c 1 t (ix2 p q) = (V m c main_v1 : S16384x5.Idx → EReal) (ix2 r q) := by
  obtain ⟨-, -, e0, e1, -⟩ := idx_move t
  show V m c main_v1 (((cfg0.win 1).blk t).view.emb (ix2 p q)) = _
  refine congrArg (V m c main_v1) (funext fun a => Fin.ext ?_)
  match a with
  | ⟨0, _⟩ => show win0_1.index t (0 : Fin 2) * 512 + 1 * p.val = r.val; omega
  | ⟨1, _⟩ => show win0_1.index t (1 : Fin 2) * 5 + 1 * q.val = q.val; omega

/-- The projection matrix, whole. -/
theorem blk2_read (t : Fin cfg0.N) (e : Fin 2048) (h : Fin 768) :
    iblk m c 2 t (ix2 e h) = (V m c main_v2 : S2048x768.Idx → EReal) (ix2 e h) := by
  obtain ⟨e0, e1, -⟩ := idx_fixed t
  show V m c main_v2 (((cfg0.win 2).blk t).view.emb (ix2 e h)) = _
  refine congrArg (V m c main_v2) (funext fun a => Fin.ext ?_)
  match a with
  | ⟨0, _⟩ => show win0_2.index t (0 : Fin 2) * 2048 + 1 * e.val = e.val; omega
  | ⟨1, _⟩ => show win0_2.index t (1 : Fin 2) * 768 + 1 * h.val = h.val; omega

/-- The projection bias row, whole. -/
theorem blk3_read (t : Fin cfg0.N) (u : Fin 1) (h : Fin 768) :
    iblk m c 3 t (ix2 u h) = (V m c main_v10 : S1x768.Idx → EReal) (ix2 u h) := by
  obtain ⟨-, -, e0, e1, -⟩ := idx_fixed t
  show V m c main_v10 (((cfg0.win 3).blk t).view.emb (ix2 u h)) = _
  refine congrArg (V m c main_v10) (funext fun a => Fin.ext ?_)
  match a with
  | ⟨0, _⟩ => show win0_3.index t (0 : Fin 2) * 1 + 1 * u.val = u.val; omega
  | ⟨1, _⟩ => show win0_3.index t (1 : Fin 2) * 768 + 1 * h.val = h.val; omega

/-- The five position rows, whole. -/
theorem blk4_read (t : Fin cfg0.N) (q : Fin 5) (h : Fin 768) :
    iblk m c 4 t (ix2 q h) = (V m c main_v3 : S5x768.Idx → EReal) (ix2 q h) := by
  obtain ⟨-, -, -, -, e0, e1, -⟩ := idx_fixed t
  show V m c main_v3 (((cfg0.win 4).blk t).view.emb (ix2 q h)) = _
  refine congrArg (V m c main_v3) (funext fun a => Fin.ext ?_)
  match a with
  | ⟨0, _⟩ => show win0_4.index t (0 : Fin 2) * 5 + 1 * q.val = q.val; omega
  | ⟨1, _⟩ => show win0_4.index t (1 : Fin 2) * 768 + 1 * h.val = h.val; omega

/-- The token-type table, whole. -/
theorem blk5_read (t : Fin cfg0.N) (k : Fin 2) (h : Fin 768) :
    iblk m c 5 t (ix2 k h) = (V m c main_arg6 : S2x768.Idx → EReal) (ix2 k h) := by
  obtain ⟨-, -, -, -, -, -, e0, e1, -⟩ := idx_fixed t
  show V m c main_arg6 (((cfg0.win 5).blk t).view.emb (ix2 k h)) = _
  refine congrArg (V m c main_arg6) (funext fun a => Fin.ext ?_)
  match a with
  | ⟨0, _⟩ => show win0_5.index t (0 : Fin 2) * 2 + 1 * k.val = k.val; omega
  | ⟨1, _⟩ => show win0_5.index t (1 : Fin 2) * 768 + 1 * h.val = h.val; omega

/-- The [CLS] row, whole. -/
theorem blk6_read (t : Fin cfg0.N) (u : Fin 1) (h : Fin 768) :
    iblk m c 6 t (ix2 u h) = (V m c main_v6 : S1x768.Idx → EReal) (ix2 u h) := by
  obtain ⟨-, -, -, -, -, -, -, -, e0, e1, -⟩ := idx_fixed t
  show V m c main_v6 (((cfg0.win 6).blk t).view.emb (ix2 u h)) = _
  refine congrArg (V m c main_v6) (funext fun a => Fin.ext ?_)
  match a with
  | ⟨0, _⟩ => show win0_6.index t (0 : Fin 2) * 1 + 1 * u.val = u.val; omega
  | ⟨1, _⟩ => show win0_6.index t (1 : Fin 2) * 768 + 1 * h.val = h.val; omega

/-- The [SEP] row, whole. -/
theorem blk7_read (t : Fin cfg0.N) (u : Fin 1) (h : Fin 768) :
    iblk m c 7 t (ix2 u h) = (V m c main_v9 : S1x768.Idx → EReal) (ix2 u h) := by
  obtain ⟨-, -, -, -, -, -, -, -, -, -, e0, e1, -⟩ := idx_fixed t
  show V m c main_v9 (((cfg0.win 7).blk t).view.emb (ix2 u h)) = _
  refine congrArg (V m c main_v9) (funext fun a => Fin.ext ?_)
  match a with
  | ⟨0, _⟩ => show win0_7.index t (0 : Fin 2) * 1 + 1 * u.val = u.val; omega
  | ⟨1, _⟩ => show win0_7.index t (1 : Fin 2) * 768 + 1 * h.val = h.val; omega

/-- The gain row, whole. -/
theorem blk8_read (t : Fin cfg0.N) (u : Fin 1) (h : Fin 768) :
    iblk m c 8 t (ix2 u h) = (V m c main_v11 : S1x768.Idx → EReal) (ix2 u h) := by
  obtain ⟨-, -, -, -, -, -, -, -, -, -, -, -, e0, e1, -⟩ := idx_fixed t
  show V m c main_v11 (((cfg0.win 8).blk t).view.emb (ix2 u h)) = _
  refine congrArg (V m c main_v11) (funext fun a => Fin.ext ?_)
  match a with
  | ⟨0, _⟩ => show win0_8.index t (0 : Fin 2) * 1 + 1 * u.val = u.val; omega
  | ⟨1, _⟩ => show win0_8.index t (1 : Fin 2) * 768 + 1 * h.val = h.val; omega

/-- The bias row, whole. -/
theorem blk9_read (t : Fin cfg0.N) (u : Fin 1) (h : Fin 768) :
    iblk m c 9 t (ix2 u h) = (V m c main_v12 : S1x768.Idx → EReal) (ix2 u h) := by
  obtain ⟨-, -, -, -, -, -, -, -, -, -, -, -, -, -, e0, e1⟩ := idx_fixed t
  show V m c main_v12 (((cfg0.win 9).blk t).view.emb (ix2 u h)) = _
  refine congrArg (V m c main_v12) (funext fun a => Fin.ext ?_)
  match a with
  | ⟨0, _⟩ => show win0_9.index t (0 : Fin 2) * 1 + 1 * u.val = u.val; omega
  | ⟨1, _⟩ => show win0_9.index t (1 : Fin 2) * 768 + 1 * h.val = h.val; omega

end Cert.KSide

end
-- ==== Proof.KRows.lean ====
/-
  One batch row's five output rows, from the blocks the body loads, are the specification's kernelOut.

  The body loads column ranges and rows of its blocks through unit-stride rectangles: a load at (p, k) reads the block at
  (offset 0 + p, offset 1 + k).  Where each block entry the loads touch is the matching entry of the specification's
  arguments — batch row p of the block being batch row r of the arrays — the image slots' rows before normalisation,
  the four edge candidates, the gain and the bias are the specification's, and so is each of the five output rows.
-/
import proofs.«102618_g412316860866_cont_8to1_b_54_19_alg».proof.Proof.Gen.KernelIdeal.Frame
import proofs.«102618_g412316860866_cont_8to1_b_54_19_alg».proof.Proof.KPieces
import Idealize.ShloMosaic.Lib.Pipeline.Value

set_option maxRecDepth 16384

noncomputable section

namespace Cert.KSide

open Idealize.ShloMosaic Idealize.ShloMosaic.ValueIdx Cert.Spec Cert.KOps Cert.KernelIdeal Cert.KernelIdeal.Gen

variable [Cert.KernelIdeal.Facts]

/-- A load of a matrix through a rectangle, at an index: the matrix at the rectangle's offsets plus strides times the
    index's coordinates. -/
theorem ld2_apply {n0 n1 : Nat} {e : EltTy} (X : Vec Ideal ⟨2, ![n0, n1]⟩ e) (r : Rect ⟨2, ![n0, n1]⟩)
    (j : r.shape.Idx) (p' : Fin n0) (k' : Fin n1)
    (h0 : r.off 0 + r.stride 0 * (j 0).val = p'.val) (h1 : r.off 1 + r.stride 1 * (j 1).val = k'.val) :
    View.ld X r j = X (ix2 p' k') :=
  congrArg X (funext fun a => Fin.ext (by
    match a with
    | ⟨0, _⟩ => exact h0
    | ⟨1, _⟩ => exact h1))

/-- An image slot's row before normalisation, from blocks whose entries are the arguments', is the specification's. -/
theorem slotRow_eq (A : Args) (r : Fin 16384) (s : Fin 3) (pq : Fin 512) (xs : FVec Ideal S512x2048 .f32)
    (w : FVec Ideal S2048x768 .bf16) (bi po t0 dt : FVec Ideal S1x768 .f32) (tt : FVec Ideal S512x5 .f32) (kk : Fin 5)
    (p : Fin 512) (hxs : ∀ e, xs (ix2 p e) = A.x r s e) (hw : ∀ e h, w (ix2 e h) = A.W e h)
    (hbi : ∀ h, bi (ix2 (0 : Fin 1) h) = A.bimg h) (hpo : ∀ h, po (ix2 (0 : Fin 1) h) = A.pos pq h)
    (ht0 : ∀ h, t0 (ix2 (0 : Fin 1) h) = A.tte 0 h) (hdt : ∀ h, dt (ix2 (0 : Fin 1) h) = A.tte 1 h - A.tte 0 h)
    (htt : tt (ix2 p kk) = ttf (A.tt r kk)) :
    slotRow xs w bi po t0 dt tt kk p = imgK (A.x r s) A.W A.bimg (A.pos pq) (A.tte 0) (A.tte 1) (A.tt r kk) := by
  have e1 : (fun e => xs (ix2 p e)) = A.x r s := funext hxs
  have e2 : (fun e h => w (ix2 e h)) = A.W := funext fun e => funext (hw e)
  have e3 : theRow bi = A.bimg := funext hbi
  have e4 : theRow po = A.pos pq := funext hpo
  have e5 : theRow t0 = A.tte 0 := funext ht0
  have e6 : theRow dt = fun h => A.tte 1 h - A.tte 0 h := funext hdt
  rw [imgK_eq]
  unfold slotRow
  rw [e1, e2, e3, e4, e5, e6, htt]

/-- The four edge candidates before normalisation, from blocks whose entries are the arguments', are the
    specification's edge rows for [CLS] and [SEP] at token types 0 and 1. -/
theorem edgeRows_eq (A : Args) (w0 p0 w1 p1 t0 dt : FVec Ideal S1x768 .f32)
    (hw0 : ∀ h, w0 (ix2 (0 : Fin 1) h) = A.word 101 h) (hp0 : ∀ h, p0 (ix2 (0 : Fin 1) h) = A.pos 0 h)
    (hw1 : ∀ h, w1 (ix2 (0 : Fin 1) h) = A.word 102 h) (hp1 : ∀ h, p1 (ix2 (0 : Fin 1) h) = A.pos 4 h)
    (ht0 : ∀ h, t0 (ix2 (0 : Fin 1) h) = A.tte 0 h) (hdt : ∀ h, dt (ix2 (0 : Fin 1) h) = A.tte 1 h - A.tte 0 h) :
    edgeRows w0 p0 w1 p1 t0 dt
      = pick4 (edge0 (A.word 101) (A.pos 0) (A.tte 0)) (edge1 (A.word 101) (A.pos 0) (A.tte 0) (A.tte 1))
          (edge0 (A.word 102) (A.pos 4) (A.tte 0)) (edge1 (A.word 102) (A.pos 4) (A.tte 0) (A.tte 1)) := by
  have e1 : theRow w0 = A.word 101 := funext hw0
  have e2 : theRow p0 = A.pos 0 := funext hp0
  have e3 : theRow w1 = A.word 102 := funext hw1
  have e4 : theRow p1 = A.pos 4 := funext hp1
  have e5 : theRow t0 = A.tte 0 := funext ht0
  have e6 : theRow dt = fun h => A.tte 1 h - A.tte 0 h := funext hdt
  rw [edge1_eq, edge1_eq]
  unfold edgeRows
  rw [e1, e2, e3, e4, e5, e6]

/-- What the body's blocks hold at batch row p of a grid point, in terms of the specification's arguments A at batch
    row r: the image entries, the type numbers, and the whole small arrays. -/
structure Reads (A : Args) (r : Fin 16384) (x0 : Vec Ideal S512x6144 .f32) (x1 : Vec Ideal S512x5 .f32)
    (x2 : Vec Ideal S2048x768 .bf16) (x3 : Vec Ideal S1x768 .f32) (x4 : Vec Ideal S5x768 .f32)
    (x5 : Vec Ideal S2x768 .f32) (x6 x7 x8 x9 : Vec Ideal S1x768 .f32) (p : Fin 512) : Prop where
  x : ∀ (s : Fin 3) (e : Fin 2048) (col : Fin 6144), col.val = 2048 * s.val + e.val → x0 (ix2 p col) = A.x r s e
  tt : ∀ q : Fin 5, x1 (ix2 p q) = ttf (A.tt r q)
  W : ∀ (e : Fin 2048) (h : Fin 768), x2 (ix2 e h) = A.W e h
  bimg : ∀ h : Fin 768, x3 (ix2 (0 : Fin 1) h) = A.bimg h
  pos : ∀ (q : Fin 5) (h : Fin 768), x4 (ix2 q h) = A.pos (posOf q) h
  tte : ∀ (k : Fin 2) (h : Fin 768), x5 (ix2 k h) = A.tte k h
  cls : ∀ h : Fin 768, x6 (ix2 (0 : Fin 1) h) = A.word 101 h
  sep : ∀ h : Fin 768, x7 (ix2 (0 : Fin 1) h) = A.word 102 h
  g : ∀ h : Fin 768, x8 (ix2 (0 : Fin 1) h) = A.g h
  b : ∀ h : Fin 768, x9 (ix2 (0 : Fin 1) h) = A.b h

section Block

variable {A : Args} {r : Fin 16384} {x0 : Vec Ideal S512x6144 .f32} {x1 : Vec Ideal S512x5 .f32}
  {x2 : Vec Ideal S2048x768 .bf16} {x3 : Vec Ideal S1x768 .f32} {x4 : Vec Ideal S5x768 .f32}
  {x5 : Vec Ideal S2x768 .f32} {x6 x7 x8 x9 : Vec Ideal S1x768 .f32} {p : Fin 512}

/-- The loaded gain row. -/
theorem Reads.ld_g (H : Reads A r x0 x1 x2 x3 x4 x5 x6 x7 x8 x9 p) (h : Fin 768) :
    View.ld x8 r0_4 (ix2 (0 : Fin 1) h) = A.g h :=
  (ld2_apply x8 r0_4 (ix2 (0 : Fin 1) h) (0 : Fin 1) h rfl (by show 0 + 1 * h.val = h.val; omega)).trans (H.g h)

/-- The loaded bias row. -/
theorem Reads.ld_b (H : Reads A r x0 x1 x2 x3 x4 x5 x6 x7 x8 x9 p) (h : Fin 768) :
    View.ld x9 r0_4 (ix2 (0 : Fin 1) h) = A.b h :=
  (ld2_apply x9 r0_4 (ix2 (0 : Fin 1) h) (0 : Fin 1) h rfl (by show 0 + 1 * h.val = h.val; omega)).trans (H.b h)

/-- The loaded type numbers. -/
theorem Reads.ld_tt (H : Reads A r x0 x1 x2 x3 x4 x5 x6 x7 x8 x9 p) (q : Fin 5) :
    View.ld x1 r0_1 (ix2 p q) = ttf (A.tt r q) :=
  (ld2_apply x1 r0_1 (ix2 p q) p q (by show 0 + 1 * p.val = p.val; omega) (by show 0 + 1 * q.val = q.val; omega)).trans
    (H.tt q)

/-- The loaded projection matrix. -/
theorem Reads.ld_W (H : Reads A r x0 x1 x2 x3 x4 x5 x6 x7 x8 x9 p) (e : Fin 2048) (h : Fin 768) :
    View.ld x2 r0_0 (ix2 e h) = A.W e h :=
  (ld2_apply x2 r0_0 (ix2 e h) e h (by show 0 + 1 * e.val = e.val; omega) (by show 0 + 1 * h.val = h.val; omega)).trans
    (H.W e h)

/-- The loaded projection bias. -/
theorem Reads.ld_bimg (H : Reads A r x0 x1 x2 x3 x4 x5 x6 x7 x8 x9 p) (h : Fin 768) :
    View.ld x3 r0_4 (ix2 (0 : Fin 1) h) = A.bimg h :=
  (ld2_apply x3 r0_4 (ix2 (0 : Fin 1) h) (0 : Fin 1) h rfl (by show 0 + 1 * h.val = h.val; omega)).trans (H.bimg h)

/-- The loaded [CLS] word row. -/
theorem Reads.ld_cls (H : Reads A r x0 x1 x2 x3 x4 x5 x6 x7 x8 x9 p) (h : Fin 768) :
    View.ld x6 r0_4 (ix2 (0 : Fin 1) h) = A.word 101 h :=
  (ld2_apply x6 r0_4 (ix2 (0 : Fin 1) h) (0 : Fin 1) h rfl (by show 0 + 1 * h.val = h.val; omega)).trans (H.cls h)

/-- The loaded [SEP] word row. -/
theorem Reads.ld_sep (H : Reads A r x0 x1 x2 x3 x4 x5 x6 x7 x8 x9 p) (h : Fin 768) :
    View.ld x7 r0_4 (ix2 (0 : Fin 1) h) = A.word 102 h :=
  (ld2_apply x7 r0_4 (ix2 (0 : Fin 1) h) (0 : Fin 1) h rfl (by show 0 + 1 * h.val = h.val; omega)).trans (H.sep h)

/-- The loaded token-type row 0. -/
theorem Reads.ld_t0 (H : Reads A r x0 x1 x2 x3 x4 x5 x6 x7 x8 x9 p) (h : Fin 768) :
    View.ld x5 r0_2 (ix2 (0 : Fin 1) h) = A.tte 0 h :=
  (ld2_apply x5 r0_2 (ix2 (0 : Fin 1) h) (0 : Fin 2) h rfl (by show 0 + 1 * h.val = h.val; omega)).trans (H.tte 0 h)

/-- The difference of the two loaded token-type rows. -/
theorem Reads.ld_dt (H : Reads A r x0 x1 x2 x3 x4 x5 x6 x7 x8 x9 p) (h : Fin 768) :
    (subf (View.ld x5 r0_3) (View.ld x5 r0_2) : FVec Ideal S1x768 .f32) (ix2 (0 : Fin 1) h) = A.tte 1 h - A.tte 0 h := by
  show View.ld x5 r0_3 (ix2 (0 : Fin 1) h) - View.ld x5 r0_2 (ix2 (0 : Fin 1) h) = _
  rw [H.ld_t0 h, (ld2_apply x5 r0_3 (ix2 (0 : Fin 1) h) (1 : Fin 2) h rfl
    (by show 0 + 1 * h.val = h.val; omega)).trans (H.tte 1 h)]

/-- The loaded position row 0. -/
theorem Reads.ld_pos0 (H : Reads A r x0 x1 x2 x3 x4 x5 x6 x7 x8 x9 p) (h : Fin 768) :
    View.ld x4 r0_14 (ix2 (0 : Fin 1) h) = A.pos 0 h :=
  (ld2_apply x4 r0_14 (ix2 (0 : Fin 1) h) (0 : Fin 5) h rfl (by show 0 + 1 * h.val = h.val; omega)).trans (H.pos 0 h)

/-- The loaded position row 1. -/
theorem Reads.ld_pos1 (H : Reads A r x0 x1 x2 x3 x4 x5 x6 x7 x8 x9 p) (h : Fin 768) :
    View.ld x4 r0_6 (ix2 (0 : Fin 1) h) = A.pos 1 h :=
  (ld2_apply x4 r0_6 (ix2 (0 : Fin 1) h) (1 : Fin 5) h rfl (by show 0 + 1 * h.val = h.val; omega)).trans (H.pos 1 h)

/-- The loaded position row 2. -/
theorem Reads.ld_pos2 (H : Reads A r x0 x1 x2 x3 x4 x5 x6 x7 x8 x9 p) (h : Fin 768) :
    View.ld x4 r0_9 (ix2 (0 : Fin 1) h) = A.pos 2 h :=
  (ld2_apply x4 r0_9 (ix2 (0 : Fin 1) h) (2 : Fin 5) h rfl (by show 0 + 1 * h.val = h.val; omega)).trans (H.pos 2 h)

/-- The loaded position row 3. -/
theorem Reads.ld_pos3 (H : Reads A r x0 x1 x2 x3 x4 x5 x6 x7 x8 x9 p) (h : Fin 768) :
    View.ld x4 r0_12 (ix2 (0 : Fin 1) h) = A.pos 3 h :=
  (ld2_apply x4 r0_12 (ix2 (0 : Fin 1) h) (3 : Fin 5) h rfl (by show 0 + 1 * h.val = h.val; omega)).trans (H.pos 3 h)

/-- The loaded position row 4. -/
theorem Reads.ld_pos4 (H : Reads A r x0 x1 x2 x3 x4 x5 x6 x7 x8 x9 p) (h : Fin 768) :
    View.ld x4 r0_15 (ix2 (0 : Fin 1) h) = A.pos 4 h :=
  (ld2_apply x4 r0_15 (ix2 (0 : Fin 1) h) (4 : Fin 5) h rfl (by show 0 + 1 * h.val = h.val; omega)).trans (H.pos 4 h)

/-- The loaded image slot 0: columns 0..2047 of the image block. -/
theorem Reads.ld_x0 (H : Reads A r x0 x1 x2 x3 x4 x5 x6 x7 x8 x9 p) (e : Fin 2048) :
    View.ld x0 r0_5 (ix2 p e) = A.x r 0 e :=
  (ld2_apply x0 r0_5 (ix2 p e) p ⟨0 + e.val, by have := e.isLt; omega⟩ (by show 0 + 1 * p.val = p.val; omega)
    (by show 0 + 1 * e.val = 0 + e.val; omega)).trans
    (H.x 0 e _ (by show 0 + e.val = 2048 * ((0 : Fin 3) : Nat) + e.val; rfl))

/-- The loaded image slot 1: columns 2048..4095 of the image block. -/
theorem Reads.ld_x1 (H : Reads A r x0 x1 x2 x3 x4 x5 x6 x7 x8 x9 p) (e : Fin 2048) :
    View.ld x0 r0_8 (ix2 p e) = A.x r 1 e :=
  (ld2_apply x0 r0_8 (ix2 p e) p ⟨2048 + e.val, by have := e.isLt; omega⟩ (by show 0 + 1 * p.val = p.val; omega)
    (by show 2048 + 1 * e.val = 2048 + e.val; omega)).trans
    (H.x 1 e _ (by show 2048 + e.val = 2048 * ((1 : Fin 3) : Nat) + e.val; rfl))

/-- The loaded image slot 2: columns 4096..6143 of the image block. -/
theorem Reads.ld_x2 (H : Reads A r x0 x1 x2 x3 x4 x5 x6 x7 x8 x9 p) (e : Fin 2048) :
    View.ld x0 r0_11 (ix2 p e) = A.x r 2 e :=
  (ld2_apply x0 r0_11 (ix2 p e) p ⟨4096 + e.val, by have := e.isLt; omega⟩ (by show 0 + 1 * p.val = p.val; omega)
    (by show 4096 + 1 * e.val = 4096 + e.val; omega)).trans
    (H.x 2 e _ (by show 4096 + e.val = 2048 * ((2 : Fin 3) : Nat) + e.val; rfl))

/-- The loaded gain and bias rows as rows. -/
theorem Reads.row_g (H : Reads A r x0 x1 x2 x3 x4 x5 x6 x7 x8 x9 p) : theRow (View.ld x8 r0_4) = A.g := funext H.ld_g
theorem Reads.row_b (H : Reads A r x0 x1 x2 x3 x4 x5 x6 x7 x8 x9 p) : theRow (View.ld x9 r0_4) = A.b := funext H.ld_b

/-- The four edge candidates from the blocks are the specification's. -/
theorem Reads.blockEdge_eq (H : Reads A r x0 x1 x2 x3 x4 x5 x6 x7 x8 x9 p) :
    blockEdge x4 x5 x6 x7
      = pick4 (edge0 (A.word 101) (A.pos 0) (A.tte 0)) (edge1 (A.word 101) (A.pos 0) (A.tte 0) (A.tte 1))
          (edge0 (A.word 102) (A.pos 4) (A.tte 0)) (edge1 (A.word 102) (A.pos 4) (A.tte 0) (A.tte 1)) :=
  edgeRows_eq A _ _ _ _ _ _ H.ld_cls H.ld_pos0 H.ld_sep H.ld_pos4 H.ld_t0 H.ld_dt

/-- Batch row p's five output rows from the blocks are the specification's kernelOut at batch row r. -/
theorem Reads.blockRow_eq (H : Reads A r x0 x1 x2 x3 x4 x5 x6 x7 x8 x9 p) (q : Fin 5) :
    blockRow x0 x1 x2 x3 x4 x5 x6 x7 x8 x9 p q = kernelOut A r q := by
  match q with
  | ⟨0, _⟩ =>
    show (fun h => lnK (blockEdge x4 x5 x6 x7 0) (theRow (View.ld x8 r0_4)) (theRow (View.ld x9 r0_4)) h
        + (View.ld x1 r0_1) (ix2 p (0 : Fin 5))
          * (lnK (blockEdge x4 x5 x6 x7 1) (theRow (View.ld x8 r0_4)) (theRow (View.ld x9 r0_4)) h
            - lnK (blockEdge x4 x5 x6 x7 0) (theRow (View.ld x8 r0_4)) (theRow (View.ld x9 r0_4)) h))
      = edgeK (A.word 101) (A.pos 0) (A.tte 0) (A.tte 1) A.g A.b (A.tt r 0)
    rw [H.row_g, H.row_b, H.blockEdge_eq, H.ld_tt 0]
    rfl
  | ⟨1, _⟩ =>
    show lnK (slotRow (View.ld x0 r0_5) (View.ld x2 r0_0) (View.ld x3 r0_4) (View.ld x4 r0_6) (View.ld x5 r0_2)
        (subf (View.ld x5 r0_3) (View.ld x5 r0_2)) (View.ld x1 r0_1) 1 p) (theRow (View.ld x8 r0_4)) (theRow (View.ld x9 r0_4))
      = lnK (imgK (A.x r 0) A.W A.bimg (A.pos 1) (A.tte 0) (A.tte 1) (A.tt r 1)) A.g A.b
    rw [H.row_g, H.row_b, slotRow_eq A r 0 1 _ _ _ _ _ _ _ 1 p H.ld_x0 H.ld_W H.ld_bimg H.ld_pos1 H.ld_t0 H.ld_dt (H.ld_tt 1)]
  | ⟨2, _⟩ =>
    show lnK (slotRow (View.ld x0 r0_8) (View.ld x2 r0_0) (View.ld x3 r0_4) (View.ld x4 r0_9) (View.ld x5 r0_2)
        (subf (View.ld x5 r0_3) (View.ld x5 r0_2)) (View.ld x1 r0_1) 2 p) (theRow (View.ld x8 r0_4)) (theRow (View.ld x9 r0_4))
      = lnK (imgK (A.x r 1) A.W A.bimg (A.pos 2) (A.tte 0) (A.tte 1) (A.tt r 2)) A.g A.b
    rw [H.row_g, H.row_b, slotRow_eq A r 1 2 _ _ _ _ _ _ _ 2 p H.ld_x1 H.ld_W H.ld_bimg H.ld_pos2 H.ld_t0 H.ld_dt (H.ld_tt 2)]
  | ⟨3, _⟩ =>
    show lnK (slotRow (View.ld x0 r0_11) (View.ld x2 r0_0) (View.ld x3 r0_4) (View.ld x4 r0_12) (View.ld x5 r0_2)
        (subf (View.ld x5 r0_3) (View.ld x5 r0_2)) (View.ld x1 r0_1) 3 p) (theRow (View.ld x8 r0_4)) (theRow (View.ld x9 r0_4))
      = lnK (imgK (A.x r 2) A.W A.bimg (A.pos 3) (A.tte 0) (A.tte 1) (A.tt r 3)) A.g A.b
    rw [H.row_g, H.row_b, slotRow_eq A r 2 3 _ _ _ _ _ _ _ 3 p H.ld_x2 H.ld_W H.ld_bimg H.ld_pos3 H.ld_t0 H.ld_dt (H.ld_tt 3)]
  | ⟨4, _⟩ =>
    show (fun h => lnK (blockEdge x4 x5 x6 x7 2) (theRow (View.ld x8 r0_4)) (theRow (View.ld x9 r0_4)) h
        + (View.ld x1 r0_1) (ix2 p (4 : Fin 5))
          * (lnK (blockEdge x4 x5 x6 x7 3) (theRow (View.ld x8 r0_4)) (theRow (View.ld x9 r0_4)) h
            - lnK (blockEdge x4 x5 x6 x7 2) (theRow (View.ld x8 r0_4)) (theRow (View.ld x9 r0_4)) h))
      = edgeK (A.word 102) (A.pos 4) (A.tte 0) (A.tte 1) A.g A.b (A.tt r 4)
    rw [H.row_g, H.row_b, H.blockEdge_eq, H.ld_tt 4]
    rfl
  | ⟨n + 5, hq⟩ => exact absurd hq (by omega)

end Block

end Cert.KSide

end
-- ==== Proof.KArray.lean ====
/-
  From the kernel's blocks to its whole output array.

  At grid point t the body leaves, in the output block, batch rows 512 t .. 512 t + 511: entry (p, c) of the block is
  output row c / 768, feature c % 768 of batch row 512 t + p of the specification's kernelOut.  So what point t writes
  back is block t of one whole-array function outArr; the 32 blocks tile the [16384, 3840] output array (row r lies in
  block r / 512), hence after the region the array is outArr.
-/
import proofs.«102618_g412316860866_cont_8to1_b_54_19_alg».proof.Proof.Gen.KernelIdeal.Frame
import proofs.«102618_g412316860866_cont_8to1_b_54_19_alg».proof.Proof.KPieces
import proofs.«102618_g412316860866_cont_8to1_b_54_19_alg».proof.Proof.KHost
import proofs.«102618_g412316860866_cont_8to1_b_54_19_alg».proof.Proof.KHostTail
import proofs.«102618_g412316860866_cont_8to1_b_54_19_alg».proof.Proof.KBlocks
import proofs.«102618_g412316860866_cont_8to1_b_54_19_alg».proof.Proof.KRows
import Idealize.ShloMosaic.Lib.Pipeline.Value

set_option maxRecDepth 16384

noncomputable section

namespace Cert.KSide

open Idealize.ShloMosaic Idealize.ShloMosaic.TcCoe Idealize.ShloMosaic.ValueIdx Cert.KernelIdeal Cert.KernelIdeal.Gen
open Idealize.SL.Sem

variable [Cert.KernelIdeal.Facts] (m : (ℓ : Loc nD τ sig) → Buf (Elt Ideal) ℓ) (c : Dev nD)

/-- The region's output array as one function of its index: row r, column c holds output row c / 768, feature c % 768 of
    batch row r of the specification's kernelOut. -/
def outArr : S16384x3840.Idx → EReal := fun i =>
  Cert.Spec.kernelOut (Am m c) ⟨(i 0).val, (i 0).isLt⟩
    ⟨(i 1).val / 768, by have : (i 1).val < 3840 := (i 1).isLt; omega⟩ ⟨(i 1).val % 768, Nat.mod_lt _ (by norm_num)⟩

/-- outArr at row r, column 768 q + h. -/
theorem outArr_of (i : S16384x3840.Idx) (r : Fin 16384) (q : Fin 5) (h : Fin 768) (h0 : (i 0).val = r.val)
    (h1 : (i 1).val = 768 * q.val + h.val) : outArr m c i = Cert.Spec.kernelOut (Am m c) r q h := by
  unfold outArr
  have e0 : (⟨(i 0).val, (i 0).isLt⟩ : Fin 16384) = r := Fin.ext h0
  have e1 : (⟨(i 1).val / 768, by have : (i 1).val < 3840 := (i 1).isLt; omega⟩ : Fin 5) = q := Fin.ext (by
    have := h.isLt; show (i 1).val / 768 = q.val; omega)
  have e2 : (⟨(i 1).val % 768, Nat.mod_lt _ (by norm_num)⟩ : Fin 768) = h := Fin.ext (by
    have := h.isLt; show (i 1).val % 768 = h.val; omega)
  rw [e0, e1, e2]

/-- What the ten input blocks at grid point t hold at batch row p, as entries of the specification's arguments at batch
    row 512 t + p. -/
theorem reads_at (t : Fin cfg0.N) (p : Fin 512) (r : Fin 16384) (hr : r.val = 512 * t.val + p.val) :
    Reads (Am m c) r (iblk m c 0 t) (iblk m c 1 t) (iblk m c 2 t) (iblk m c 3 t) (iblk m c 4 t) (iblk m c 5 t)
      (iblk m c 6 t) (iblk m c 7 t) (iblk m c 8 t) (iblk m c 9 t) p where
  x s e col hcol := (blk0_read m c t p col r hr).trans (V_x m c r s e col hcol)
  tt q := (blk1_read m c t p q r hr).trans (V_tt m c r q)
  W e h := (blk2_read m c t e h).trans (V_W m c e h)
  bimg h := (blk3_read m c t 0 h).trans (V_bimg m c h)
  pos q h := (blk4_read m c t q h).trans (V_pos m c q h)
  tte k h := (blk5_read m c t k h).trans (V_tte m c k h)
  cls h := (blk6_read m c t 0 h).trans (V_cls m c h)
  sep h := (blk7_read m c t 0 h).trans (V_sep m c h)
  g h := (blk8_read m c t 0 h).trans (V_g m c h)
  b h := (blk9_read m c t 0 h).trans (V_b m c h)

/-- What grid point t writes back to the output array is block t of outArr. -/
theorem flushed_eq (t : Fin cfg0.N) :
    (dats m 0 c).flushed 10 t = ((cfg0.win 10).blk t).view.read (Elt Ideal) (outArr m c) := by
  show (cfg0.win 10).cut (grid0.coords t) ((dats m 0 c).after 10 t) = _
  rw [after0_10]
  refine funext fun (j : S512x3840.Idx) => ?_
  obtain ⟨-, -, -, -, e0, e1⟩ := idx_move t
  have ht : t.val < 32 := by have h := t.isLt; have hN : cfg0.N = 32 := N_0; omega
  have hp : (j 0).val < 512 := (j 0).isLt
  have hc : (j 1).val < 3840 := (j 1).isLt
  have hh : (j 1).val % 768 < 768 := Nat.mod_lt _ (by norm_num)
  refine (out0_eq_blockAt _ _ _ _ _ _ _ _ _ _ j).trans ?_
  refine (blockAt_of _ _ _ _ _ _ _ _ _ _ j ⟨(j 0).val, hp⟩ ⟨(j 1).val / 768, by omega⟩ ⟨(j 1).val % 768, hh⟩ rfl
    (by show (j 1).val = 768 * ((j 1).val / 768) + (j 1).val % 768; omega)).trans ?_
  refine (congrFun ((reads_at m c t ⟨(j 0).val, hp⟩ ⟨512 * t.val + (j 0).val, by omega⟩ rfl).blockRow_eq
    ⟨(j 1).val / 768, by omega⟩) ⟨(j 1).val % 768, hh⟩).trans ?_
  refine (outArr_of m c _ ⟨512 * t.val + (j 0).val, by omega⟩ ⟨(j 1).val / 768, by omega⟩ ⟨(j 1).val % 768, hh⟩ ?_ ?_).symm
  · show win0_10.index t (0 : Fin 2) * 512 + 1 * (j 0).val = 512 * t.val + (j 0).val; omega
  · show win0_10.index t (1 : Fin 2) * 3840 + 1 * (j 1).val = 768 * ((j 1).val / 768) + (j 1).val % 768; omega

/-- An index of the output array is in point t's block iff each coordinate is in the block's range on its axis. -/
theorem mem_blk (t : Fin cfg0.N) (i : S16384x3840.Idx) :
    i ∈ ((cfg0.win 10).blk t).view.set ↔ ∀ a : Fin 2, win0_10.index t a * S512x3840.size a ≤ (i a).val
      ∧ (i a).val < win0_10.index t a * S512x3840.size a + S512x3840.size a := by
  show i ∈ ((View.whole main_v13).slice (win0_10.rect t)).set ↔ _
  rw [View.set_slice_whole, Rect.mem_set_unit]
  exact Iff.rfl

/-- Every index of the output array is in the block of the point its row selects: row r is in block r / 512. -/
theorem cover (i : S16384x3840.Idx) :
    ∃ t : Fin cfg0.N, (cfg0.win 10).flush t = true ∧ i ∈ ((cfg0.win 10).blk t).view.set := by
  have hi0 : (i 0).val < 16384 := (i 0).isLt
  have hi1 : (i 1).val < 3840 := (i 1).isLt
  have hN : cfg0.N = 32 := N_0
  have hlt : (i 0).val / 512 < cfg0.N := by rw [hN]; omega
  obtain ⟨-, -, -, -, e0, e1⟩ := idx_move (⟨(i 0).val / 512, hlt⟩ : Fin cfg0.N)
  refine ⟨⟨(i 0).val / 512, hlt⟩, flush0_10 _, ?_⟩
  rw [mem_blk]
  intro a
  match a with
  | ⟨0, _⟩ =>
    show win0_10.index ⟨(i 0).val / 512, hlt⟩ (0 : Fin 2) * 512 ≤ (i 0).val
      ∧ (i 0).val < win0_10.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_10.index ⟨(i 0).val / 512, hlt⟩ (1 : Fin 2) * 3840 ≤ (i 1).val
      ∧ (i 1).val < win0_10.index ⟨(i 0).val / 512, hlt⟩ (1 : Fin 2) * 3840 + 3840
    rw [e1]
    omega

/-- After the region the output array is outArr. -/
theorem final : (dats m 0 c).arrAt 10 cfg0.N = outArr m c :=
  (dats m 0 c).arrAt_eq_of_cover 10 (outArr m c) (fun t _ => flushed_eq m c t) (cover)

end Cert.KSide

end
-- ==== Proof.KFinal.lean ====
/-
  The kernel program's run, read: the result buffer holds the specification's kernelOut of the launched arguments.

  The program's result is the reshape to [16384, 5, 768] of the region's output array, which after the region is the
  function outArr: entry (r, q, h) of the result is column 768 q + h of row r of outArr, that is kernelOut at (r, q, h).
  The nine argument arrays end as launched: no line of the program writes them.
-/
import proofs.«102618_g412316860866_cont_8to1_b_54_19_alg».proof.Proof.Gen.KernelIdeal.Frame
import proofs.«102618_g412316860866_cont_8to1_b_54_19_alg».proof.Proof.KPieces
import proofs.«102618_g412316860866_cont_8to1_b_54_19_alg».proof.Proof.KHost
import proofs.«102618_g412316860866_cont_8to1_b_54_19_alg».proof.Proof.KHostTail
import proofs.«102618_g412316860866_cont_8to1_b_54_19_alg».proof.Proof.KBlocks
import proofs.«102618_g412316860866_cont_8to1_b_54_19_alg».proof.Proof.KRows
import Idealize.ShloMosaic.Lib.Pipeline.Value
import proofs.«102618_g412316860866_cont_8to1_b_54_19_alg».proof.Proof.KArray

set_option maxRecDepth 16384

noncomputable section

namespace Cert.KSide

open Idealize.ShloMosaic Idealize.ShloMosaic.TcCoe Idealize.ShloMosaic.ValueIdx Cert.KernelIdeal Cert.KernelIdeal.Gen
open Idealize.SL.Sem

/-- The kernel program's result array: entry (r, q, h) is the specification's kernelOut of the arguments. -/
def kernelVal (m : (ℓ : Loc nD τ sig) → Buf (Elt Ideal) ℓ) (c : Dev nD) : FVec Ideal ⟨3, ![16384, 5, 768]⟩ .f32 :=
  fun i => Cert.Spec.kernelOut (Am m c) ⟨(i 0).val, (i 0).isLt⟩ ⟨(i 1).val, (i 1).isLt⟩ ⟨(i 2).val, (i 2).isLt⟩

/-- The result array at coordinates (r, q, h). -/
theorem kernelVal_apply (m : (ℓ : Loc nD τ sig) → Buf (Elt Ideal) ℓ) (c : Dev nD) (r : Fin 16384) (q : Fin 5)
    (h : Fin 768) : kernelVal m c (ix3 r q h) = Cert.Spec.kernelOut (Am m c) r q h := rfl

section
variable [Cert.KernelIdeal.Facts] (m : (ℓ : Loc nD τ sig) → Buf (Elt Ideal) ℓ) (c : Dev nD)

/-- The program's result buffer after the lines that follow the region is kernelVal. -/
theorem result_eq :
    (Pipeline.afterTail₀ cfgs (dats m) 0 (V0 m) [hostOps1] c main_v14 : S16384x5x768.Idx → EReal) = kernelVal m c := by
  funext i
  obtain ⟨r, q, h, rfl⟩ : ∃ (r : Fin 16384) (q : Fin 5) (h : Fin 768), i = ix3 r q h := ⟨i 0, i 1, i 2, eq_ix3 i⟩
  have hq := q.isLt
  have hh := h.isLt
  refine (tail_v14 m c r q h ⟨768 * q.val + h.val, by omega⟩ rfl).trans ?_
  rw [final]
  exact outArr_of m c _ r q h rfl rfl

end

/-- The run, at the program's own witness of its side conditions (which buffers are pipeline arrays is decided there). -/
theorem run_decided (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v14) = kernelVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

/-- From any memory with zero counters every weakly fair execution of the kernel's program terminates with the result
    buffer at the specification's kernelOut of the launched arguments and the nine argument arrays unchanged. -/
theorem run [Cert.KernelIdeal.Facts] (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v14) = kernelVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := run_decided m ρ

end Cert.KSide

end
-- ==== Proof.RefOps.lean ====
/-
  The reference program as a straight line of host operations.

  The reference calls two functions: one gathers five rows of the position table, the other one row of the
  token-type table per token (each wraps negative row numbers, masks rows out of range and gathers).  Here the
  operations of each called function stand in the place of its call, over the buffers that call names, so the
  whole program is one list of 93 operations.  Every weakly fair execution of the program terminates, and
  each buffer then holds what folding the list over the launch contents leaves in it.
-/
import proofs.«102618_g412316860866_cont_8to1_b_54_19_alg».proof.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable [Cert.ReferenceIdeal.Facts] {F : FTy → Type} [FloatOps F]

/-- The reference's 93 host operations in order, each call's operations in its place. -/
abbrev ops : List (HloOp τ sig (Elt F)) :=
  [ unary main_arg4 main_v0 ((extractStridedSlice S1x768 ![101, 0] · slices_S30522x768_S1x768_101_0) : (⟨S30522x768, .f32⟩ : BufTy).Contents (Elt F) → (⟨S1x768, .f32⟩ : BufTy).Contents (Elt F)),
    reshape main_v0 main_v1 rfl shapeCasts_S1x768_S768,
    unary main_v1 main_v2 (broadcastInDim S1x1x768 ![2] bcast_S768_S1x1x768_2 : (⟨S768, .f32⟩ : BufTy).Contents (Elt F) → (⟨S1x1x768, .f32⟩ : BufTy).Contents (Elt F)),
    unary main_v2 main_v3 (broadcastInDim S16384x1x768 ![0, 1, 2] bcast_S1x1x768_S16384x1x768_0_1_2 : (⟨S1x1x768, .f32⟩ : BufTy).Contents (Elt F) → (⟨S16384x1x768, .f32⟩ : BufTy).Contents (Elt F)),
    unary main_arg4 main_v4 ((extractStridedSlice S1x768 ![102, 0] · slices_S30522x768_S1x768_102_0) : (⟨S30522x768, .f32⟩ : BufTy).Contents (Elt F) → (⟨S1x768, .f32⟩ : BufTy).Contents (Elt F)),
    reshape main_v4 main_v5 rfl shapeCasts_S1x768_S768,
    unary main_v5 main_v6 (broadcastInDim S1x1x768 ![2] bcast_S768_S1x1x768_2 : (⟨S768, .f32⟩ : BufTy).Contents (Elt F) → (⟨S1x1x768, .f32⟩ : BufTy).Contents (Elt F)),
    unary main_v6 main_v7 (broadcastInDim S16384x1x768 ![0, 1, 2] bcast_S1x1x768_S16384x1x768_0_1_2 : (⟨S1x1x768, .f32⟩ : BufTy).Contents (Elt F) → (⟨S16384x1x768, .f32⟩ : BufTy).Contents (Elt F)),
    binary main_arg0 main_arg2 main_v8 ((fun l r => Host.dotGeneral dot_S16384x3x2048_S2048x768_S16384x3x768_2_0_01_1_n_n none l r) : (⟨S16384x3x2048, .f32⟩ : BufTy).Contents (Elt F) → (⟨S2048x768, .f32⟩ : BufTy).Contents (Elt F) → (⟨S16384x3x768, .f32⟩ : BufTy).Contents (Elt F)),
    unary main_arg3 main_v9 (broadcastInDim S1x1x768 ![2] bcast_S768_S1x1x768_2 : (⟨S768, .f32⟩ : BufTy).Contents (Elt F) → (⟨S1x1x768, .f32⟩ : BufTy).Contents (Elt F)),
    unary main_v9 main_v10 (broadcastInDim S16384x3x768 ![0, 1, 2] bcast_S1x1x768_S16384x3x768_0_1_2 : (⟨S1x1x768, .f32⟩ : BufTy).Contents (Elt F) → (⟨S16384x3x768, .f32⟩ : BufTy).Contents (Elt F)),
    binary main_v8 main_v10 main_v11 (addf : (⟨S16384x3x768, .f32⟩ : BufTy).Contents (Elt F) → (⟨S16384x3x768, .f32⟩ : BufTy).Contents (Elt F) → (⟨S16384x3x768, .f32⟩ : BufTy).Contents (Elt F)),
    nary ![main_v3, main_v11, main_v7] main_v12 (fun u => concatenate S16384x5x768 1 [⟨S16384x1x768, u 0⟩, ⟨S16384x3x768, u 1⟩, ⟨S16384x1x768, u 2⟩] concatenates_S16384x1x768_S16384x3x768_S16384x1x768_S16384x5x768_d1),
    nullary main_v13 (iotaInDim S5 32 0),
    TRef.nullary main_call0.c (constantI S_ 32 0#32),
    TRef.unary main_call0.c main_call0.v0 (broadcastInDim S5 ![] bcast_S_S5),
    TRef.binary (.of main_v13 : TRef sig ⟨S5, .i32⟩) main_call0.v0 main_call0.v1 (cmpi .slt),
    TRef.nullary main_call0.c_0 (constantI S_ 32 512#32),
    TRef.unary main_call0.c_0 main_call0.v2 (broadcastInDim S5 ![] bcast_S_S5),
    TRef.binary (.of main_v13 : TRef sig ⟨S5, .i32⟩) main_call0.v2 main_call0.v3 addi,
    TRef.ternary main_call0.v1 main_call0.v3 (.of main_v13 : TRef sig ⟨S5, .i32⟩) main_call0.call0.v0 select,
    TRef.unary main_call0.call0.v0 main_call0.v5 (broadcastInDim S5x1 ![0] bcast_S5_S5x1_0),
    TRef.nullary main_call0.c_1 (constantI S1 32 511#32),
    TRef.nullary main_call0.c_2 (constantI S_ 32 0#32),
    TRef.unary main_call0.c_2 main_call0.v6 (broadcastInDim S5x1 ![] bcast_S_S5x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S5x1 ![0, 1] bcast_S1x1_S5x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S5x1_S5_d1 h_S_),
    TRef.binary (.of main_arg5 : TRef sig ⟨S512x768, .f32⟩) main_call0.v5 main_call0.v13 (fun x i => Host.gather gather_S512x768_S5x1_S5x768_1_0_n_n_0_1_1768 x i),
    TRef.unary main_call0.v12 main_call0.v14 (broadcastInDim S5x768 ![0] bcast_S5_S5x768_0),
    TRef.nullary main_call0.cst (constant S_ .f32 0x7FC00000#32),
    TRef.unary main_call0.cst main_call0.v15 (broadcastInDim S5x768 ![] bcast_S_S5x768),
    TRef.ternary main_call0.v14 main_call0.v13 main_call0.v15 main_call0.v16 select,
    unary main_v14 main_v15 (broadcastInDim S1x5x768 ![1, 2] bcast_S5x768_S1x5x768_1_2 : (⟨S5x768, .f32⟩ : BufTy).Contents (Elt F) → (⟨S1x5x768, .f32⟩ : BufTy).Contents (Elt F)),
    unary main_v15 main_v16 (broadcastInDim S16384x5x768 ![0, 1, 2] bcast_S1x5x768_S16384x5x768_0_1_2 : (⟨S1x5x768, .f32⟩ : BufTy).Contents (Elt F) → (⟨S16384x5x768, .f32⟩ : BufTy).Contents (Elt F)),
    TRef.nullary main_call1.c (constantI S_ 32 0#32),
    TRef.unary main_call1.c main_call1.v0 (broadcastInDim S16384x5 ![] bcast_S_S16384x5),
    TRef.binary (.of main_arg1 : TRef sig ⟨S16384x5, .i32⟩) main_call1.v0 main_call1.v1 (cmpi .slt),
    TRef.nullary main_call1.c_0 (constantI S_ 32 2#32),
    TRef.unary main_call1.c_0 main_call1.v2 (broadcastInDim S16384x5 ![] bcast_S_S16384x5),
    TRef.binary (.of main_arg1 : TRef sig ⟨S16384x5, .i32⟩) main_call1.v2 main_call1.v3 addi,
    TRef.ternary main_call1.v1 main_call1.v3 (.of main_arg1 : TRef sig ⟨S16384x5, .i32⟩) main_call1.call0.v0 select,
    TRef.unary main_call1.call0.v0 main_call1.v5 (broadcastInDim S16384x5x1 ![0, 1] bcast_S16384x5_S16384x5x1_0_1),
    TRef.nullary main_call1.c_1 (constantI S1 32 1#32),
    TRef.nullary main_call1.c_2 (constantI S_ 32 0#32),
    TRef.unary main_call1.c_2 main_call1.v6 (broadcastInDim S16384x5x1 ![] bcast_S_S16384x5x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x5x1 ![0, 1, 2] bcast_S1x1x1_S16384x5x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x5x1_S16384x5_d2 h_S_),
    TRef.binary (.of main_arg6 : TRef sig ⟨S2x768, .f32⟩) main_call1.v5 main_call1.v13 (fun x i => Host.gather gather_S2x768_S16384x5x1_S16384x5x768_2_0_n_n_0_2_1768 x i),
    TRef.unary main_call1.v12 main_call1.v14 (broadcastInDim S16384x5x768 ![0, 1] bcast_S16384x5_S16384x5x768_0_1),
    TRef.nullary main_call1.cst (constant S_ .f32 0x7FC00000#32),
    TRef.unary main_call1.cst main_call1.v15 (broadcastInDim S16384x5x768 ![] bcast_S_S16384x5x768),
    TRef.ternary main_call1.v14 main_call1.v13 main_call1.v15 main_call1.v16 select,
    binary main_v12 main_v16 main_v18 (addf : (⟨S16384x5x768, .f32⟩ : BufTy).Contents (Elt F) → (⟨S16384x5x768, .f32⟩ : BufTy).Contents (Elt F) → (⟨S16384x5x768, .f32⟩ : BufTy).Contents (Elt F)),
    binary main_v18 main_v17 main_v19 (addf : (⟨S16384x5x768, .f32⟩ : BufTy).Contents (Elt F) → (⟨S16384x5x768, .f32⟩ : BufTy).Contents (Elt F) → (⟨S16384x5x768, .f32⟩ : BufTy).Contents (Elt F)),
    nullary main_cst (constant S_ .f32 0x00000000#32),
    binary main_v19 main_cst main_v20 ((fun x v => Host.reduceAdd x v reducesTo_S16384x5x768_S16384x5_d2 h_S_) : (⟨S16384x5x768, .f32⟩ : BufTy).Contents (Elt F) → (⟨S_, .f32⟩ : BufTy).Contents (Elt F) → (⟨S16384x5, .f32⟩ : BufTy).Contents (Elt F)),
    unary main_v20 main_v21 (broadcastInDim S16384x5x1 ![0, 1] bcast_S16384x5_S16384x5x1_0_1 : (⟨S16384x5, .f32⟩ : BufTy).Contents (Elt F) → (⟨S16384x5x1, .f32⟩ : BufTy).Contents (Elt F)),
    nullary main_cst_0 (constant S_ .f32 0x44400000#32),
    unary main_cst_0 main_v22 (broadcastInDim S16384x5x1 ![] bcast_S_S16384x5x1 : (⟨S_, .f32⟩ : BufTy).Contents (Elt F) → (⟨S16384x5x1, .f32⟩ : BufTy).Contents (Elt F)),
    binary main_v21 main_v22 main_v23 (Host.divf : (⟨S16384x5x1, .f32⟩ : BufTy).Contents (Elt F) → (⟨S16384x5x1, .f32⟩ : BufTy).Contents (Elt F) → (⟨S16384x5x1, .f32⟩ : BufTy).Contents (Elt F)),
    unary main_v23 main_v24 (broadcastInDim S16384x5x768 ![0, 1, 2] bcast_S16384x5x1_S16384x5x768_0_1_2 : (⟨S16384x5x1, .f32⟩ : BufTy).Contents (Elt F) → (⟨S16384x5x768, .f32⟩ : BufTy).Contents (Elt F)),
    binary main_v19 main_v24 main_v25 (subf : (⟨S16384x5x768, .f32⟩ : BufTy).Contents (Elt F) → (⟨S16384x5x768, .f32⟩ : BufTy).Contents (Elt F) → (⟨S16384x5x768, .f32⟩ : BufTy).Contents (Elt F)),
    binary main_v25 main_v25 main_v26 (mulf : (⟨S16384x5x768, .f32⟩ : BufTy).Contents (Elt F) → (⟨S16384x5x768, .f32⟩ : BufTy).Contents (Elt F) → (⟨S16384x5x768, .f32⟩ : BufTy).Contents (Elt F)),
    nullary main_cst_1 (constant S_ .f32 0x00000000#32),
    binary main_v26 main_cst_1 main_v27 ((fun x v => Host.reduceAdd x v reducesTo_S16384x5x768_S16384x5_d2 h_S_) : (⟨S16384x5x768, .f32⟩ : BufTy).Contents (Elt F) → (⟨S_, .f32⟩ : BufTy).Contents (Elt F) → (⟨S16384x5, .f32⟩ : BufTy).Contents (Elt F)),
    unary main_v27 main_v28 (broadcastInDim S16384x5x1 ![0, 1] bcast_S16384x5_S16384x5x1_0_1 : (⟨S16384x5, .f32⟩ : BufTy).Contents (Elt F) → (⟨S16384x5x1, .f32⟩ : BufTy).Contents (Elt F)),
    nullary main_cst_2 (constant S_ .f32 0x44400000#32),
    unary main_cst_2 main_v29 (broadcastInDim S16384x5x1 ![] bcast_S_S16384x5x1 : (⟨S_, .f32⟩ : BufTy).Contents (Elt F) → (⟨S16384x5x1, .f32⟩ : BufTy).Contents (Elt F)),
    binary main_v28 main_v29 main_v30 (Host.divf : (⟨S16384x5x1, .f32⟩ : BufTy).Contents (Elt F) → (⟨S16384x5x1, .f32⟩ : BufTy).Contents (Elt F) → (⟨S16384x5x1, .f32⟩ : BufTy).Contents (Elt F)),
    unary main_v23 main_v31 (broadcastInDim S16384x5x768 ![0, 1, 2] bcast_S16384x5x1_S16384x5x768_0_1_2 : (⟨S16384x5x1, .f32⟩ : BufTy).Contents (Elt F) → (⟨S16384x5x768, .f32⟩ : BufTy).Contents (Elt F)),
    binary main_v19 main_v31 main_v32 (subf : (⟨S16384x5x768, .f32⟩ : BufTy).Contents (Elt F) → (⟨S16384x5x768, .f32⟩ : BufTy).Contents (Elt F) → (⟨S16384x5x768, .f32⟩ : BufTy).Contents (Elt F)),
    nullary main_cst_3 (constant S_ .f32 0x2B8CBCCC#32),
    unary main_cst_3 main_v33 (broadcastInDim S16384x5x1 ![] bcast_S_S16384x5x1 : (⟨S_, .f32⟩ : BufTy).Contents (Elt F) → (⟨S16384x5x1, .f32⟩ : BufTy).Contents (Elt F)),
    binary main_v30 main_v33 main_v34 (addf : (⟨S16384x5x1, .f32⟩ : BufTy).Contents (Elt F) → (⟨S16384x5x1, .f32⟩ : BufTy).Contents (Elt F) → (⟨S16384x5x1, .f32⟩ : BufTy).Contents (Elt F)),
    unary main_v34 main_v35 (Host.sqrt : (⟨S16384x5x1, .f32⟩ : BufTy).Contents (Elt F) → (⟨S16384x5x1, .f32⟩ : BufTy).Contents (Elt F)),
    unary main_v35 main_v36 (broadcastInDim S16384x5x768 ![0, 1, 2] bcast_S16384x5x1_S16384x5x768_0_1_2 : (⟨S16384x5x1, .f32⟩ : BufTy).Contents (Elt F) → (⟨S16384x5x768, .f32⟩ : BufTy).Contents (Elt F)),
    binary main_v32 main_v36 main_v37 (Host.divf : (⟨S16384x5x768, .f32⟩ : BufTy).Contents (Elt F) → (⟨S16384x5x768, .f32⟩ : BufTy).Contents (Elt F) → (⟨S16384x5x768, .f32⟩ : BufTy).Contents (Elt F)),
    unary main_arg7 main_v38 (broadcastInDim S1x1x768 ![2] bcast_S768_S1x1x768_2 : (⟨S768, .f32⟩ : BufTy).Contents (Elt F) → (⟨S1x1x768, .f32⟩ : BufTy).Contents (Elt F)),
    unary main_v38 main_v39 (broadcastInDim S16384x5x768 ![0, 1, 2] bcast_S1x1x768_S16384x5x768_0_1_2 : (⟨S1x1x768, .f32⟩ : BufTy).Contents (Elt F) → (⟨S16384x5x768, .f32⟩ : BufTy).Contents (Elt F)),
    binary main_v37 main_v39 main_v40 (mulf : (⟨S16384x5x768, .f32⟩ : BufTy).Contents (Elt F) → (⟨S16384x5x768, .f32⟩ : BufTy).Contents (Elt F) → (⟨S16384x5x768, .f32⟩ : BufTy).Contents (Elt F)),
    unary main_arg8 main_v41 (broadcastInDim S1x1x768 ![2] bcast_S768_S1x1x768_2 : (⟨S768, .f32⟩ : BufTy).Contents (Elt F) → (⟨S1x1x768, .f32⟩ : BufTy).Contents (Elt F)),
    unary main_v41 main_v42 (broadcastInDim S16384x5x768 ![0, 1, 2] bcast_S1x1x768_S16384x5x768_0_1_2 : (⟨S1x1x768, .f32⟩ : BufTy).Contents (Elt F) → (⟨S16384x5x768, .f32⟩ : BufTy).Contents (Elt F)),
    binary main_v40 main_v42 main_v43 (addf : (⟨S16384x5x768, .f32⟩ : BufTy).Contents (Elt F) → (⟨S16384x5x768, .f32⟩ : BufTy).Contents (Elt F) → (⟨S16384x5x768, .f32⟩ : BufTy).Contents (Elt F)) ]

set_option maxRecDepth 65536 in
set_option maxHeartbeats 1000000 in
/-- The printed program is that straight line: unfolding each called function at its call and re-associating the
    sequencing gives the list, step for step. -/
theorem main_eq (c : Dev nD) : main (F := F) c = seq ops := rfl

/-- No buffer of the reference is scoped. -/
theorem scopedRefs_eq : (Finset.univ.filter fun b : Ref sig .tc => b.isScoped) = ∅ := by decide
/-- The reference has no semaphore, so none is scoped. -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨unary_bufs_sub .., reshape_bufs_sub .., unary_bufs_sub .., unary_bufs_sub .., unary_bufs_sub .., reshape_bufs_sub .., unary_bufs_sub .., unary_bufs_sub .., binary_bufs_sub .., unary_bufs_sub .., unary_bufs_sub .., binary_bufs_sub .., nary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every weakly fair execution of the reference terminates with each buffer at the operations' fold over the
    launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefEmb.lean ====
/-
  The reference's embedding sum, in stages.

  Before normalisation the reference adds three [16384, 5, 768] arrays: the token rows (the [CLS] word row, the
  three image slots projected by the 2048 x 768 matrix plus the projection's bias, the [SEP] word row, laid side
  by side along the middle axis), the position rows (rows 0..4 of the position table, the same for every batch
  row) and the token-type rows (the row of the two-row table each token's type selects).

  Rows are taken from a table the way the host does it: a negative row number has the table's row count added,
  a row number outside the table is masked, the rows are gathered with the row number clamped into the table,
  and a masked row reads a fixed float word instead of the gathered row.
-/
import proofs.«102618_g412316860866_cont_8to1_b_54_19_alg».proof.ReferenceIdeal

noncomputable section

namespace Cert.RefSide

open Cert.ReferenceIdeal Cert.ReferenceIdeal.Facts₀ Idealize.ShloMosaic

variable [Cert.ReferenceIdeal.Facts] {F : FTy → Type} [FloatOps F]

/-- One row of the word table, repeated for every batch row: the rows `off 0 .. off 0 + 1` of the table cut out,
    read as one vector of 768 features, and broadcast along the two leading axes of [16384, 1, 768]. -/
def wordRow (off : Fin 2 → ℕ) (h : S30522x768.Slices off S1x768) (a4 : FVec F S30522x768 .f32) :
    FVec F S16384x1x768 .f32 :=
  broadcastInDim S16384x1x768 ![0, 1, 2] bcast_S1x1x768_S16384x1x768_0_1_2
    (broadcastInDim S1x1x768 ![2] bcast_S768_S1x1x768_2
      (shapeCast S768 (extractStridedSlice S1x768 off a4 h) shapeCasts_S1x768_S768))

/-- The three image slots of every batch row projected by the matrix, plus the projection's bias on every row. -/
def imgRows (a0 : FVec F S16384x3x2048 .f32) (a2 : FVec F S2048x768 .f32) (a3 : FVec F S768 .f32) :
    FVec F S16384x3x768 .f32 :=
  addf (Host.dotGeneral dot_S16384x3x2048_S2048x768_S16384x3x768_2_0_01_1_n_n none a0 a2)
    (broadcastInDim S16384x3x768 ![0, 1, 2] bcast_S1x1x768_S16384x3x768_0_1_2
      (broadcastInDim S1x1x768 ![2] bcast_S768_S1x1x768_2 a3))

/-- The token rows: word row 101, the three image rows, word row 102, side by side along the middle axis. -/
def tokRows (a0 : FVec F S16384x3x2048 .f32) (a2 : FVec F S2048x768 .f32) (a3 : FVec F S768 .f32)
    (a4 : FVec F S30522x768 .f32) : FVec F S16384x5x768 .f32 :=
  concatenate S16384x5x768 1
    [⟨S16384x1x768, wordRow ![101, 0] slices_S30522x768_S1x768_101_0 a4⟩, ⟨S16384x3x768, imgRows a0 a2 a3⟩,
      ⟨S16384x1x768, wordRow ![102, 0] slices_S30522x768_S1x768_102_0 a4⟩]
    concatenates_S16384x1x768_S16384x3x768_S16384x1x768_S16384x5x768_d1

/-- Row numbers with the negative ones wrapped: a row number below zero has the table's row count `n` added. -/
def wrapRows {s : Shape} (n : BitVec 32) (hb : S_.BroadcastsInDim s (![] : Fin 0 → Fin s.rank)) (i : IVec s 32) : IVec s 32 :=
  select (cmpi .slt i (broadcastInDim s ![] hb (constantI S_ 32 0#32)))
    (addi i (broadcastInDim s ![] hb (constantI S_ 32 n))) i

/-- Which row numbers lie between the two bounds, ends included (signed comparison). -/
def inRange {s : Shape} (w lo hi : IVec s 32) : IVec s 1 := andi (cmpi .sge w lo) (cmpi .sle w hi)

/-- The five row numbers of the position rows as a [5, 1] column, negative ones wrapped by 512. -/
def posIdx (i : IVec S5 32) : IVec S5x1 32 :=
  broadcastInDim S5x1 ![0] bcast_S5_S5x1_0 (wrapRows 512#32 bcast_S_S5 i)

/-- Five rows of the position table taken by row number: each gathered row where its row number lies in
    [0, 511], the fixed float word elsewhere. -/
def posTake (a5 : FVec F S512x768 .f32) (i : IVec S5 32) : FVec F S5x768 .f32 :=
  select
    (broadcastInDim S5x768 ![0] bcast_S5_S5x768_0
      (Host.reduce IntOp.andi
        (inRange (posIdx i) (broadcastInDim S5x1 ![] bcast_S_S5x1 (constantI S_ 32 0#32))
          (broadcastInDim S5x1 ![0, 1] bcast_S1x1_S5x1_0_1
            (broadcastInDim S1x1 ![1] bcast_S1_S1x1_1 (constantI S1 32 511#32))))
        (constantI S_ 1 1#1) reducesTo_S5x1_S5_d1 h_S_))
    (Host.gather gather_S512x768_S5x1_S5x768_1_0_n_n_0_1_1768 a5 (posIdx i))
    (broadcastInDim S5x768 ![] bcast_S_S5x768 (constant S_ .f32 0x7FC00000#32))

/-- The position rows: rows 0, 1, 2, 3, 4 of the position table, the same for every batch row. -/
def posRows (a5 : FVec F S512x768 .f32) : FVec F S16384x5x768 .f32 :=
  broadcastInDim S16384x5x768 ![0, 1, 2] bcast_S1x5x768_S16384x5x768_0_1_2
    (broadcastInDim S1x5x768 ![1, 2] bcast_S5x768_S1x5x768_1_2 (posTake a5 (iotaInDim S5 32 0)))

/-- Every token's type as a [16384, 5, 1] array of row numbers, negative ones wrapped by 2. -/
def ttIdxArr (a1 : IVec S16384x5 32) : IVec S16384x5x1 32 :=
  broadcastInDim S16384x5x1 ![0, 1] bcast_S16384x5_S16384x5x1_0_1 (wrapRows 2#32 bcast_S_S16384x5 a1)

/-- The token-type rows: for every token the row of the two-row table its type names, where the type lies in
    [0, 1], the fixed float word elsewhere. -/
def ttRows (a6 : FVec F S2x768 .f32) (a1 : IVec S16384x5 32) : FVec F S16384x5x768 .f32 :=
  select
    (broadcastInDim S16384x5x768 ![0, 1] bcast_S16384x5_S16384x5x768_0_1
      (Host.reduce IntOp.andi
        (inRange (ttIdxArr a1) (broadcastInDim S16384x5x1 ![] bcast_S_S16384x5x1 (constantI S_ 32 0#32))
          (broadcastInDim S16384x5x1 ![0, 1, 2] bcast_S1x1x1_S16384x5x1_0_1_2
            (broadcastInDim S1x1x1 ![2] bcast_S1_S1x1x1_2 (constantI S1 32 1#32))))
        (constantI S_ 1 1#1) reducesTo_S16384x5x1_S16384x5_d2 h_S_))
    (Host.gather gather_S2x768_S16384x5x1_S16384x5x768_2_0_n_n_0_2_1768 a6 (ttIdxArr a1))
    (broadcastInDim S16384x5x768 ![] bcast_S_S16384x5x768 (constant S_ .f32 0x7FC00000#32))

/-- The embedding sum: token rows plus position rows, plus token-type rows. -/
def emb (a0 : FVec F S16384x3x2048 .f32) (a1 : IVec S16384x5 32) (a2 : FVec F S2048x768 .f32) (a3 : FVec F S768 .f32)
    (a4 : FVec F S30522x768 .f32) (a5 : FVec F S512x768 .f32) (a6 : FVec F S2x768 .f32) : FVec F S16384x5x768 .f32 :=
  addf (addf (tokRows a0 a2 a3 a4) (posRows a5)) (ttRows a6 a1)

end Cert.RefSide

end
-- ==== Proof.RefLnTail.lean ====
/-
  The reference's layer normalisation as one function.  The last twenty-nine operations of the reference program take
  the embedding sum (an array of 16384 x 5 rows of 768 features), and the gain and bias rows, to the result: the row
  sum over the feature axis divided by 768 (the mean), the row minus its mean (the centred row), the sum of the centred
  row's squares divided by 768 (the variance), the centred row divided by the square root of the variance plus a small
  constant, times the gain, plus the bias.  `lnTail` composes those operations in the program's order; read at batch
  row r, output row q and feature h it is the specification's `lnR` of row (r, q) of the embedding sum.
-/
import proofs.«102618_g412316860866_cont_8to1_b_54_19_alg».proof.ReferenceIdeal
import proofs.«102618_g412316860866_cont_8to1_b_54_19_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.RefSide

open Idealize.ShloMosaic Idealize.ShloMosaic.ValueIdx
open Cert.ReferenceIdeal Cert.ReferenceIdeal.Facts₀

variable [Cert.ReferenceIdeal.Facts]

/-- The reference's layer normalisation: the operations from the zero constant that starts the first row sum to the
    final sum with the bias, composed in the program's order as one function of the embedding sum `e`, the gain `g`
    and the bias `b`.  The mean (with its unit last axis) is shared by the two subtractions, and `e` by the row sum
    and the two subtractions, as in the program. -/
def lnTail (e : FVec Ideal ⟨3, ![16384, 5, 768]⟩ .f32) (g b : FVec Ideal ⟨1, ![768]⟩ .f32) :
    FVec Ideal ⟨3, ![16384, 5, 768]⟩ .f32 :=
  let cst : FVec Ideal S_ .f32 := constant (F := Ideal) S_ .f32 0x00000000#32
  let s20 : FVec Ideal S16384x5 .f32 := Host.reduceAdd (F := Ideal) e cst reducesTo_S16384x5x768_S16384x5_d2 h_S_
  let s21 : FVec Ideal S16384x5x1 .f32 := broadcastInDim S16384x5x1 ![0, 1] bcast_S16384x5_S16384x5x1_0_1 s20
  let cst_0 : FVec Ideal S_ .f32 := constant (F := Ideal) S_ .f32 0x44400000#32
  let s22 : FVec Ideal S16384x5x1 .f32 := broadcastInDim S16384x5x1 ![] bcast_S_S16384x5x1 cst_0
  let s23 : FVec Ideal S16384x5x1 .f32 := Host.divf (F := Ideal) s21 s22
  let s24 : FVec Ideal S16384x5x768 .f32 := broadcastInDim S16384x5x768 ![0, 1, 2] bcast_S16384x5x1_S16384x5x768_0_1_2 s23
  let s25 : FVec Ideal S16384x5x768 .f32 := subf (F := Ideal) e s24
  let s26 : FVec Ideal S16384x5x768 .f32 := mulf (F := Ideal) s25 s25
  let cst_1 : FVec Ideal S_ .f32 := constant (F := Ideal) S_ .f32 0x00000000#32
  let s27 : FVec Ideal S16384x5 .f32 := Host.reduceAdd (F := Ideal) s26 cst_1 reducesTo_S16384x5x768_S16384x5_d2 h_S_
  let s28 : FVec Ideal S16384x5x1 .f32 := broadcastInDim S16384x5x1 ![0, 1] bcast_S16384x5_S16384x5x1_0_1 s27
  let cst_2 : FVec Ideal S_ .f32 := constant (F := Ideal) S_ .f32 0x44400000#32
  let s29 : FVec Ideal S16384x5x1 .f32 := broadcastInDim S16384x5x1 ![] bcast_S_S16384x5x1 cst_2
  let s30 : FVec Ideal S16384x5x1 .f32 := Host.divf (F := Ideal) s28 s29
  let s31 : FVec Ideal S16384x5x768 .f32 := broadcastInDim S16384x5x768 ![0, 1, 2] bcast_S16384x5x1_S16384x5x768_0_1_2 s23
  let s32 : FVec Ideal S16384x5x768 .f32 := subf (F := Ideal) e s31
  let cst_3 : FVec Ideal S_ .f32 := constant (F := Ideal) S_ .f32 0x2B8CBCCC#32
  let s33 : FVec Ideal S16384x5x1 .f32 := broadcastInDim S16384x5x1 ![] bcast_S_S16384x5x1 cst_3
  let s34 : FVec Ideal S16384x5x1 .f32 := addf (F := Ideal) s30 s33
  let s35 : FVec Ideal S16384x5x1 .f32 := Host.sqrt (F := Ideal) s34
  let s36 : FVec Ideal S16384x5x768 .f32 := broadcastInDim S16384x5x768 ![0, 1, 2] bcast_S16384x5x1_S16384x5x768_0_1_2 s35
  let s37 : FVec Ideal S16384x5x768 .f32 := Host.divf (F := Ideal) s32 s36
  let s38 : FVec Ideal S1x1x768 .f32 := broadcastInDim S1x1x768 ![2] bcast_S768_S1x1x768_2 g
  let s39 : FVec Ideal S16384x5x768 .f32 := broadcastInDim S16384x5x768 ![0, 1, 2] bcast_S1x1x768_S16384x5x768_0_1_2 s38
  let s40 : FVec Ideal S16384x5x768 .f32 := mulf (F := Ideal) s37 s39
  let s41 : FVec Ideal S1x1x768 .f32 := broadcastInDim S1x1x768 ![2] bcast_S768_S1x1x768_2 b
  let s42 : FVec Ideal S16384x5x768 .f32 := broadcastInDim S16384x5x768 ![0, 1, 2] bcast_S1x1x768_S16384x5x768_0_1_2 s41
  addf (F := Ideal) s40 s42

/-- The shape fact of a sum over the feature axis, in the form that names the inserted coordinate: a [16384, 5, 768]
    array with its last axis removed is a [16384, 5] array. -/
theorem reduces_last : Shape.Reduces S16384x5x768 [2] S16384x5 := by decide

/-- Row (r, q) with the feature k put back on the last axis is the index (r, q, k). -/
theorem lift_last (r : Fin 16384) (q : Fin 5) (k : Fin 768) : reduces_last.lift (ix2 r q) k = ix3 r q k := by
  funext c
  match c with
  | ⟨0, _⟩ => rfl
  | ⟨1, _⟩ => rfl
  | ⟨2, _⟩ => rfl

/-- The sum over the feature axis from the zero constant, given back a unit last axis, read at (r, q, ·): zero plus
    the sum of the 768 entries of row (r, q), that is, the sum. -/
theorem rowSum_apply (x : FVec Ideal S16384x5x768 .f32) (r : Fin 16384) (q : Fin 5) (u : Fin 1) :
    broadcastInDim S16384x5x1 ![0, 1] bcast_S16384x5_S16384x5x1_0_1
      (Host.reduceAdd (F := Ideal) x (constant (F := Ideal) S_ .f32 0x00000000#32) reducesTo_S16384x5x768_S16384x5_d2 h_S_)
      (ix3 r q u) = ∑ k : Fin 768, x (ix3 r q k) := by
  rw [broadcastInDim_apply ![0, 1] bcast_S16384x5_S16384x5x1_0_1 _ (ix3 r q u) (ix2 r q)
    (fun a => by match a with | ⟨0, _⟩ => rfl | ⟨1, _⟩ => rfl)]
  rw [hostReduceAdd_apply, Ideal.hostReduceAdd_single _ reduces_last, constant_apply, Ideal.ofBits_zero_f32, zero_add]
  exact Finset.sum_congr rfl (fun k _ => congrArg x (lift_last r q k))

/-- A scalar constant spread over the [16384, 5, 1] shape reads, everywhere, the extended real its word denotes. -/
theorem splat_apply (w : BitVec 32) (j : S16384x5x1.Idx) :
    broadcastInDim S16384x5x1 ![] bcast_S_S16384x5x1 (constant (F := Ideal) S_ .f32 w) j = Ideal.ofBits .f32 w := by
  rw [broadcastInDim_scalar_apply, constant_apply]

/-- A per-row value (unit last axis) spread along the feature axis reads, at (r, q, h), the row's value. -/
theorem bcastLast_apply (m : FVec Ideal S16384x5x1 .f32) (r : Fin 16384) (q : Fin 5) (h : Fin 768) :
    broadcastInDim S16384x5x768 ![0, 1, 2] bcast_S16384x5x1_S16384x5x768_0_1_2 m (ix3 r q h) = m (ix3 r q 0) :=
  broadcastInDim_apply ![0, 1, 2] bcast_S16384x5x1_S16384x5x768_0_1_2 m (ix3 r q h) (ix3 r q 0)
    (fun a => by match a with | ⟨0, _⟩ => rfl | ⟨1, _⟩ => rfl | ⟨2, _⟩ => rfl)

/-- A row of 768 features spread over all batch rows and output rows reads, at (r, q, h), its entry h. -/
theorem bcastRow_apply (v : FVec Ideal S768 .f32) (r : Fin 16384) (q : Fin 5) (h : Fin 768) :
    broadcastInDim S16384x5x768 ![0, 1, 2] bcast_S1x1x768_S16384x5x768_0_1_2
      (broadcastInDim S1x1x768 ![2] bcast_S768_S1x1x768_2 v) (ix3 r q h) = v (ix1 h) := by
  rw [broadcastInDim_apply ![0, 1, 2] bcast_S1x1x768_S16384x5x768_0_1_2 _ (ix3 r q h) (ix3 (0 : Fin 1) (0 : Fin 1) h)
    (fun a => by match a with | ⟨0, _⟩ => rfl | ⟨1, _⟩ => rfl | ⟨2, _⟩ => rfl)]
  exact broadcastInDim_apply ![2] bcast_S768_S1x1x768_2 v (ix3 (0 : Fin 1) (0 : Fin 1) h) (ix1 h)
    (fun a => by match a with | ⟨0, _⟩ => rfl)

/-- The host's square root at an index is the extended reals' square root of the element. -/
theorem hostSqrt_apply {s : Shape} (x : FVec Ideal s .f32) (i : s.Idx) : Host.sqrt (F := Ideal) x i = Ideal.sqrt (x i) := rfl

/-- The row mean stage: the row sum divided by the constant 768 spread over the rows, read at (r, q, ·), is the
    specification's mean of row (r, q). -/
theorem rowMean_apply (x : FVec Ideal S16384x5x768 .f32) (r : Fin 16384) (q : Fin 5) (u : Fin 1) :
    Host.divf (F := Ideal)
      (broadcastInDim S16384x5x1 ![0, 1] bcast_S16384x5_S16384x5x1_0_1
        (Host.reduceAdd (F := Ideal) x (constant (F := Ideal) S_ .f32 0x00000000#32) reducesTo_S16384x5x768_S16384x5_d2 h_S_))
      (broadcastInDim S16384x5x1 ![] bcast_S_S16384x5x1 (constant (F := Ideal) S_ .f32 0x44400000#32)) (ix3 r q u)
      = Cert.Spec.mean (fun k => x (ix3 r q k)) := by
  rw [hostDivf_apply, rowSum_apply, splat_apply]
  rfl

/-- THE REFERENCE'S LAYER NORMALISATION READ AT AN INDEX: at batch row r, output row q and feature h it is the
    specification's reference-style normalisation of row (r, q) of the embedding sum with the gain and bias rows.
    The mean of row (r, q) is the row sum over 768; the centred row is the row minus that mean; the variance is the
    same mean taken of the centred row's squares; the result divides the centred entry by the root of the variance
    plus the small constant, multiplies by the gain's entry h and adds the bias's entry h. -/
theorem lnTail_apply (e : FVec Ideal ⟨3, ![16384, 5, 768]⟩ .f32) (g b : FVec Ideal ⟨1, ![768]⟩ .f32)
    (r : Fin 16384) (q : Fin 5) (h : Fin 768) :
    lnTail e g b (ValueIdx.ix3 r q h)
      = Cert.Spec.lnR (fun k => e (ValueIdx.ix3 r q k)) (fun k => g (ValueIdx.ix1 k)) (fun k => b (ValueIdx.ix1 k)) h := by
  unfold lnTail
  simp only [addf_apply, mulf_apply, hostDivf_apply, subf_apply]
  -- the mean, as an array with a unit last axis
  generalize hM : Host.divf (F := Ideal)
      (broadcastInDim S16384x5x1 ![0, 1] bcast_S16384x5_S16384x5x1_0_1
        (Host.reduceAdd (F := Ideal) e (constant (F := Ideal) S_ .f32 0x00000000#32) reducesTo_S16384x5x768_S16384x5_d2 h_S_))
      (broadcastInDim S16384x5x1 ![] bcast_S_S16384x5x1 (constant (F := Ideal) S_ .f32 0x44400000#32)) = M
  have hMv : ∀ u : Fin 1, M (ix3 r q u) = Cert.Spec.mean (fun k => e (ix3 r q k)) := fun u => by
    rw [← hM]; exact rowMean_apply e r q u
  -- the centred array
  generalize hC : subf (F := Ideal) e (broadcastInDim S16384x5x768 ![0, 1, 2] bcast_S16384x5x1_S16384x5x768_0_1_2 M) = C
  have hCv : ∀ k : Fin 768, C (ix3 r q k) = Cert.Spec.cen (fun k => e (ix3 r q k)) k := fun k => by
    rw [← hC, subf_apply, bcastLast_apply, hMv]; rfl
  -- the variance: the mean stage applied to the squares of the centred array
  have hVv : ∀ u : Fin 1, Host.divf (F := Ideal)
      (broadcastInDim S16384x5x1 ![0, 1] bcast_S16384x5_S16384x5x1_0_1
        (Host.reduceAdd (F := Ideal) (mulf (F := Ideal) C C) (constant (F := Ideal) S_ .f32 0x00000000#32)
          reducesTo_S16384x5x768_S16384x5_d2 h_S_))
      (broadcastInDim S16384x5x1 ![] bcast_S_S16384x5x1 (constant (F := Ideal) S_ .f32 0x44400000#32)) (ix3 r q u)
      = Cert.Spec.var (fun k => e (ix3 r q k)) := fun u => by
    rw [rowMean_apply]
    unfold Cert.Spec.mean Cert.Spec.var
    exact congrArg (fun s => Ideal.div s Cert.Spec.c768) (Finset.sum_congr rfl (fun k _ => by
      show mulf (F := Ideal) C C (ix3 r q k) = _
      rw [mulf_apply, hCv]))
  rw [bcastLast_apply, bcastLast_apply, hMv, hostSqrt_apply, addf_apply, hVv, splat_apply, bcastRow_apply, bcastRow_apply]
  rfl

end Cert.RefSide

end
-- ==== Proof.LibAfterAppend.lean ====
/-
  The buffer contents after a list of host operations, split at any point of the list: running
  `l₁ ++ l₂` from contents `V` is running `l₂` from what `l₁` leaves.
-/
import Idealize.ShloMosaic.Lib.StableHlo.Run

noncomputable section

namespace Cert.AfterAppend

open Idealize.ShloMosaic Idealize.ShloMosaic.StableHlo

/-- The contents after `l₁ ++ l₂` are the contents after `l₂` run from the contents after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.AfterAppend

end
-- ==== Proof.RefRun.lean ====
/-
  The reference program's run.

  The reference's operations come in two stretches: those up to the embedding sum (the token rows, the position
  rows, the token-type rows and the two additions) and the layer normalisation after it.  After the first stretch
  the embedding-sum buffer holds `emb` of the seven arrays it reads; after the second the result buffer holds the
  layer normalisation of what that buffer held, with the gain and bias arguments.  So every weakly fair execution
  of the reference ends with the result buffer at `refVal` of the nine argument arrays, and the arguments, which
  no operation writes, unchanged.
-/
import proofs.«102618_g412316860866_cont_8to1_b_54_19_alg».proof.Proof.RefOps
import proofs.«102618_g412316860866_cont_8to1_b_54_19_alg».proof.Proof.RefEmb
import proofs.«102618_g412316860866_cont_8to1_b_54_19_alg».proof.Proof.RefLnTail
import proofs.«102618_g412316860866_cont_8to1_b_54_19_alg».proof.Proof.LibAfterAppend

noncomputable section

namespace Cert.RefSide

open Cert.ReferenceIdeal Cert.ReferenceIdeal.Facts₀ Idealize.ShloMosaic Idealize.ShloMosaic.TcCoe Idealize.SL.Sem
  Idealize.ShloMosaic.StableHlo

variable [Cert.ReferenceIdeal.Facts] {F : FTy → Type} [FloatOps F]

/-- The operations up to the embedding sum: the token rows, the position rows, the token-type rows, the two adds. -/
abbrev opsEmb : List (HloOp τ sig (Elt F)) :=
  [ unary main_arg4 main_v0 ((extractStridedSlice S1x768 ![101, 0] · slices_S30522x768_S1x768_101_0) : (⟨S30522x768, .f32⟩ : BufTy).Contents (Elt F) → (⟨S1x768, .f32⟩ : BufTy).Contents (Elt F)),
    reshape main_v0 main_v1 rfl shapeCasts_S1x768_S768,
    unary main_v1 main_v2 (broadcastInDim S1x1x768 ![2] bcast_S768_S1x1x768_2 : (⟨S768, .f32⟩ : BufTy).Contents (Elt F) → (⟨S1x1x768, .f32⟩ : BufTy).Contents (Elt F)),
    unary main_v2 main_v3 (broadcastInDim S16384x1x768 ![0, 1, 2] bcast_S1x1x768_S16384x1x768_0_1_2 : (⟨S1x1x768, .f32⟩ : BufTy).Contents (Elt F) → (⟨S16384x1x768, .f32⟩ : BufTy).Contents (Elt F)),
    unary main_arg4 main_v4 ((extractStridedSlice S1x768 ![102, 0] · slices_S30522x768_S1x768_102_0) : (⟨S30522x768, .f32⟩ : BufTy).Contents (Elt F) → (⟨S1x768, .f32⟩ : BufTy).Contents (Elt F)),
    reshape main_v4 main_v5 rfl shapeCasts_S1x768_S768,
    unary main_v5 main_v6 (broadcastInDim S1x1x768 ![2] bcast_S768_S1x1x768_2 : (⟨S768, .f32⟩ : BufTy).Contents (Elt F) → (⟨S1x1x768, .f32⟩ : BufTy).Contents (Elt F)),
    unary main_v6 main_v7 (broadcastInDim S16384x1x768 ![0, 1, 2] bcast_S1x1x768_S16384x1x768_0_1_2 : (⟨S1x1x768, .f32⟩ : BufTy).Contents (Elt F) → (⟨S16384x1x768, .f32⟩ : BufTy).Contents (Elt F)),
    binary main_arg0 main_arg2 main_v8 ((fun l r => Host.dotGeneral dot_S16384x3x2048_S2048x768_S16384x3x768_2_0_01_1_n_n none l r) : (⟨S16384x3x2048, .f32⟩ : BufTy).Contents (Elt F) → (⟨S2048x768, .f32⟩ : BufTy).Contents (Elt F) → (⟨S16384x3x768, .f32⟩ : BufTy).Contents (Elt F)),
    unary main_arg3 main_v9 (broadcastInDim S1x1x768 ![2] bcast_S768_S1x1x768_2 : (⟨S768, .f32⟩ : BufTy).Contents (Elt F) → (⟨S1x1x768, .f32⟩ : BufTy).Contents (Elt F)),
    unary main_v9 main_v10 (broadcastInDim S16384x3x768 ![0, 1, 2] bcast_S1x1x768_S16384x3x768_0_1_2 : (⟨S1x1x768, .f32⟩ : BufTy).Contents (Elt F) → (⟨S16384x3x768, .f32⟩ : BufTy).Contents (Elt F)),
    binary main_v8 main_v10 main_v11 (addf : (⟨S16384x3x768, .f32⟩ : BufTy).Contents (Elt F) → (⟨S16384x3x768, .f32⟩ : BufTy).Contents (Elt F) → (⟨S16384x3x768, .f32⟩ : BufTy).Contents (Elt F)),
    nary ![main_v3, main_v11, main_v7] main_v12 (fun u => concatenate S16384x5x768 1 [⟨S16384x1x768, u 0⟩, ⟨S16384x3x768, u 1⟩, ⟨S16384x1x768, u 2⟩] concatenates_S16384x1x768_S16384x3x768_S16384x1x768_S16384x5x768_d1),
    nullary main_v13 (iotaInDim S5 32 0),
    TRef.nullary main_call0.c (constantI S_ 32 0#32),
    TRef.unary main_call0.c main_call0.v0 (broadcastInDim S5 ![] bcast_S_S5),
    TRef.binary (.of main_v13 : TRef sig ⟨S5, .i32⟩) main_call0.v0 main_call0.v1 (cmpi .slt),
    TRef.nullary main_call0.c_0 (constantI S_ 32 512#32),
    TRef.unary main_call0.c_0 main_call0.v2 (broadcastInDim S5 ![] bcast_S_S5),
    TRef.binary (.of main_v13 : TRef sig ⟨S5, .i32⟩) main_call0.v2 main_call0.v3 addi,
    TRef.ternary main_call0.v1 main_call0.v3 (.of main_v13 : TRef sig ⟨S5, .i32⟩) main_call0.call0.v0 select,
    TRef.unary main_call0.call0.v0 main_call0.v5 (broadcastInDim S5x1 ![0] bcast_S5_S5x1_0),
    TRef.nullary main_call0.c_1 (constantI S1 32 511#32),
    TRef.nullary main_call0.c_2 (constantI S_ 32 0#32),
    TRef.unary main_call0.c_2 main_call0.v6 (broadcastInDim S5x1 ![] bcast_S_S5x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S5x1 ![0, 1] bcast_S1x1_S5x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S5x1_S5_d1 h_S_),
    TRef.binary (.of main_arg5 : TRef sig ⟨S512x768, .f32⟩) main_call0.v5 main_call0.v13 (fun x i => Host.gather gather_S512x768_S5x1_S5x768_1_0_n_n_0_1_1768 x i),
    TRef.unary main_call0.v12 main_call0.v14 (broadcastInDim S5x768 ![0] bcast_S5_S5x768_0),
    TRef.nullary main_call0.cst (constant S_ .f32 0x7FC00000#32),
    TRef.unary main_call0.cst main_call0.v15 (broadcastInDim S5x768 ![] bcast_S_S5x768),
    TRef.ternary main_call0.v14 main_call0.v13 main_call0.v15 main_call0.v16 select,
    unary main_v14 main_v15 (broadcastInDim S1x5x768 ![1, 2] bcast_S5x768_S1x5x768_1_2 : (⟨S5x768, .f32⟩ : BufTy).Contents (Elt F) → (⟨S1x5x768, .f32⟩ : BufTy).Contents (Elt F)),
    unary main_v15 main_v16 (broadcastInDim S16384x5x768 ![0, 1, 2] bcast_S1x5x768_S16384x5x768_0_1_2 : (⟨S1x5x768, .f32⟩ : BufTy).Contents (Elt F) → (⟨S16384x5x768, .f32⟩ : BufTy).Contents (Elt F)),
    TRef.nullary main_call1.c (constantI S_ 32 0#32),
    TRef.unary main_call1.c main_call1.v0 (broadcastInDim S16384x5 ![] bcast_S_S16384x5),
    TRef.binary (.of main_arg1 : TRef sig ⟨S16384x5, .i32⟩) main_call1.v0 main_call1.v1 (cmpi .slt),
    TRef.nullary main_call1.c_0 (constantI S_ 32 2#32),
    TRef.unary main_call1.c_0 main_call1.v2 (broadcastInDim S16384x5 ![] bcast_S_S16384x5),
    TRef.binary (.of main_arg1 : TRef sig ⟨S16384x5, .i32⟩) main_call1.v2 main_call1.v3 addi,
    TRef.ternary main_call1.v1 main_call1.v3 (.of main_arg1 : TRef sig ⟨S16384x5, .i32⟩) main_call1.call0.v0 select,
    TRef.unary main_call1.call0.v0 main_call1.v5 (broadcastInDim S16384x5x1 ![0, 1] bcast_S16384x5_S16384x5x1_0_1),
    TRef.nullary main_call1.c_1 (constantI S1 32 1#32),
    TRef.nullary main_call1.c_2 (constantI S_ 32 0#32),
    TRef.unary main_call1.c_2 main_call1.v6 (broadcastInDim S16384x5x1 ![] bcast_S_S16384x5x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x5x1 ![0, 1, 2] bcast_S1x1x1_S16384x5x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x5x1_S16384x5_d2 h_S_),
    TRef.binary (.of main_arg6 : TRef sig ⟨S2x768, .f32⟩) main_call1.v5 main_call1.v13 (fun x i => Host.gather gather_S2x768_S16384x5x1_S16384x5x768_2_0_n_n_0_2_1768 x i),
    TRef.unary main_call1.v12 main_call1.v14 (broadcastInDim S16384x5x768 ![0, 1] bcast_S16384x5_S16384x5x768_0_1),
    TRef.nullary main_call1.cst (constant S_ .f32 0x7FC00000#32),
    TRef.unary main_call1.cst main_call1.v15 (broadcastInDim S16384x5x768 ![] bcast_S_S16384x5x768),
    TRef.ternary main_call1.v14 main_call1.v13 main_call1.v15 main_call1.v16 select,
    binary main_v12 main_v16 main_v18 (addf : (⟨S16384x5x768, .f32⟩ : BufTy).Contents (Elt F) → (⟨S16384x5x768, .f32⟩ : BufTy).Contents (Elt F) → (⟨S16384x5x768, .f32⟩ : BufTy).Contents (Elt F)),
    binary main_v18 main_v17 main_v19 (addf : (⟨S16384x5x768, .f32⟩ : BufTy).Contents (Elt F) → (⟨S16384x5x768, .f32⟩ : BufTy).Contents (Elt F) → (⟨S16384x5x768, .f32⟩ : BufTy).Contents (Elt F)) ]

/-- The operations after the embedding sum: the layer normalisation. -/
abbrev opsLn : List (HloOp τ sig (Elt F)) :=
  [ nullary main_cst (constant S_ .f32 0x00000000#32),
    binary main_v19 main_cst main_v20 ((fun x v => Host.reduceAdd x v reducesTo_S16384x5x768_S16384x5_d2 h_S_) : (⟨S16384x5x768, .f32⟩ : BufTy).Contents (Elt F) → (⟨S_, .f32⟩ : BufTy).Contents (Elt F) → (⟨S16384x5, .f32⟩ : BufTy).Contents (Elt F)),
    unary main_v20 main_v21 (broadcastInDim S16384x5x1 ![0, 1] bcast_S16384x5_S16384x5x1_0_1 : (⟨S16384x5, .f32⟩ : BufTy).Contents (Elt F) → (⟨S16384x5x1, .f32⟩ : BufTy).Contents (Elt F)),
    nullary main_cst_0 (constant S_ .f32 0x44400000#32),
    unary main_cst_0 main_v22 (broadcastInDim S16384x5x1 ![] bcast_S_S16384x5x1 : (⟨S_, .f32⟩ : BufTy).Contents (Elt F) → (⟨S16384x5x1, .f32⟩ : BufTy).Contents (Elt F)),
    binary main_v21 main_v22 main_v23 (Host.divf : (⟨S16384x5x1, .f32⟩ : BufTy).Contents (Elt F) → (⟨S16384x5x1, .f32⟩ : BufTy).Contents (Elt F) → (⟨S16384x5x1, .f32⟩ : BufTy).Contents (Elt F)),
    unary main_v23 main_v24 (broadcastInDim S16384x5x768 ![0, 1, 2] bcast_S16384x5x1_S16384x5x768_0_1_2 : (⟨S16384x5x1, .f32⟩ : BufTy).Contents (Elt F) → (⟨S16384x5x768, .f32⟩ : BufTy).Contents (Elt F)),
    binary main_v19 main_v24 main_v25 (subf : (⟨S16384x5x768, .f32⟩ : BufTy).Contents (Elt F) → (⟨S16384x5x768, .f32⟩ : BufTy).Contents (Elt F) → (⟨S16384x5x768, .f32⟩ : BufTy).Contents (Elt F)),
    binary main_v25 main_v25 main_v26 (mulf : (⟨S16384x5x768, .f32⟩ : BufTy).Contents (Elt F) → (⟨S16384x5x768, .f32⟩ : BufTy).Contents (Elt F) → (⟨S16384x5x768, .f32⟩ : BufTy).Contents (Elt F)),
    nullary main_cst_1 (constant S_ .f32 0x00000000#32),
    binary main_v26 main_cst_1 main_v27 ((fun x v => Host.reduceAdd x v reducesTo_S16384x5x768_S16384x5_d2 h_S_) : (⟨S16384x5x768, .f32⟩ : BufTy).Contents (Elt F) → (⟨S_, .f32⟩ : BufTy).Contents (Elt F) → (⟨S16384x5, .f32⟩ : BufTy).Contents (Elt F)),
    unary main_v27 main_v28 (broadcastInDim S16384x5x1 ![0, 1] bcast_S16384x5_S16384x5x1_0_1 : (⟨S16384x5, .f32⟩ : BufTy).Contents (Elt F) → (⟨S16384x5x1, .f32⟩ : BufTy).Contents (Elt F)),
    nullary main_cst_2 (constant S_ .f32 0x44400000#32),
    unary main_cst_2 main_v29 (broadcastInDim S16384x5x1 ![] bcast_S_S16384x5x1 : (⟨S_, .f32⟩ : BufTy).Contents (Elt F) → (⟨S16384x5x1, .f32⟩ : BufTy).Contents (Elt F)),
    binary main_v28 main_v29 main_v30 (Host.divf : (⟨S16384x5x1, .f32⟩ : BufTy).Contents (Elt F) → (⟨S16384x5x1, .f32⟩ : BufTy).Contents (Elt F) → (⟨S16384x5x1, .f32⟩ : BufTy).Contents (Elt F)),
    unary main_v23 main_v31 (broadcastInDim S16384x5x768 ![0, 1, 2] bcast_S16384x5x1_S16384x5x768_0_1_2 : (⟨S16384x5x1, .f32⟩ : BufTy).Contents (Elt F) → (⟨S16384x5x768, .f32⟩ : BufTy).Contents (Elt F)),
    binary main_v19 main_v31 main_v32 (subf : (⟨S16384x5x768, .f32⟩ : BufTy).Contents (Elt F) → (⟨S16384x5x768, .f32⟩ : BufTy).Contents (Elt F) → (⟨S16384x5x768, .f32⟩ : BufTy).Contents (Elt F)),
    nullary main_cst_3 (constant S_ .f32 0x2B8CBCCC#32),
    unary main_cst_3 main_v33 (broadcastInDim S16384x5x1 ![] bcast_S_S16384x5x1 : (⟨S_, .f32⟩ : BufTy).Contents (Elt F) → (⟨S16384x5x1, .f32⟩ : BufTy).Contents (Elt F)),
    binary main_v30 main_v33 main_v34 (addf : (⟨S16384x5x1, .f32⟩ : BufTy).Contents (Elt F) → (⟨S16384x5x1, .f32⟩ : BufTy).Contents (Elt F) → (⟨S16384x5x1, .f32⟩ : BufTy).Contents (Elt F)),
    unary main_v34 main_v35 (Host.sqrt : (⟨S16384x5x1, .f32⟩ : BufTy).Contents (Elt F) → (⟨S16384x5x1, .f32⟩ : BufTy).Contents (Elt F)),
    unary main_v35 main_v36 (broadcastInDim S16384x5x768 ![0, 1, 2] bcast_S16384x5x1_S16384x5x768_0_1_2 : (⟨S16384x5x1, .f32⟩ : BufTy).Contents (Elt F) → (⟨S16384x5x768, .f32⟩ : BufTy).Contents (Elt F)),
    binary main_v32 main_v36 main_v37 (Host.divf : (⟨S16384x5x768, .f32⟩ : BufTy).Contents (Elt F) → (⟨S16384x5x768, .f32⟩ : BufTy).Contents (Elt F) → (⟨S16384x5x768, .f32⟩ : BufTy).Contents (Elt F)),
    unary main_arg7 main_v38 (broadcastInDim S1x1x768 ![2] bcast_S768_S1x1x768_2 : (⟨S768, .f32⟩ : BufTy).Contents (Elt F) → (⟨S1x1x768, .f32⟩ : BufTy).Contents (Elt F)),
    unary main_v38 main_v39 (broadcastInDim S16384x5x768 ![0, 1, 2] bcast_S1x1x768_S16384x5x768_0_1_2 : (⟨S1x1x768, .f32⟩ : BufTy).Contents (Elt F) → (⟨S16384x5x768, .f32⟩ : BufTy).Contents (Elt F)),
    binary main_v37 main_v39 main_v40 (mulf : (⟨S16384x5x768, .f32⟩ : BufTy).Contents (Elt F) → (⟨S16384x5x768, .f32⟩ : BufTy).Contents (Elt F) → (⟨S16384x5x768, .f32⟩ : BufTy).Contents (Elt F)),
    unary main_arg8 main_v41 (broadcastInDim S1x1x768 ![2] bcast_S768_S1x1x768_2 : (⟨S768, .f32⟩ : BufTy).Contents (Elt F) → (⟨S1x1x768, .f32⟩ : BufTy).Contents (Elt F)),
    unary main_v41 main_v42 (broadcastInDim S16384x5x768 ![0, 1, 2] bcast_S1x1x768_S16384x5x768_0_1_2 : (⟨S1x1x768, .f32⟩ : BufTy).Contents (Elt F) → (⟨S16384x5x768, .f32⟩ : BufTy).Contents (Elt F)),
    binary main_v40 main_v42 main_v43 (addf : (⟨S16384x5x768, .f32⟩ : BufTy).Contents (Elt F) → (⟨S16384x5x768, .f32⟩ : BufTy).Contents (Elt F) → (⟨S16384x5x768, .f32⟩ : BufTy).Contents (Elt F)) ]

/-- The reference's operations are those two stretches, one after the other. -/
theorem ops_split : (ops : List (HloOp τ sig (Elt F))) = opsEmb ++ opsLn := rfl

/-- A host operation over the literal family of three buffers whose function reads the family only at its three
    entries leaves, in its result buffer, that function of the three buffers' contents. -/
theorem nary3_curried_result {x a b y : Ref sig .tc}
    (g : x.ty.Contents (Elt F) → a.ty.Contents (Elt F) → b.ty.Contents (Elt F) → y.ty.Contents (Elt F)) (hxs hy)
    (V : Valuation τ sig (Elt F)) :
    (nary (τ := τ) ![x, a, b] y (fun u => g (u 0) (u 1) (u 2)) hxs hy).result V (no_index (Proc.devRef .tc y))
      = g (V (Proc.devRef .tc x)) (V (Proc.devRef .tc a)) (V (Proc.devRef .tc b)) :=
  (nary_result ![x, a, b] y (fun u => g (u 0) (u 1) (u 2)) hxs hy V).trans rfl

/-- The token rows' concatenation, read in that form. -/
theorem concat_result' (hxs hy) (V : Valuation τ sig (Elt F)) :
    (nary (τ := τ) ![main_v3, main_v11, main_v7] main_v12 (fun u => concatenate S16384x5x768 1 [⟨S16384x1x768, u 0⟩, ⟨S16384x3x768, u 1⟩, ⟨S16384x1x768, u 2⟩] concatenates_S16384x1x768_S16384x3x768_S16384x1x768_S16384x5x768_d1) hxs hy).result V (no_index (Proc.devRef .tc main_v12))
      = concatenate S16384x5x768 1 [⟨S16384x1x768, V (Proc.devRef .tc main_v3)⟩, ⟨S16384x3x768, V (Proc.devRef .tc main_v11)⟩, ⟨S16384x1x768, V (Proc.devRef .tc main_v7)⟩] concatenates_S16384x1x768_S16384x3x768_S16384x1x768_S16384x5x768_d1 :=
  nary3_curried_result (x := main_v3) (a := main_v11) (b := main_v7) (y := main_v12)
    (fun A B C => concatenate S16384x5x768 1 [⟨S16384x1x768, A⟩, ⟨S16384x3x768, B⟩, ⟨S16384x1x768, C⟩] concatenates_S16384x1x768_S16384x3x768_S16384x1x768_S16384x5x768_d1) hxs hy V

set_option maxHeartbeats 2000000 in
set_option maxRecDepth 131072 in
/-- After the first stretch the embedding-sum buffer holds the embedding sum of the argument arrays: each
    operation's result is its function of its operands' contents, and a value moved to a called function's buffer
    type and back is the value. -/
theorem emb_eq (V : Valuation τ sig (Elt F)) :
    after opsEmb V (main_v19 : DevRef τ sig)
      = emb (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp (disch := decide) only [after_cons, after_nil, nullary_result', unary_result', binary_result', ternary_result',
    reshape_result', concat_result', nullary_result_ne', unary_result_ne', binary_result_ne', ternary_result_ne',
    reshape_result_ne', nary_result_ne']
  unfold emb tokRows posRows ttRows posTake posIdx ttIdxArr wrapRows inRange wordRow imgRows
  rfl

set_option maxHeartbeats 1000000 in
/-- The first stretch leaves the gain argument alone. -/
theorem emb_arg7 (V : Valuation τ sig (Elt F)) : after opsEmb V (main_arg7 : DevRef τ sig) = V (main_arg7 : DevRef τ sig) := by
  simp (disch := decide) only [after_cons, after_nil, nullary_result_ne', unary_result_ne', binary_result_ne', ternary_result_ne', reshape_result_ne', nary_result_ne']

set_option maxHeartbeats 1000000 in
/-- The first stretch leaves the bias argument alone. -/
theorem emb_arg8 (V : Valuation τ sig (Elt F)) : after opsEmb V (main_arg8 : DevRef τ sig) = V (main_arg8 : DevRef τ sig) := by
  simp (disch := decide) only [after_cons, after_nil, nullary_result_ne', unary_result_ne', binary_result_ne', ternary_result_ne', reshape_result_ne', nary_result_ne']

set_option maxHeartbeats 1000000 in
set_option maxRecDepth 65536 in
/-- After the second stretch the result buffer holds the layer normalisation of what the embedding-sum buffer held,
    with the gain and the bias arguments. -/
theorem ln_eq (W : Valuation τ sig (Elt Ideal)) :
    after (opsLn (F := Ideal)) W (main_v43 : DevRef τ sig)
      = lnTail (W (main_v19 : DevRef τ sig)) (W (main_arg7 : DevRef τ sig)) (W (main_arg8 : DevRef τ sig)) := by
  simp (disch := decide) only [after_cons, after_nil, nullary_result', unary_result', binary_result', nullary_result_ne', unary_result_ne', binary_result_ne']
  rfl

/-- The reference's result array as a function of its nine argument arrays: the layer normalisation, with the gain
    and bias arguments, of the embedding sum of the other seven. -/
def refVal (a0 : FVec Ideal ⟨3, ![16384, 3, 2048]⟩ .f32) (a1 : IVec ⟨2, ![16384, 5]⟩ 32) (a2 : FVec Ideal ⟨2, ![2048, 768]⟩ .f32)
    (a3 : FVec Ideal ⟨1, ![768]⟩ .f32) (a4 : FVec Ideal ⟨2, ![30522, 768]⟩ .f32) (a5 : FVec Ideal ⟨2, ![512, 768]⟩ .f32)
    (a6 : FVec Ideal ⟨2, ![2, 768]⟩ .f32) (a7 a8 : FVec Ideal ⟨1, ![768]⟩ .f32) : FVec Ideal ⟨3, ![16384, 5, 768]⟩ .f32 :=
  lnTail (emb (F := Ideal) a0 a1 a2 a3 a4 a5 a6) a7 a8

/-- After all the operations the result buffer holds `refVal` of the argument buffers' contents. -/
theorem v43_eq (V : Valuation τ sig (Elt Ideal)) :
    after (ops (F := Ideal)) V (main_v43 : DevRef τ sig)
      = refVal (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  rw [ops_split, Cert.AfterAppend.after_append, ln_eq, emb_eq, emb_arg7, emb_arg8]
  rfl

set_option maxHeartbeats 2000000 in
theorem arg0_eq (V : Valuation τ sig (Elt F)) : after ops V (main_arg0 : DevRef τ sig) = V (main_arg0 : DevRef τ sig) := by
  simp (disch := decide) only [after_cons, after_nil, nullary_result_ne', unary_result_ne', binary_result_ne', ternary_result_ne', reshape_result_ne', nary_result_ne']

set_option maxHeartbeats 2000000 in
theorem arg1_eq (V : Valuation τ sig (Elt F)) : after ops V (main_arg1 : DevRef τ sig) = V (main_arg1 : DevRef τ sig) := by
  simp (disch := decide) only [after_cons, after_nil, nullary_result_ne', unary_result_ne', binary_result_ne', ternary_result_ne', reshape_result_ne', nary_result_ne']

set_option maxHeartbeats 2000000 in
theorem arg2_eq (V : Valuation τ sig (Elt F)) : after ops V (main_arg2 : DevRef τ sig) = V (main_arg2 : DevRef τ sig) := by
  simp (disch := decide) only [after_cons, after_nil, nullary_result_ne', unary_result_ne', binary_result_ne', ternary_result_ne', reshape_result_ne', nary_result_ne']

set_option maxHeartbeats 2000000 in
theorem arg3_eq (V : Valuation τ sig (Elt F)) : after ops V (main_arg3 : DevRef τ sig) = V (main_arg3 : DevRef τ sig) := by
  simp (disch := decide) only [after_cons, after_nil, nullary_result_ne', unary_result_ne', binary_result_ne', ternary_result_ne', reshape_result_ne', nary_result_ne']

set_option maxHeartbeats 2000000 in
theorem arg4_eq (V : Valuation τ sig (Elt F)) : after ops V (main_arg4 : DevRef τ sig) = V (main_arg4 : DevRef τ sig) := by
  simp (disch := decide) only [after_cons, after_nil, nullary_result_ne', unary_result_ne', binary_result_ne', ternary_result_ne', reshape_result_ne', nary_result_ne']

set_option maxHeartbeats 2000000 in
theorem arg5_eq (V : Valuation τ sig (Elt F)) : after ops V (main_arg5 : DevRef τ sig) = V (main_arg5 : DevRef τ sig) := by
  simp (disch := decide) only [after_cons, after_nil, nullary_result_ne', unary_result_ne', binary_result_ne', ternary_result_ne', reshape_result_ne', nary_result_ne']

set_option maxHeartbeats 2000000 in
theorem arg6_eq (V : Valuation τ sig (Elt F)) : after ops V (main_arg6 : DevRef τ sig) = V (main_arg6 : DevRef τ sig) := by
  simp (disch := decide) only [after_cons, after_nil, nullary_result_ne', unary_result_ne', binary_result_ne', ternary_result_ne', reshape_result_ne', nary_result_ne']

set_option maxHeartbeats 2000000 in
theorem arg7_eq (V : Valuation τ sig (Elt F)) : after ops V (main_arg7 : DevRef τ sig) = V (main_arg7 : DevRef τ sig) := by
  simp (disch := decide) only [after_cons, after_nil, nullary_result_ne', unary_result_ne', binary_result_ne', ternary_result_ne', reshape_result_ne', nary_result_ne']

set_option maxHeartbeats 2000000 in
theorem arg8_eq (V : Valuation τ sig (Elt F)) : after ops V (main_arg8 : DevRef τ sig) = V (main_arg8 : DevRef τ sig) := by
  simp (disch := decide) only [after_cons, after_nil, nullary_result_ne', unary_result_ne', binary_result_ne', ternary_result_ne', reshape_result_ne', nary_result_ne']

/-- On every device, from any memory with zero counters: every weakly fair execution of the reference terminates
    with the result buffer at `refVal` of the argument arrays' launch contents and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
        = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c => ⟨(h c main_v43).trans (v43_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c))⟩)
    (run_all (F := Ideal) m ρ)

end Cert.RefSide

end
-- ==== Proof.RefReadTok.lean ====
/-
  The token rows of the reference read at an index.

  Entry (r, q, h) of the token rows is: for q = 0 the word table's row 101 at h, for q = 4 its row 102 at h, and
  for q = 1, 2, 3 the image slot q - 1 of batch row r projected by the matrix, at h, plus the projection's bias at
  h — that is, the specification's `tok`.
-/
import proofs.«102618_g412316860866_cont_8to1_b_54_19_alg».proof.Proof.RefEmb
import proofs.«102618_g412316860866_cont_8to1_b_54_19_alg».proof.Proof.ArgsOf
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Facts₀ Idealize.ShloMosaic Idealize.ShloMosaic.ValueIdx

variable [Cert.ReferenceIdeal.Facts]

/-- A vector of 768 features put on the last axis of [1, 1, 768] and broadcast along both leading axes reads, at
    (r, q, h), the vector at h. -/
theorem lastAxis_apply {α : Type} {a b : ℕ} (hb1 : S768.BroadcastsInDim S1x1x768 (![2] : Fin 1 → Fin S1x1x768.rank))
    (hb2 : S1x1x768.BroadcastsInDim ⟨3, ![a, b, 768]⟩ (![0, 1, 2] : Fin 3 → Fin 3)) (v : S768.Idx → α)
    (r : Fin a) (q : Fin b) (h : Fin 768) :
    broadcastInDim ⟨3, ![a, b, 768]⟩ ![0, 1, 2] hb2 (broadcastInDim S1x1x768 ![2] hb1 v) (ix3 r q h) = v (ix1 h) := by
  refine (broadcastInDim_apply _ hb2 _ (ix3 r q h) (ix3 (0 : Fin 1) (0 : Fin 1) h) (fun ax => ?_)).trans ?_
  · match ax with
    | ⟨0, _⟩ => rfl
    | ⟨1, _⟩ => rfl
    | ⟨2, _⟩ => rfl
  · refine broadcastInDim_apply _ hb1 v (ix3 (0 : Fin 1) (0 : Fin 1) h) (ix1 h) (fun ax => ?_)
    match ax with
    | ⟨0, _⟩ => rfl

/-- Entry (r, u, h) of a word row repeated over the batch is the word table's row `n` at h. -/
theorem wordRow_apply (n : ℕ) (hn : n < 30522) (hs : S30522x768.Slices ![n, 0] S1x768)
    (a4 : FVec Ideal S30522x768 .f32) (r : Fin 16384) (u : Fin 1) (h : Fin 768) :
    wordRow (F := Ideal) ![n, 0] hs a4 (ix3 r u h) = a4 (ix2 (⟨n, hn⟩ : Fin 30522) h) := by
  unfold wordRow
  refine (lastAxis_apply (a := 16384) (b := 1) bcast_S768_S1x1x768_2 bcast_S1x1x768_S16384x1x768_0_1_2 _ r u h).trans ?_
  refine (shapeCast_apply _ shapeCasts_S1x768_S768 (ix1 h) (ix2 (0 : Fin 1) h) ?_).trans ?_
  · rw [Shape.rowMajor_val_two, Shape.rowMajor_val_one]
    show 0 * 768 + h.val = h.val
    omega
  · refine extractStridedSlice_apply _ a4 hs (ix2 (0 : Fin 1) h) (ix2 (⟨n, hn⟩ : Fin 30522) h) (fun ax => ?_)
    match ax with
    | ⟨0, _⟩ => rfl
    | ⟨1, _⟩ =>
      show h.val = 0 + h.val
      omega

/-- Entry (r, s, h) of the projected image rows: the sum over the 2048 image features of slot s of batch row r
    times the matrix column h, plus the bias at h. -/
theorem imgRows_apply (a0 : FVec Ideal S16384x3x2048 .f32) (a2 : FVec Ideal S2048x768 .f32) (a3 : FVec Ideal S768 .f32)
    (r : Fin 16384) (s : Fin 3) (h : Fin 768) :
    imgRows (F := Ideal) a0 a2 a3 (ix3 r s h) = (∑ e : Fin 2048, a0 (ix3 r s e) * a2 (ix2 e h)) + a3 (ix1 h) := by
  unfold imgRows
  rw [addf_apply]
  refine congrArg₂ (· + ·) ?_ ?_
  · show FloatOps.dotGeneral dot_S16384x3x2048_S2048x768_S16384x3x768_2_0_01_1_n_n none .single a0 a2 (ix3 r s h) = _
    rw [Ideal.dotGeneral_apply,
      ← Equiv.sum_comp (contrEquiv1 dot_S16384x3x2048_S2048x768_S16384x3x768_2_0_01_1_n_n 2048 rfl rfl).symm]
    refine Finset.sum_congr rfl fun e _ => ?_
    have he := contrEquiv1_symm_val dot_S16384x3x2048_S2048x768_S16384x3x768_2_0_01_1_n_n 2048 rfl rfl e
    have el : dot_S16384x3x2048_S2048x768_S16384x3x768_2_0_01_1_n_n.lhsIdx (ix3 r s h)
        ((contrEquiv1 dot_S16384x3x2048_S2048x768_S16384x3x768_2_0_01_1_n_n 2048 rfl rfl).symm e) = ix3 r s e :=
      funext fun ax => Fin.ext (by
        match ax with
        | ⟨0, _⟩ => rfl
        | ⟨1, _⟩ => rfl
        | ⟨2, _⟩ =>
          exact (DotDims.lhsIdx_val_of_single dot_S16384x3x2048_S2048x768_S16384x3x768_2_0_01_1_n_n
            (cl := (2 : Fin 3)) rfl _ _).trans he)
    have er : dot_S16384x3x2048_S2048x768_S16384x3x768_2_0_01_1_n_n.rhsIdx (ix3 r s h)
        ((contrEquiv1 dot_S16384x3x2048_S2048x768_S16384x3x768_2_0_01_1_n_n 2048 rfl rfl).symm e) = ix2 e h :=
      funext fun ax => Fin.ext (by
        match ax with
        | ⟨0, _⟩ =>
          exact (DotDims.rhsIdx_val_of_single dot_S16384x3x2048_S2048x768_S16384x3x768_2_0_01_1_n_n
            (cr := (0 : Fin 2)) rfl _ _).trans he
        | ⟨1, _⟩ => rfl)
    rw [el, er]
  · exact lastAxis_apply (a := 16384) (b := 3) bcast_S768_S1x1x768_2 bcast_S1x1x768_S16384x3x768_0_1_2 a3 r s h

/-- Three arrays laid side by side along the middle axis, of extents 1, 3 and 1: the first entry along that axis
    reads the first array. -/
theorem concat131_first {α : Type} (X : S16384x1x768.Idx → α) (Y : S16384x3x768.Idx → α) (Z : S16384x1x768.Idx → α)
    (hc : Shape.Concatenates [S16384x1x768, S16384x3x768, S16384x1x768] S16384x5x768 1) (r : Fin 16384) (h : Fin 768) :
    concatenate S16384x5x768 1 [⟨S16384x1x768, X⟩, ⟨S16384x3x768, Y⟩, ⟨S16384x1x768, Z⟩] hc (ix3 r (⟨0, by omega⟩ : Fin 5) h)
      = X (ix3 r (0 : Fin 1) h) := by
  refine concatenate_apply_piece (t := S16384x5x768) (1 : Fin 3) [⟨S16384x1x768, X⟩, ⟨S16384x3x768, Y⟩, ⟨S16384x1x768, Z⟩]
    hc _ 0 (by show (0 : ℕ) < 3; omega) S16384x1x768 X rfl rfl 0 rfl (ix3 r (0 : Fin 1) h) (fun b hb => ?_) rfl
  match b with
  | ⟨0, _⟩ => rfl
  | ⟨1, _⟩ => exact absurd (Fin.ext rfl) hb
  | ⟨2, _⟩ => rfl

/-- The entries 1, 2, 3 along the middle axis read the second array at 0, 1, 2. -/
theorem concat131_mid {α : Type} (X : S16384x1x768.Idx → α) (Y : S16384x3x768.Idx → α) (Z : S16384x1x768.Idx → α)
    (hc : Shape.Concatenates [S16384x1x768, S16384x3x768, S16384x1x768] S16384x5x768 1) (r : Fin 16384) (s : Fin 3) (h : Fin 768) :
    concatenate S16384x5x768 1 [⟨S16384x1x768, X⟩, ⟨S16384x3x768, Y⟩, ⟨S16384x1x768, Z⟩] hc
        (ix3 r (⟨s.val + 1, by omega⟩ : Fin 5) h)
      = Y (ix3 r s h) := by
  refine concatenate_apply_piece (t := S16384x5x768) (1 : Fin 3) [⟨S16384x1x768, X⟩, ⟨S16384x3x768, Y⟩, ⟨S16384x1x768, Z⟩]
    hc _ 1 (by show (1 : ℕ) < 3; omega) S16384x3x768 Y rfl rfl 1 rfl (ix3 r s h) (fun b hb => ?_) ?_
  · match b with
    | ⟨0, _⟩ => rfl
    | ⟨1, _⟩ => exact absurd (Fin.ext rfl) hb
    | ⟨2, _⟩ => rfl
  · show 1 + s.val = s.val + 1
    omega

/-- The last entry along the middle axis reads the third array. -/
theorem concat131_last {α : Type} (X : S16384x1x768.Idx → α) (Y : S16384x3x768.Idx → α) (Z : S16384x1x768.Idx → α)
    (hc : Shape.Concatenates [S16384x1x768, S16384x3x768, S16384x1x768] S16384x5x768 1) (r : Fin 16384) (h : Fin 768) :
    concatenate S16384x5x768 1 [⟨S16384x1x768, X⟩, ⟨S16384x3x768, Y⟩, ⟨S16384x1x768, Z⟩] hc (ix3 r (⟨4, by omega⟩ : Fin 5) h)
      = Z (ix3 r (0 : Fin 1) h) := by
  refine concatenate_apply_piece (t := S16384x5x768) (1 : Fin 3) [⟨S16384x1x768, X⟩, ⟨S16384x3x768, Y⟩, ⟨S16384x1x768, Z⟩]
    hc _ 2 (by show (2 : ℕ) < 3; omega) S16384x1x768 Z rfl rfl 4 rfl (ix3 r (0 : Fin 1) h) (fun b hb => ?_) rfl
  match b with
  | ⟨0, _⟩ => rfl
  | ⟨1, _⟩ => exact absurd (Fin.ext rfl) hb
  | ⟨2, _⟩ => rfl

/-- Entry (r, q, h) of the token rows is the specification's token embedding of output row q. -/
theorem tokRows_apply (a0 : FVec Ideal S16384x3x2048 .f32) (a1 : IVec S16384x5 32) (a2 : FVec Ideal S2048x768 .f32)
    (a3 : FVec Ideal S768 .f32) (a4 : FVec Ideal S30522x768 .f32) (a5 : FVec Ideal S512x768 .f32)
    (a6 : FVec Ideal S2x768 .f32) (a7 a8 : FVec Ideal S768 .f32) (r : Fin 16384) (q : Fin 5) (h : Fin 768) :
    tokRows (F := Ideal) a0 a2 a3 a4 (ix3 r q h) = Cert.Spec.tok (Cert.Spec.argsOf a0 a1 a2 a3 a4 a5 a6 a7 a8) r q h := by
  unfold tokRows
  match q with
  | ⟨0, _⟩ => exact (concat131_first _ _ _ _ r h).trans (wordRow_apply 101 (by decide) _ a4 r 0 h)
  | ⟨1, _⟩ => exact (concat131_mid _ _ _ _ r 0 h).trans (imgRows_apply a0 a2 a3 r 0 h)
  | ⟨2, _⟩ => exact (concat131_mid _ _ _ _ r 1 h).trans (imgRows_apply a0 a2 a3 r 1 h)
  | ⟨3, _⟩ => exact (concat131_mid _ _ _ _ r 2 h).trans (imgRows_apply a0 a2 a3 r 2 h)
  | ⟨4, _⟩ => exact (concat131_last _ _ _ _ r h).trans (wordRow_apply 102 (by decide) _ a4 r 0 h)
  | ⟨n + 5, hq⟩ => exact absurd hq (by omega)

end Cert.RefSide

end
-- ==== Proof.RefReadPos.lean ====
/-
  The position rows of the reference read at an index: the five rows taken from the position table, given a unit
  leading axis and repeated for every batch row, read at (r, q, h) the taken row q at h.
-/
import proofs.«102618_g412316860866_cont_8to1_b_54_19_alg».proof.Proof.RefEmb
import Idealize.ShloMosaic.Lib.Pipeline.Value
import Idealize.ShloMosaic.Lib.ValueIdx

noncomputable section

namespace Cert.RefSide

open Cert.ReferenceIdeal Cert.ReferenceIdeal.Facts₀ Idealize.ShloMosaic Idealize.ShloMosaic.ValueIdx

variable [Cert.ReferenceIdeal.Facts]

/-- A [5, 768] array placed on the two trailing axes of [1, 5, 768] and broadcast along the batch axis reads, at
    (r, q, h), its entry (q, h). -/
theorem overBatch_apply {α : Type} (v : S5x768.Idx → α) (r : Fin 16384) (q : Fin 5) (h : Fin 768) :
    broadcastInDim S16384x5x768 ![0, 1, 2] bcast_S1x5x768_S16384x5x768_0_1_2
      (broadcastInDim S1x5x768 ![1, 2] bcast_S5x768_S1x5x768_1_2 v) (ix3 r q h) = v (ix2 q h) := by
  refine (broadcastInDim_apply _ bcast_S1x5x768_S16384x5x768_0_1_2 _ (ix3 r q h) (ix3 (0 : Fin 1) q h) (fun ax => ?_)).trans ?_
  · match ax with
    | ⟨0, _⟩ => rfl
    | ⟨1, _⟩ => rfl
    | ⟨2, _⟩ => rfl
  · refine broadcastInDim_apply _ bcast_S5x768_S1x5x768_1_2 v (ix3 (0 : Fin 1) q h) (ix2 q h) (fun ax => ?_)
    match ax with
    | ⟨0, _⟩ => rfl
    | ⟨1, _⟩ => rfl

/-- Entry (r, q, h) of the position rows is entry (q, h) of the five rows taken from the position table by the
    row numbers 0, 1, 2, 3, 4. -/
theorem posRows_apply {F : FTy → Type} [FloatOps F] (a5 : FVec F S512x768 .f32) (r : Fin 16384) (q : Fin 5) (h : Fin 768) :
    posRows a5 (ix3 r q h) = posTake a5 (iotaInDim S5 32 0) (ix2 q h) := by
  unfold posRows
  exact overBatch_apply _ r q h

end Cert.RefSide

end
-- ==== Proof.LibRowsByIndex.lean ====
/-
  Rows taken and rows added by an array of row numbers, read at an index.

  A gather that takes whole rows of an `N × C` matrix (or entries of an `N` vector) by an `E × 1` array of row
  numbers reads, at row `e`, the row whose number is entry `e` of the array, read as a signed integer and
  clamped into `[0, N − 1]`.  A scatter that adds the rows of an `E × C` matrix into an `N × C` matrix by
  such an array sends row `e` to the row whose number is entry `e`, read signed and NOT clamped: a row whose
  number is out of range is dropped.  So an update that lands on row `p` has a row number that is `p` as an
  integer, and in particular is not negative.

  At exact values the scatter-add is, at each entry, the entry plus the sum of the updates that land
  there.  A factor that is finite and not negative may be moved across that sum; this is what lets a per-row
  scale be applied either to every update that lands on the row or once to the row's sum.
-/
import Idealize.ShloMosaic.Lib.ValueIdx
import Idealize.ShloMosaic.PureOps.Ideal.Laws

noncomputable section

open scoped BigOperators

namespace Cert.RowsByIndex

open Idealize.ShloMosaic Idealize.ShloMosaic.ValueIdx

variable {α : Type}

/-- The row a start index names in a gather: the word read as a signed integer, clamped into `[0, N − 1]`. -/
def clampRow (N : ℕ) (hN : 0 < N) {w : ℕ} (b : BitVec w) : Fin N := ⟨min b.toInt.toNat (N - 1), by omega⟩

/-- A word whose signed reading is the row number `p` names row `p`. -/
theorem clampRow_of_toInt {N : ℕ} (hN : 0 < N) {w : ℕ} (b : BitVec w) (p : Fin N) (h : b.toInt = (p.val : ℤ)) :
    clampRow N hN b = p := by
  refine Fin.ext ?_
  show min b.toInt.toNat (N - 1) = p.val
  have := p.isLt
  rw [h]; simp only [Int.toNat_natCast]; omega

/-- A row number that is not negative is left alone by the wrap-around of negative row numbers
    (`select (x < 0) (x + N) x`). -/
theorem keep_nonneg (x y : BitVec 32) (h : 0 ≤ x.toInt) : Scalar.select (IntOp.cmpi .slt x 0#32) y x = x := by
  unfold Scalar.select IntOp.cmpi
  have hs : x.slt 0#32 = false := by
    rw [BitVec.slt_eq_decide]
    simpa using h
  simp [hs]

/-! ## Whole rows of a matrix taken by row numbers -/

/-- The dimension numbers of `x[idx]` for a matrix `x : [N, C]` and row numbers `idx : [E, 1]`. -/
abbrev rowsDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the rows taken is entry `c` of the row that entry `e` of the row numbers names. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e (0 : Fin 1)))) c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show ¬ (1 : Fin 2) ∈ (rowsDims N E C wf).startIndexMap from (by decide : (1 : Fin 2) ∉ ([0] : List (Fin 2))))]
    rw [hs]
    unfold GatherDims.offCoord
    rw [dif_pos ((GatherDims.mem_sKept _ _).mpr ⟨(by decide : (1 : Fin 2) ∉ ([0] : List (Fin 2))), List.not_mem_nil⟩)]
    simp only [Nat.zero_add]
    rfl

/-! ## Entries of a vector taken by row numbers -/

/-- The dimension numbers of `x[idx]` for a vector `x : [N]` and row numbers `idx : [E, 1]`. -/
abbrev entriesDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the entries taken is the vector's entry that entry `e` of the row numbers names. -/
theorem gather_entries_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e (0 : Fin 1))))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows added into a matrix by row numbers -/

/-- The dimension numbers of `x.at[idx].add(u)` for `x : [N, C]`, row numbers `idx : [E, 1]`, rows `u : [E, C]`. -/
abbrev addRowsDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The window of update `(e, c)` starts, along the rows, at the signed reading of entry `e` of the row numbers. -/
theorem addRows_start {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e (0 : Fin 1))).toInt := by
  unfold ScatterDims.start
  rw [dif_pos (show (0 : Fin 2) ∈ (addRowsDims N E C wf).scatterDimsToOperandDims from List.mem_singleton.mpr rfl)]
  have hsi : (addRowsDims N E C wf).siIdx (ix2 e c) ⟨List.idxOf (0 : Fin 2) (addRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Along the rows an update has no window coordinate: the row axis is inserted. -/
theorem addRows_window {N E C : ℕ} (wf : ScatterDims.WF ⟨2, ![N, C]⟩ ⟨2, ![E, 1]⟩ ⟨2, ![E, C]⟩ [1] [0] [0] 1)
    (e : Fin E) (c : Fin C) : (addRowsDims N E C wf).window (ix2 e c) 0 = 0 := by
  unfold ScatterDims.window
  rw [dif_neg (show ¬ (0 : Fin 2) ∈ (addRowsDims N E C wf).sKept from
    (by decide : (0 : Fin 2) ∉ (List.finRange 2).filter (· ∉ ([0] : List (Fin 2)))))]

/-- An update that lands on row `i 0` has, as its row number read signed, exactly `i 0`. -/
theorem addRows_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e (0 : Fin 1))).toInt = ((i 0).val : ℤ) := by
  unfold ScatterDims.resultIdx? at h
  split at h
  · rename_i hall
    have h0 := hall 0
    have hv : ((addRowsDims N E C wf).start (ix2 e c) idx 0 + ((addRowsDims N E C wf).window (ix2 e c) 0 : ℤ)).toNat = (i 0).val :=
      congrArg Fin.val (congrFun (Option.some.inj h) 0)
    rw [addRows_start, addRows_window] at hv h0
    simp only [Nat.cast_zero, add_zero] at hv h0
    omega
  · exact absurd h (by simp)

/-! ## A finite, non-negative factor across a sum of extended reals -/

/-- A factor that is not negative and not `+∞` distributes over a finite sum of extended reals. -/
theorem sum_mul_of_nonneg_ne_top {ι : Type*} (s : Finset ι) (f : ι → EReal) {D : EReal} (h0 : 0 ≤ D) (ht : D ≠ ⊤) :
    (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top h0 ht, ih]

/-- Scatter-adding into zero and then scaling an entry by a finite non-negative factor is scatter-adding, into
    zero, updates each of which carries that factor whenever it lands on the entry. -/
theorem scatterAdd_mul_right {s si su : Shape} {φ : FTy} (d : ScatterDims s si su) {w : ℕ} (idx : IVec si w)
    (u v : su.Idx → EReal) (z z' : s.Idx → EReal) (i : s.Idx) (hz : z i = 0) (hz' : z' i = 0)
    {D : EReal} (h0 : 0 ≤ D) (ht : D ≠ ⊤)
    (huv : ∀ j, d.resultIdx? j idx = some i → v j = u j * D) :
    Host.scatterAdd (F := Ideal) (φ := φ) d z idx u i * D = Host.scatterAdd (F := Ideal) (φ := φ) d z' idx v i := by
  show Ideal.hostScatterAdd d z idx u i * D = Ideal.hostScatterAdd d z' idx v i
  unfold Ideal.hostScatterAdd
  rw [hz, hz', zero_add, zero_add, sum_mul_of_nonneg_ne_top _ _ h0 ht]
  exact Finset.sum_congr rfl fun j hj => (huv j (Finset.mem_filter.mp hj).2).symm

/-- Scatter-adding, into equal entries, updates that agree wherever they land on the entry gives equal entries. -/
theorem scatterAdd_congr {s si su : Shape} {φ : FTy} (d : ScatterDims s si su) {w : ℕ} (idx : IVec si w)
    (u v : su.Idx → EReal) (z z' : s.Idx → EReal) (i : s.Idx) (hz : z i = z' i)
    (huv : ∀ j, d.resultIdx? j idx = some i → u j = v j) :
    Host.scatterAdd (F := Ideal) (φ := φ) d z idx u i = Host.scatterAdd (F := Ideal) (φ := φ) d z' idx v i := by
  show Ideal.hostScatterAdd d z idx u i = Ideal.hostScatterAdd d z' idx v i
  unfold Ideal.hostScatterAdd
  rw [hz]
  exact congrArg _ (Finset.sum_congr rfl fun j hj => huv j (Finset.mem_filter.mp hj).2)

/-! ## The inverse square root of a degree, guarded at zero, is finite and not negative -/

/-- `where(x > 0, rsqrt x, 0)` is a non-negative real, whatever extended real `x` is. -/
theorem guarded_rsqrt_finite (x z z' : EReal) (hz : z = 0) (hz' : z' = 0) :
    0 ≤ Scalar.select (Ideal.cmp .ogt x z) (Ideal.rsqrt x) z'
      ∧ Scalar.select (Ideal.cmp .ogt x z) (Ideal.rsqrt x) z' ≠ ⊤ := by
  subst hz hz'
  unfold Scalar.select Ideal.cmp
  by_cases hx : (0 : EReal) < x
  · simp only [hx, decide_true, BitVec.ofBool_true, if_true]
    induction x using EReal.rec with
    | bot => exact absurd hx (by simp)
    | top =>
      rw [show Ideal.rsqrt (⊤ : EReal) = 0 from rfl]
      exact ⟨le_refl _, EReal.zero_ne_top⟩
    | coe r =>
      have hr : 0 < r := by exact_mod_cast hx
      rw [show Ideal.rsqrt (r : EReal) = if r < 0 then ⊥ else if r = 0 then ⊤ else (((Real.sqrt r)⁻¹ : ℝ) : EReal) from rfl,
        if_neg (not_lt.mpr hr.le), if_neg hr.ne']
      exact ⟨by exact_mod_cast inv_nonneg.mpr (Real.sqrt_nonneg r), EReal.coe_ne_top _⟩
  · simp only [hx, decide_false, BitVec.ofBool_false]
    simp

end Cert.RowsByIndex

end
-- ==== Proof.RefTakes.lean ====
/-
  The reference's two table look-ups, read at an index.

  A look-up takes rows of a table by an array of row numbers the way the host does: a negative row number has the
  table's row count added, a row number outside the table is masked, the rows are gathered with the row number read
  as a signed integer and clamped into the table, and a masked row reads a fixed float word instead of the gathered
  one.  Where every row number already lies inside the table none of this changes anything: the wrap leaves a row
  number that is not negative alone, the mask is true, the clamp is the identity, and the look-up reads the table's
  row itself.  The position look-up's row numbers are 0, 1, 2, 3, 4, all inside the 512-row table; the token-type
  look-up's row numbers are the token types, 0 or 1 by hypothesis, inside the two-row table.
-/
import proofs.«102618_g412316860866_cont_8to1_b_54_19_alg».proof.ReferenceIdeal
import proofs.«102618_g412316860866_cont_8to1_b_54_19_alg».proof.Proof.Spec
import proofs.«102618_g412316860866_cont_8to1_b_54_19_alg».proof.Proof.RefEmb
import proofs.«102618_g412316860866_cont_8to1_b_54_19_alg».proof.Proof.LibRowsByIndex
import Idealize.ShloMosaic.Lib.ValueIdx
import Idealize.ShloMosaic.Lib.IdealHost
import Idealize.ShloMosaic.Lib.Affine
import Idealize.ShloMosaic.Lib.Pipeline.Value
import Idealize.ShloMosaic.PureOps.Reduce
import Idealize.ShloMosaic.PureOps.Ideal.Laws

noncomputable section

namespace Cert.RefSide

open Idealize.ShloMosaic Idealize.ShloMosaic.ValueIdx
open Cert.ReferenceIdeal Cert.ReferenceIdeal.Facts₀

variable [Cert.ReferenceIdeal.Facts]

/-! ## Words and folds -/

/-- A left fold by `and` over one-bit words that are all 1, started at 1, is 1. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi (1#1 : BitVec 1) 1#1 = 1#1 from by decide]
    exact foldl_andi_all_one f l (fun n hn => h n (List.mem_cons.2 (Or.inr hn)))

/-- A conjunction (a reduce by `and` from the constant 1) over any axes of an array all of whose entries are 1 is 1
    at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_all_one x _ (fun i _ => hx i)

/-- A choice on a bit that is 1 is its first alternative. -/
theorem select_of_one {α : Type} (c : BitVec 1) (a b : α) (hc : c = 1#1) : Scalar.select c a b = a := by
  subst hc; exact select_one a b

/-- The word of a natural number below 5 reads, signed, as that number. -/
theorem toInt_small (a : Fin 5) : (BitVec.ofNat 32 a.val).toInt = (a.val : ℤ) := by
  fin_cases a <;> decide

/-- The words 0 and 1 read, signed, as 0 and 1: a token type that is 0 or 1 lies between 0 and 1. -/
theorem toInt_binary (t : BitVec 32) (ht : t = 0#32 ∨ t = 1#32) : 0 ≤ t.toInt ∧ t.toInt ≤ 1 := by
  rcases ht with rfl | rfl <;> decide

/-- Clamped into the two-row table, the token type 0 names row 0 and the token type 1 names row 1: the row the
    specification's `ttIdx` selects. -/
theorem clampRow_binary (t : BitVec 32) (ht : t = 0#32 ∨ t = 1#32) :
    Cert.RowsByIndex.clampRow 2 (by decide) t = Cert.Spec.ttIdx t := by
  rcases ht with rfl | rfl <;> decide

/-! ## The stages at an index -/

/-- The wrap of negative row numbers leaves a row number that is not negative alone. -/
theorem wrapRows_of_nonneg {s : Shape} (n : BitVec 32) (hb : S_.BroadcastsInDim s (![] : Fin 0 → Fin s.rank))
    (i : IVec s 32) (j : s.Idx) (h0 : 0 ≤ (i j).toInt) : wrapRows n hb i j = i j :=
  Cert.RowsByIndex.keep_nonneg (i j) (IntOp.addi (i j) n) h0

/-- A row number between the two bounds (signed, ends included) passes the range test. -/
theorem inRange_eq_one {s : Shape} (w lo hi : IVec s 32) (j : s.Idx) (h0 : (lo j).toInt ≤ (w j).toInt)
    (h1 : (w j).toInt ≤ (hi j).toInt) : inRange w lo hi j = 1#1 :=
  IntOp.andi_eq_one.2 ⟨IntOp.cmpi_sge.2 h0, IntOp.cmpi_sle.2 h1⟩

/-- The position look-up's column of row numbers at (q, ·) is the wrapped row number of q. -/
theorem posIdx_apply (i : IVec S5 32) (q : Fin 5) (u : Fin 1) :
    posIdx i (ix2 q u) = wrapRows 512#32 bcast_S_S5 i (ix1 q) := by
  unfold posIdx
  exact broadcastInDim_apply ![0] bcast_S5_S5x1_0 _ (ix2 q u) (ix1 q) (fun a => by match a with | ⟨0, _⟩ => rfl)

/-- For the row numbers 0, 1, 2, 3, 4 the column of row numbers at (q, ·) is the word of q. -/
theorem posIdx_iota (q : Fin 5) (u : Fin 1) : posIdx (iotaInDim S5 32 0) (ix2 q u) = BitVec.ofNat 32 q.val := by
  rw [posIdx_apply]
  exact wrapRows_of_nonneg 512#32 bcast_S_S5 (iotaInDim S5 32 0) (ix1 q) (by
    show 0 ≤ (BitVec.ofNat 32 q.val).toInt
    rw [toInt_small]; exact Int.natCast_nonneg _)

/-- The token-type look-up's array of row numbers at (r, q, ·) is the wrapped token type of (r, q). -/
theorem ttIdxArr_apply (a1 : IVec S16384x5 32) (r : Fin 16384) (q : Fin 5) (u : Fin 1) :
    ttIdxArr a1 (ix3 r q u) = wrapRows 2#32 bcast_S_S16384x5 a1 (ix2 r q) := by
  unfold ttIdxArr
  exact broadcastInDim_apply ![0, 1] bcast_S16384x5_S16384x5x1_0_1 _ (ix3 r q u) (ix2 r q)
    (fun a => by match a with | ⟨0, _⟩ => rfl | ⟨1, _⟩ => rfl)

/-- Where every token type is 0 or 1 the array of row numbers at (r, q, ·) is the token type of (r, q) itself. -/
theorem ttIdxArr_value (a1 : IVec S16384x5 32) (hbin : ∀ r q, a1 (ix2 r q) = 0#32 ∨ a1 (ix2 r q) = 1#32)
    (r : Fin 16384) (q : Fin 5) (u : Fin 1) : ttIdxArr a1 (ix3 r q u) = a1 (ix2 r q) := by
  rw [ttIdxArr_apply]
  exact wrapRows_of_nonneg 2#32 bcast_S_S16384x5 a1 (ix2 r q) (toInt_binary _ (hbin r q)).1

/-! ## Rows of a matrix taken by a rank-3 array of row numbers -/

/-- The dimension numbers of `x[idx]` for a matrix `x : [N, C]` and row numbers `idx : [R, Q, 1]`. -/
abbrev rows3Dims (N R Q C : ℕ)
    (wf : GatherDims.WF ⟨2, ![N, C]⟩ ⟨3, ![R, Q, 1]⟩ ⟨3, ![R, Q, C]⟩ [2] [0] [] [0] [] 2 ![1, C]) :
    GatherDims ⟨2, ![N, C]⟩ ⟨3, ![R, Q, 1]⟩ ⟨3, ![R, Q, C]⟩ where
  offsetDims := [2]
  collapsedSliceDims := [0]
  operandBatchingDims := []
  startIndicesBatchingDims := []
  startIndexMap := [0]
  indexVectorDim := 2
  sliceSizes := ![1, C]
  wf := wf

/-- Entry (r, q, c) of the rows taken is entry c of the row that entry (r, q) of the row numbers names, the row
    number read as a signed integer and clamped into the table. -/
theorem gather_rows3_apply {α : Type} {N R Q C w : ℕ} (hN : 0 < N)
    (wf : GatherDims.WF ⟨2, ![N, C]⟩ ⟨3, ![R, Q, 1]⟩ ⟨3, ![R, Q, C]⟩ [2] [0] [] [0] [] 2 ![1, C])
    (x : (⟨2, ![N, C]⟩ : Shape).Idx → α) (idx : IVec ⟨3, ![R, Q, 1]⟩ w) (r : Fin R) (q : Fin Q) (c : Fin C) :
    Host.gather (rows3Dims N R Q C wf) x idx (ix3 r q c)
      = x (ix2 (Cert.RowsByIndex.clampRow N hN (idx (ix3 r q (0 : Fin 1)))) c) := by
  unfold Host.gather
  congr 1
  funext a
  refine Fin.ext ?_
  match a with
  | ⟨0, _⟩ =>
    show (rows3Dims N R Q C wf).start (ix3 r q c) idx 0 + (rows3Dims N R Q C wf).batchCoord (ix3 r q c) 0
      + (rows3Dims N R Q C wf).offCoord (ix3 r q c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N R Q C wf).startIndexMap from List.mem_singleton.mpr rfl)]
    have hsi : (rows3Dims N R Q C wf).siIdx (ix3 r q c) ⟨List.idxOf (0 : Fin 2) (rows3Dims N R Q C wf).startIndexMap,
        List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi]
    rfl
  | ⟨1, _⟩ =>
    show (rows3Dims N R Q C wf).start (ix3 r q c) idx 1 + (rows3Dims N R Q C wf).batchCoord (ix3 r q c) 1
      + (rows3Dims N R Q C wf).offCoord (ix3 r q c) 1 = c.val
    rw [GatherDims.batchCoord_eq_zero _ _ _ List.not_mem_nil]
    have hs : (rows3Dims N R Q C wf).start (ix3 r q c) idx 1 = 0 := by
      unfold GatherDims.start
      rw [dif_neg (show ¬ (1 : Fin 2) ∈ (rows3Dims N R Q C wf).startIndexMap from
        (by decide : (1 : Fin 2) ∉ ([0] : List (Fin 2))))]
    rw [hs]
    unfold GatherDims.offCoord
    rw [dif_pos ((GatherDims.mem_sKept _ _).mpr ⟨(by decide : (1 : Fin 2) ∉ ([0] : List (Fin 2))), List.not_mem_nil⟩)]
    simp only [Nat.zero_add]
    rfl

/-! ## The two look-ups -/

/-- THE POSITION LOOK-UP READ AT AN INDEX: with the row numbers 0, 1, 2, 3, 4 the look-up's row q is row q of the
    position table.  Every row number lies in [0, 511], so the mask is true at every row; the row number of q is
    the word of q, which the clamp into the 512-row table leaves alone. -/
theorem posTake_apply (a5 : FVec Ideal ⟨2, ![512, 768]⟩ .f32) (q : Fin 5) (h : Fin 768) :
    posTake (F := Ideal) a5 (iotaInDim S5 32 0) (ValueIdx.ix2 q h) = a5 (ValueIdx.ix2 (Cert.Spec.posOf q) h) := by
  unfold posTake
  rw [select_apply]
  refine (select_of_one _ _ _ ?_).trans ?_
  · rw [broadcastInDim_apply ![0] bcast_S5_S5x768_0 _ (ix2 q h) (ix1 q) (fun a => by match a with | ⟨0, _⟩ => rfl)]
    refine reduce_andi_of_all _ _ _ _ _ rfl (fun i' => ?_)
    obtain ⟨a, u, rfl⟩ : ∃ (a : Fin 5) (u : Fin 1), i' = ix2 a u := ⟨_, _, eq_ix2 i'⟩
    have ha := a.isLt
    refine inRange_eq_one _ _ _ _ ?_ ?_
    · show (0#32 : BitVec 32).toInt ≤ (posIdx (iotaInDim S5 32 0) (ix2 a u)).toInt
      rw [posIdx_iota, toInt_small, show (0#32 : BitVec 32).toInt = 0 from by decide]; omega
    · show (posIdx (iotaInDim S5 32 0) (ix2 a u)).toInt ≤ (511#32 : BitVec 32).toInt
      rw [posIdx_iota, toInt_small, show (511#32 : BitVec 32).toInt = 511 from by decide]; omega
  · refine (Cert.RowsByIndex.gather_rows_apply (N := 512) (E := 5) (C := 768) (by decide)
      gather_S512x768_S5x1_S5x768_1_0_n_n_0_1_1768_wf a5 _ q h).trans ?_
    rw [posIdx_iota]
    exact congrArg (fun p => a5 (ix2 p h))
      (Cert.RowsByIndex.clampRow_of_toInt _ _ (Cert.Spec.posOf q) (toInt_small q))

/-- THE TOKEN-TYPE LOOK-UP READ AT AN INDEX: where every token type is 0 or 1, the look-up's row (r, q) is the row
    of the two-row table that the token type of (r, q) selects.  Every row number lies in [0, 1], so the mask is
    true at every (r, q); the row number is the token type itself, and the clamp into the two-row table sends 0
    to row 0 and 1 to row 1. -/
theorem ttRows_apply (a6 : FVec Ideal ⟨2, ![2, 768]⟩ .f32) (a1 : IVec ⟨2, ![16384, 5]⟩ 32)
    (hbin : ∀ r q, a1 (ValueIdx.ix2 r q) = 0#32 ∨ a1 (ValueIdx.ix2 r q) = 1#32)
    (r : Fin 16384) (q : Fin 5) (h : Fin 768) :
    ttRows (F := Ideal) a6 a1 (ValueIdx.ix3 r q h)
      = a6 (ValueIdx.ix2 (Cert.Spec.ttIdx (a1 (ValueIdx.ix2 r q))) h) := by
  unfold ttRows
  rw [select_apply]
  refine (select_of_one _ _ _ ?_).trans ?_
  · rw [broadcastInDim_apply ![0, 1] bcast_S16384x5_S16384x5x768_0_1 _ (ix3 r q h) (ix2 r q)
      (fun a => by match a with | ⟨0, _⟩ => rfl | ⟨1, _⟩ => rfl)]
    refine reduce_andi_of_all _ _ _ _ _ rfl (fun i' => ?_)
    obtain ⟨a, b, c, rfl⟩ : ∃ (a : Fin 16384) (b : Fin 5) (c : Fin 1), i' = ix3 a b c := ⟨_, _, _, eq_ix3 i'⟩
    have hv := toInt_binary _ (hbin a b)
    refine inRange_eq_one _ _ _ _ ?_ ?_
    · show (0#32 : BitVec 32).toInt ≤ (ttIdxArr a1 (ix3 a b c)).toInt
      rw [ttIdxArr_value a1 hbin, show (0#32 : BitVec 32).toInt = 0 from by decide]; exact hv.1
    · show (ttIdxArr a1 (ix3 a b c)).toInt ≤ (1#32 : BitVec 32).toInt
      rw [ttIdxArr_value a1 hbin, show (1#32 : BitVec 32).toInt = 1 from by decide]; exact hv.2
  · refine (gather_rows3_apply (N := 2) (R := 16384) (Q := 5) (C := 768) (by decide)
      gather_S2x768_S16384x5x1_S16384x5x768_2_0_n_n_0_2_1768_wf a6 _ r q h).trans ?_
    rw [ttIdxArr_value a1 hbin, clampRow_binary _ (hbin r q)]

end Cert.RefSide

end
-- ==== Proof.RefValue.lean ====
/-
  The reference's result read at an index.

  Entry (r, q, h) of the reference's result is the specification's `refOut`: the layer normalisation read at an
  index is the specification's normalisation of row (r, q) of the embedding sum, and that row is the
  specification's `refEmb` — the token embedding of output row q, plus position row q, plus the token-type row
  the token's type selects (its type being 0 or 1).
-/
import proofs.«102618_g412316860866_cont_8to1_b_54_19_alg».proof.Proof.RefRun
import proofs.«102618_g412316860866_cont_8to1_b_54_19_alg».proof.Proof.RefReadTok
import proofs.«102618_g412316860866_cont_8to1_b_54_19_alg».proof.Proof.RefReadPos
import proofs.«102618_g412316860866_cont_8to1_b_54_19_alg».proof.Proof.RefTakes

noncomputable section

namespace Cert.RefSide

open Cert.ReferenceIdeal Cert.ReferenceIdeal.Facts₀ Idealize.ShloMosaic Idealize.ShloMosaic.ValueIdx

variable [Cert.ReferenceIdeal.Facts]

/-- Entry (r, q, h) of the embedding sum is the specification's embedding sum of batch row r, output row q at h,
    where every token type is 0 or 1. -/
theorem emb_apply (a0 : FVec Ideal ⟨3, ![16384, 3, 2048]⟩ .f32) (a1 : IVec ⟨2, ![16384, 5]⟩ 32) (a2 : FVec Ideal ⟨2, ![2048, 768]⟩ .f32)
    (a3 : FVec Ideal ⟨1, ![768]⟩ .f32) (a4 : FVec Ideal ⟨2, ![30522, 768]⟩ .f32) (a5 : FVec Ideal ⟨2, ![512, 768]⟩ .f32)
    (a6 : FVec Ideal ⟨2, ![2, 768]⟩ .f32) (a7 a8 : FVec Ideal ⟨1, ![768]⟩ .f32)
    (hbin : (Cert.Spec.argsOf a0 a1 a2 a3 a4 a5 a6 a7 a8).Binary) (r : Fin 16384) (q : Fin 5) (h : Fin 768) :
    emb (F := Ideal) a0 a1 a2 a3 a4 a5 a6 (ix3 r q h) = Cert.Spec.refEmb (Cert.Spec.argsOf a0 a1 a2 a3 a4 a5 a6 a7 a8) r q h := by
  unfold emb
  rw [addf_apply, addf_apply, tokRows_apply a0 a1 a2 a3 a4 a5 a6 a7 a8, posRows_apply, posTake_apply,
    ttRows_apply a6 a1 hbin]
  rfl

/-- Entry (r, q, h) of the reference's result is the specification's reference output, where every token type is
    0 or 1. -/
theorem refVal_apply (a0 : FVec Ideal ⟨3, ![16384, 3, 2048]⟩ .f32) (a1 : IVec ⟨2, ![16384, 5]⟩ 32) (a2 : FVec Ideal ⟨2, ![2048, 768]⟩ .f32)
    (a3 : FVec Ideal ⟨1, ![768]⟩ .f32) (a4 : FVec Ideal ⟨2, ![30522, 768]⟩ .f32) (a5 : FVec Ideal ⟨2, ![512, 768]⟩ .f32)
    (a6 : FVec Ideal ⟨2, ![2, 768]⟩ .f32) (a7 a8 : FVec Ideal ⟨1, ![768]⟩ .f32)
    (hbin : (Cert.Spec.argsOf a0 a1 a2 a3 a4 a5 a6 a7 a8).Binary) (r : Fin 16384) (q : Fin 5) (h : Fin 768) :
    refVal a0 a1 a2 a3 a4 a5 a6 a7 a8 (ValueIdx.ix3 r q h) = Cert.Spec.refOut (Cert.Spec.argsOf a0 a1 a2 a3 a4 a5 a6 a7 a8) r q h := by
  unfold refVal
  rw [lnTail_apply]
  have hrow : (fun k => emb (F := Ideal) a0 a1 a2 a3 a4 a5 a6 (ix3 r q k))
      = Cert.Spec.refEmb (Cert.Spec.argsOf a0 a1 a2 a3 a4 a5 a6 a7 a8) r q :=
    funext fun k => emb_apply a0 a1 a2 a3 a4 a5 a6 a7 a8 hbin r q k
  rw [hrow]
  rfl

end Cert.RefSide

end
-- ==== Proof.lean ====
/-
  Image-BERT embeddings: the fused kernel against its jnp reference, at the exact (extended-real) values.

  For batch row r and output row q = 0..4 both programs form a 768-feature row — the [CLS] word embedding
  (q = 0), one of three image slots projected by the 2048 × 768 matrix plus the projection's bias (q = 1..3), or
  the [SEP] word embedding (q = 4) — add the position embedding of q and the token-type embedding selected by
  the integer tt r q, and layer-normalise the sum over its features.

  The reference gathers the token-type row and divides by sqrt (variance + eps).  The kernel spells the lookup
  in the two-row table as tte0 + t · (tte1 − tte0) with t the integer read as a number, normalises the two
  possible [CLS] and [SEP] rows once and blends them by t, rounds the matrix operands to a shorter float
  format on the way into the product (the identity on exact values), and multiplies by rsqrt (variance + eps).
  With every float input a real number and every token type 0 or 1 (the precondition) the two agree:
  a + 0 · (c − a) = a and a + 1 · (c − a) = c for real a, c; b + t0 + (t1 − t0) = b + t1 for real t0; and
  x / sqrt s = x · rsqrt s for a positive real s (the variance of a real row is non-negative and eps > 0).

  Spec states both spellings (kernelOut, refOut); SpecLaws proves them equal; PreDecode reads the precondition;
  the K* modules read the kernel's result array off its generated frame run as kernelOut of the arguments; the
  Ref* modules run the reference's host operations and read its result as refOut of the arguments.
-/
import proofs.«102618_g412316860866_cont_8to1_b_54_19_alg».proof.Defs
import proofs.«102618_g412316860866_cont_8to1_b_54_19_alg».proof.Proof.Gen.Kernel
import proofs.«102618_g412316860866_cont_8to1_b_54_19_alg».proof.Proof.Gen.Kernel.Skeleton
import proofs.«102618_g412316860866_cont_8to1_b_54_19_alg».proof.Proof.Gen.Kernel.Launch
import proofs.«102618_g412316860866_cont_8to1_b_54_19_alg».proof.Proof.Gen.Kernel.Points
import proofs.«102618_g412316860866_cont_8to1_b_54_19_alg».proof.Proof.Gen.Kernel.Frame
import proofs.«102618_g412316860866_cont_8to1_b_54_19_alg».proof.Proof.Gen.KernelIdeal
import proofs.«102618_g412316860866_cont_8to1_b_54_19_alg».proof.Proof.Gen.KernelIdeal.Skeleton
import proofs.«102618_g412316860866_cont_8to1_b_54_19_alg».proof.Proof.Gen.KernelIdeal.Launch
import proofs.«102618_g412316860866_cont_8to1_b_54_19_alg».proof.Proof.Gen.KernelIdeal.Points
import proofs.«102618_g412316860866_cont_8to1_b_54_19_alg».proof.Proof.Gen.KernelIdeal.Frame
import proofs.«102618_g412316860866_cont_8to1_b_54_19_alg».proof.Proof.Gen.ReferenceIdeal
import proofs.«102618_g412316860866_cont_8to1_b_54_19_alg».proof.Proof.Gen.Pre_finite_inputs
import proofs.«102618_g412316860866_cont_8to1_b_54_19_alg».proof.Proof.SpecLaws
import proofs.«102618_g412316860866_cont_8to1_b_54_19_alg».proof.Proof.PreDecode
import proofs.«102618_g412316860866_cont_8to1_b_54_19_alg».proof.Proof.KFinal
import proofs.«102618_g412316860866_cont_8to1_b_54_19_alg».proof.Proof.RefRun
import proofs.«102618_g412316860866_cont_8to1_b_54_19_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The printed kernel runs to the end with its arguments unchanged. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference is host operations only: its run, with the result forgotten. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (@Cert.RefSide.run Cert.ReferenceIdeal.Gen.facts m ρ)

/-- Run from memories that agree on the arguments, the kernel ends with `kernelOut` of the arguments in its result
    array and the reference with `refOut` of them; under the precondition — every float entry real, every token type
    0 or 1 — the two are equal entry by entry. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KSide.kernelVal m c, @Cert.KSide.run Cert.KernelIdeal.Gen.facts m ρ, ?_⟩
  refine (θ_run Cert.ReferenceIdeal.defs _ _).mono (fun r h c => ⟨(h c).1.trans ?_, (h c).2⟩)
    (@Cert.RefSide.run Cert.ReferenceIdeal.Gen.facts m' ρ')
  obtain ⟨e0, e1, e2, e3, e4, e5, e6, e7, e8⟩ := hagree c
  rw [e0, e1, e2, e3, e4, e5, e6, e7, e8]
  obtain ⟨hfin, hbin⟩ := @Cert.PreDecode.decode Cert.Pre_finite_inputs.Gen.facts _ _ _ _ _ _ _ _ _ (hpre c)
  funext i
  obtain ⟨r, q, h, rfl⟩ : ∃ (r : Fin 16384) (q : Fin 5) (h : Fin 768), i = ix3 r q h := ⟨i 0, i 1, i 2, eq_ix3 i⟩
  rw [@Cert.RefSide.refVal_apply Cert.ReferenceIdeal.Gen.facts _ _ _ _ _ _ _ _ _ hbin r q h]
  exact (Cert.Spec.kernelOut_eq_refOut _ hfin hbin r q h).symm

/-- The five claims: the three frames, the (empty) idealization ledger, and the equality of results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
